-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x2048x1024 .f32) (main_arg1 : FVec F S8x2048x1024 .f32) (main_arg2 : FVec F S1024x1024 .f32) (main_arg3 : FVec F S1024 .f32) (main_arg4 : FVec F S1024 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1x1 : Shape := ⟨2, ![1, 1]⟩
abbrev S1024x1 : Shape := ⟨2, ![1024, 1]⟩
abbrev S1 : Shape := ⟨1, ![1]⟩
abbrev S_ : Shape := ⟨0, ![]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 15
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S16384x1024, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S1x1, .f32⟩
  | .hbm, ⟨12, _⟩ => ⟨S1024x1024, .bf16⟩
  | .hbm, ⟨13, _⟩ => ⟨S16384x1024, .f32⟩
  | .hbm, ⟨14, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1, .f32⟩
  | .local _ .vmem, ⟨3, _⟩ => ⟨S1024x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S1x1, .f32⟩
  | .local _ .vmem, ⟨14, _⟩ => ⟨S512x1024, .f32⟩
  | .local _ .vmem, ⟨15, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg1_0 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg4_0 : Ref sig .tc := ⟨.vmem, 11, rfl⟩
abbrev cc2_stg5_0 : Ref sig .tc := ⟨.vmem, 12, rfl⟩
abbrev cc2_stg6_0 : Ref sig .tc := ⟨.vmem, 13, rfl⟩
abbrev cc2_stg7_0 : Ref sig .tc := ⟨.vmem, 14, rfl⟩
abbrev cc2_stg7_1 : Ref sig .tc := ⟨.vmem, 15, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc2_sem0_0 : DmaSem sig := 5
abbrev cc2_sem0_1 : DmaSem sig := 6
abbrev cc2_sem1_0 : DmaSem sig := 7
abbrev cc2_sem1_1 : DmaSem sig := 8
abbrev cc2_sem2_0 : DmaSem sig := 9
abbrev cc2_sem3_0 : DmaSem sig := 10
abbrev cc2_sem4_0 : DmaSem sig := 11
abbrev cc2_sem5_0 : DmaSem sig := 12
abbrev cc2_sem6_0 : DmaSem sig := 13
abbrev cc2_sem7_0 : DmaSem sig := 14
abbrev cc2_sem7_1 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_4 : BitVec 32 := 0#32
  let v13 : BitVec 1 := Scalar.cmpi .ne v12 c0_i32_4
  v13

def k0_cond2 (i : grid0.Coords) : BitVec 1 :=
  let arg0 : BitVec 32 := BitVec.ofNat 32 (i 0).val
  let c0_i32_5 : BitVec 32 := 0#32
  let v14 : BitVec 1 := Scalar.cmpi .ne arg0 c0_i32_5
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S8x2048x1024_S16384x1024 : S8x2048x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bcast_S_S1x1 : S_.BroadcastsInDim S1x1 (![] : Fin 0 → Fin S1x1.rank)
  broadcasts_S1x1_S1024x1024 : S1x1.Broadcasts S1024x1024
  transposes_S1024x1024_p1_0_S1024x1024 : S1024x1024.Transposes [1, 0] S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S1x1_S512x1024 : S1x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S16384x1024_S8x2048x1024 : S16384x1024.ShapeCasts S8x2048x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .f32 = 32 ∨ (Rect.block (s := S1024x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S16384x1024.size a
  hwx2_0 : ∀ i : grid2.Coords, EltTy.bits .f32 = 32 ∨ (Rect.block (s := S16384x1024) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S16384x1024.size a
  hwx2_1 : ∀ i : grid2.Coords, EltTy.bits .f32 = 32 ∨ (Rect.block (s := S16384x1024) S512x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .bf16 = 32 ∨ (Rect.block (s := S1024x1024) S1024x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1024.size a
  hwx2_3 : ∀ i : grid2.Coords, EltTy.bits .f32 = 32 ∨ (Rect.block (s := S1024) S1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024.size a ≤ S1024.size a
  hwx2_5 : ∀ i : grid2.Coords, EltTy.bits .f32 = 32 ∨ (Rect.block (s := S1024) S1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x1024.size a ≤ S16384x1024.size a
  hwx2_7 : ∀ i : grid2.Coords, EltTy.bits .f32 = 32 ∨ (Rect.block (s := S16384x1024) S512x1024.size (cc2_transform_7 i) (hinb2_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_arg2) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v6) S512x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩
abbrev S8x2048 : Shape := ⟨2, ![8, 2048]⟩
abbrev S8x2048x1 : Shape := ⟨3, ![8, 2048, 1]⟩

abbrev nBuf : Space → Nat
  | .hbm => 80
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S1x1x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1024, .f32⟩
  | .hbm, ⟨67, _⟩ => ⟨S8x2048x1024, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x1024, .f32⟩
  | .hbm, ⟨73, _⟩ => ⟨S8x2048x1024, .f32⟩
  | .hbm, ⟨74, _⟩ => ⟨S1x1x1024, .f32⟩
  | .hbm, ⟨75, _⟩ => ⟨S8x2048x1024, .f32⟩
  | .hbm, ⟨76, _⟩ => ⟨S8x2048x1024, .f32⟩
  | .hbm, ⟨77, _⟩ => ⟨S1x1x1024, .f32⟩
  | .hbm, ⟨78, _⟩ => ⟨S8x2048x1024, .f32⟩
  | .hbm, ⟨79, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_cst_2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_cst_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v11 : Ref sig .tc := ⟨.hbm, 33, rfl⟩
abbrev main_v12 : Ref sig .tc := ⟨.hbm, 34, rfl⟩
abbrev main_cst_5 : Ref sig .tc := ⟨.hbm, 35, rfl⟩
abbrev main_v13 : Ref sig .tc := ⟨.hbm, 36, rfl⟩
abbrev main_cst_6 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_cst_8 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_cst_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x1024_S8x2048_d2 : S8x2048x1024.ReducesTo [2] S8x2048
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  dot_S8x2048x1024_S1024x1024_S8x2048x1024_2_1_01_0_n_n_wf : DotDims.WF S8x2048x1024 S1024x1024 S8x2048x1024 [2] [1] [0, 1] [0] [] []

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf

class Facts : Prop extends Facts₀ where

variable [Facts]
-- ==== Proof.KRegion0Runs.lean ====
/-
  The first region: the running maximum of |clip x| over the sixteen blocks of 1024 rows.

  The region's one output block is the single cell (0, 0), the same block at every grid point, written back only
  after the last point. At the first point the body stores the block maximum of the first 1024 rows into it; at every
  later point it reads the cell back and stores the larger of what it read and that point's block maximum. So after
  point t the cell holds the maximum over rows 0 .. 1024 (t + 1) - 1, and what is written back is the maximum over
  all 16384 rows. This module runs the body once in each of the two cases, on any staging memrefs, and records what
  each case leaves in the cell as the pieces its one store writes.
-/
import proofs.«177588_j61813169324800_1_alg».proof.Proof.Gen.Kernel.Launch
import proofs.«177588_j61813169324800_1_alg».proof.Proof.Gen.Kernel.Skeleton
import proofs.«177588_j61813169324800_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two cases over the grid -/

/-- The first conditional of the body is taken at the first grid point only, -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- and the second at every other point: exactly one of the two stores happens at each point. -/
theorem cond2_iff : ∀ t : Fin cfg0.N, k0_cond2 (grid0.coords t) = 1#1 ↔ t.val ≠ 0 :=
  (by decide +kernel : ∀ t : Fin grid0.N, k0_cond2 (grid0.coords t) = 1#1 ↔ t.val ≠ 0)

/-- Hence no coordinate leaves the output cell unstored: the two conditions are complementary. -/
theorem live_out : ∀ i : cfg0.grid.Coords, cfg0.idle 1 i = false :=
  (by decide +kernel : ∀ i : grid0.Coords, idle0 1 i = false)
theorem live_in : ∀ i : cfg0.grid.Coords, cfg0.idle 0 i = false := fun _ => rfl

/-! ## The staging memrefs at a point -/

/-- One staging buffer of the output cell, through which its contents are stated. -/
abbrev cellView : View sig .tc .vmem S1x1 .f32 := (Memref.whole cc0_stg1_0 : Memref sig .tc .vmem S1x1 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)

/-! ## The body in each case -/

set_option maxHeartbeats 1000000 in
/-- AT THE FIRST POINT (first conditional taken, second not): on whole staging memrefs, the rows' at contents x0 and
    the cell's at anything, the body runs to the continuation with the rows' memref as it was and the cell's written
    with the pieces found here — one store of the block maximum of x0. -/
noncomputable def runFirst (c : Dev nD) (i : grid0.Coords) (arg1 : Memref sig .tc .vmem S1024x1024 .f32) (harg1 : arg1.IsWhole)
    (arg2 : Memref sig .tc .vmem S1x1 .f32) (harg2 : arg2.IsWhole) (hc1 : k0_cond1 i = 1#1) (hc2 : ¬ k0_cond2 i = 1#1)
    (x0 : Vec F S1024x1024 .f32) :
    { L1 : List (View.Piece (Elt F) S1x1 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__reduce_max_kernel i arg1 harg1 arg2 harg2) K } := by
  refine ⟨?_, fun E K => ?run⟩
  case run =>
    simp only [cc0__reduce_max_kernel_eq_skeleton]; unfold cc0__reduce_max_kernel_skel
    unfold owns
    iintro ⟨⟨%f0, %hf0, H0⟩, ⟨%d1, %f1, -, H1⟩, Hk⟩
    obtain rfl := harg1.eq_unread hf0
    sl_exec (disch := first | exact hc1 | exact hc2)
    sl_step
    iapply Hk
    isplitl [H0]
    · iexists _; isplitr; · ipureintro; exact harg1.read_unread _
      iexact H0
    iexists _; iexact H1

set_option maxHeartbeats 1000000 in
/-- AT A LATER POINT (first conditional not taken, second taken): the cell's memref now at the running contents xo,
    which the body reads before it stores; it is left written with one store of max (xo, block maximum of x0). -/
noncomputable def runLater (c : Dev nD) (i : grid0.Coords) (arg1 : Memref sig .tc .vmem S1024x1024 .f32) (harg1 : arg1.IsWhole)
    (arg2 : Memref sig .tc .vmem S1x1 .f32) (harg2 : arg2.IsWhole) (hc1 : ¬ k0_cond1 i = 1#1) (hc2 : k0_cond2 i = 1#1)
    (x0 : Vec F S1024x1024 .f32) (xo : Vec F S1x1 .f32) :
    { L1 : List (View.Piece (Elt F) S1x1 .f32) //
      ∀ (E : Set ℕ) (K : PUnit → sProp 𝕄),
        iprop(owns (c : Thread nD τ) arg1 fullShare x0 ∗ owns (c : Thread nD τ) arg2 fullShare xo
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__reduce_max_kernel i arg1 harg1 arg2 harg2) K } := by
  refine ⟨?_, fun E K => ?run⟩
  case run =>
    simp only [cc0__reduce_max_kernel_eq_skeleton]; unfold cc0__reduce_max_kernel_skel
    unfold owns
    iintro ⟨⟨%f0, %hf0, H0⟩, ⟨%f1, %hf1, H1⟩, Hk⟩
    obtain rfl := harg1.eq_unread hf0; obtain rfl := harg2.eq_unread hf1
    sl_exec (disch := first | exact hc1 | exact hc2)
    sl_step
    iapply Hk
    isplitl [H0]
    · iexists _; isplitr; · ipureintro; exact harg1.read_unread _
      iexact H0
    iexists _; iexact H1

end Cert.Kernel.Hand

end
-- ==== Proof.KRegion0.lean ====
/-
  The first region, continued: what the output cell holds after each grid point, and the body obligation.

  After the first point the cell holds the first block's maximum; after point t + 1 it holds the larger of what it
  held after point t and block t + 1's maximum. The cell's staging buffer is never written back before the last
  point and the body stores into it at every point, so at each later point the body finds in it exactly what the
  point before left. With that, the body's run in the point's case is the pipeline's obligation at the point.
-/
import proofs.«177588_j61813169324800_1_alg».proof.Proof.KRegion0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the cell -/

/-- The one store of the first case covers the cell. -/
theorem coverFirst (c : Dev nD) (i : grid0.Coords) (arg1 : Memref sig .tc .vmem S1024x1024 .f32) (harg1 : arg1.IsWhole)
    (arg2 : Memref sig .tc .vmem S1x1 .f32) (harg2 : arg2.IsWhole) (hc1 : k0_cond1 i = 1#1) (hc2 : ¬ k0_cond2 i = 1#1)
    (x0 : Vec F S1024x1024 .f32) (y : S1x1.Idx) :
    ∃ pc ∈ (runFirst c i arg1 harg1 arg2 harg2 hc1 hc2 x0).1, y ∈ pc.1.set :=
  View.cover_of_tiledL (runFirst c i arg1 harg1 arg2 harg2 hc1 hc2 x0).1 S1x1.size (by sl_kernel_rfl) y

/-- The cell after the first case: its store read back. -/
def cellFirst (c : Dev nD) (i : grid0.Coords) (arg1 : Memref sig .tc .vmem S1024x1024 .f32) (harg1 : arg1.IsWhole)
    (arg2 : Memref sig .tc .vmem S1x1 .f32) (harg2 : arg2.IsWhole) (hc1 : k0_cond1 i = 1#1) (hc2 : ¬ k0_cond2 i = 1#1)
    (x0 : Vec F S1024x1024 .f32) : Vec F S1x1 .f32 :=
  cellView.read (Elt F) (cellView.writes (Elt F) cellView.junk (runFirst c i arg1 harg1 arg2 harg2 hc1 hc2 x0).1)

/-- The one store of the later case covers the cell. -/
theorem coverLater (c : Dev nD) (i : grid0.Coords) (arg1 : Memref sig .tc .vmem S1024x1024 .f32) (harg1 : arg1.IsWhole)
    (arg2 : Memref sig .tc .vmem S1x1 .f32) (harg2 : arg2.IsWhole) (hc1 : ¬ k0_cond1 i = 1#1) (hc2 : k0_cond2 i = 1#1)
    (x0 : Vec F S1024x1024 .f32) (xo : Vec F S1x1 .f32) (y : S1x1.Idx) :
    ∃ pc ∈ (runLater c i arg1 harg1 arg2 harg2 hc1 hc2 x0 xo).1, y ∈ pc.1.set :=
  View.cover_of_tiledL (runLater c i arg1 harg1 arg2 harg2 hc1 hc2 x0 xo).1 S1x1.size (by sl_kernel_rfl) y

/-- The cell after the later case, from what it held (xo) and the point's rows (x0). -/
def cellLater (c : Dev nD) (i : grid0.Coords) (arg1 : Memref sig .tc .vmem S1024x1024 .f32) (harg1 : arg1.IsWhole)
    (arg2 : Memref sig .tc .vmem S1x1 .f32) (harg2 : arg2.IsWhole) (hc1 : ¬ k0_cond1 i = 1#1) (hc2 : k0_cond2 i = 1#1)
    (x0 : Vec F S1024x1024 .f32) (xo : Vec F S1x1 .f32) : Vec F S1x1 .f32 :=
  cellView.read (Elt F) (cellView.writes (Elt F) cellView.junk (runLater c i arg1 harg1 arg2 harg2 hc1 hc2 x0 xo).1)

/-! ## The region at the contents it is entered with -/

variable (V : (c : Dev nD) → (b : Ref sig .tc) → Buf (Elt F) ((c : Thread nD τ).loc b))

/-- A window's block at a grid point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds the point's 1024 rows whenever the body runs, for any proof data over these arrays
    that leaves the rows' block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl live_in (fun _ _ _ => rfl) (fun t => by rw [hafter]; unfold Dat.blockOf iblk0; rw [hA]; try rfl) t d).trans
    (by unfold Dat.fetched Dat.blockOf iblk0; rw [hA]; try rfl)

/-- THE RUNNING MAXIMUM. What the cell's staging buffer holds after the body at position n: the first case at n = 0,
    the later case over what position n - 1 left otherwise. -/
def cellAfter (c : Dev nD) : (n : ℕ) → n < cfg0.N → Vec F S1x1 .f32
  | 0, hn => cellFirst c (grid0.coords ⟨0, hn⟩) (ms0_0 ⟨0, hn⟩) (hs0_0 ⟨0, hn⟩) (ms0_1 ⟨0, hn⟩) (hs0_1 ⟨0, hn⟩)
      ((cond1_iff ⟨0, hn⟩).mpr rfl) (fun h => (cond2_iff ⟨0, hn⟩).mp h rfl) (iblk0 V c 0 ⟨0, hn⟩)
  | n + 1, hn => cellLater c (grid0.coords ⟨n + 1, hn⟩) (ms0_0 ⟨n + 1, hn⟩) (hs0_0 ⟨n + 1, hn⟩) (ms0_1 ⟨n + 1, hn⟩) (hs0_1 ⟨n + 1, hn⟩)
      (fun h => Nat.succ_ne_zero n ((cond1_iff ⟨n + 1, hn⟩).mp h)) ((cond2_iff ⟨n + 1, hn⟩).mpr (Nat.succ_ne_zero n))
      (iblk0 V c 0 ⟨n + 1, hn⟩) (cellAfter c n (Nat.lt_of_succ_lt hn))

theorem cellAfter_first (c : Dev nD) (t : Fin cfg0.N) (h0 : t.val = 0) :
    cellAfter V c t.val t.isLt = cellFirst c (grid0.coords t) (ms0_0 t) (hs0_0 t) (ms0_1 t) (hs0_1 t)
      ((cond1_iff t).mpr h0) (fun h => (cond2_iff t).mp h h0) (iblk0 V c 0 t) := by
  obtain ⟨n, hn⟩ := t
  cases n with
  | zero => rfl
  | succ n => exact absurd h0 (Nat.succ_ne_zero n)

theorem cellAfter_later (c : Dev nD) (t : Fin cfg0.N) (h0 : t.val ≠ 0) :
    cellAfter V c t.val t.isLt = cellLater c (grid0.coords t) (ms0_0 t) (hs0_0 t) (ms0_1 t) (hs0_1 t)
      (fun h => h0 ((cond1_iff t).mp h)) ((cond2_iff t).mpr h0) (iblk0 V c 0 t)
      (cellAfter V c (t.val - 1) (Nat.lt_of_le_of_lt (Nat.sub_le _ _) t.isLt)) := by
  obtain ⟨n, hn⟩ := t
  cases n with
  | zero => exact absurd rfl h0
  | succ n => rfl

/-! ## The proof data -/

/-- The region's proof data on a core: its two arrays as the region finds them; after the body at a point the rows'
    buffer still at the point's rows and the cell's at the running maximum; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => cellAfter V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = cellAfter V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- At a later point the cell's staging buffer holds what the point before left: the point is not the first, the
    buffer is written back only after the last point, the body stores into it at every point, the block is whole. -/
theorem before0_1_later (c : Dev nD) (t : Fin cfg0.N) (h0 : t.val ≠ 0) (d) :
    (dat0 V c).before 1 t d = cellAfter V c (t.val - 1) (Nat.lt_of_le_of_lt (Nat.sub_le _ _) t.isLt) := by
  have hN : t.val < 16 := lt_of_lt_of_eq t.isLt (show cfg0.N = 16 from N_0)
  rw [Dat.before_out_kept _ 1 rfl t h0 (Bool.eq_false_iff.mpr fun h => by have := (flush0_1 _).mp h; dsimp only at this; omega)
    live_out (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the rows' memref holds the point's rows; at the first point the cell's memref holds
    anything and the first case runs; at a later point it holds what the point before left and the later case runs. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val = 0
  · rw [cellAfter_first V c t h0]
    unfold cellFirst
    iintro ⟨HΦ, Ho, ⟨%d0, H0⟩, ⟨%d1, H1⟩⟩
    iapply ((runFirst c (grid0.coords t) _ _ _ _ ((cond1_iff t).mpr h0) (fun h => (cond2_iff t).mp h h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFirst c _ _ _ _ _ _ _ _)
  · rw [cellAfter_later V c t h0]
    simp only [before0_1_later V c t h0]
    unfold cellLater
    iintro ⟨HΦ, Ho, ⟨%d0, H0⟩, ⟨%d1, H1⟩⟩
    iapply ((runLater c (grid0.coords t) _ _ _ _ (fun h => h0 ((cond1_iff t).mp h)) ((cond2_iff t).mpr h0) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverLater c _ _ _ _ _ _ _ _ _)

/-- The pipeline's body obligation for the region, at every point: the stated idleness of each window is decided
    away (the rows' window is never idle by its statement, the cell's by the complementary conditions). -/
theorem body_obligation0 (c : Dev nD) : BodyObligation (dat0 (F := F) V c) (defs₀ (F := F)) Variants.none () Set.univ := fun t => by
  rw [bigSep_W0, bigSep_W0]
  simp only [live_in (cfg0.grid.coords t)]
  rw [show idle0 1 (grid0.coords t) = false from live_out _]
  exact sound_body0 V c t

end Cert.Kernel.Hand

end
-- ==== Proof.KRegion1.lean ====
/-
  The weight-quantisation call: a grid of ONE point, one f32[1024,1024] input window and one bf16[1024,1024]
  output window, each a single block that is the whole array.  The body loads the input block whole, computes the
  quantised, transposed, truncated matrix (the payload `k1_pay1`), and stores it over the whole output block.
  This module states what every window's staging buffer holds after the body, as a function of the input block,
  and proves the body's triple at every grid point.
-/
import proofs.«177588_j61813169324800_1_alg».proof.Proof.Gen.Kernel.Launch
import proofs.«177588_j61813169324800_1_alg».proof.Proof.Gen.Kernel.Skeleton
import proofs.«177588_j61813169324800_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, one step per coordinate of a long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at it
variable (V : (c : Dev nD) → (b : Ref sig .tc) → Buf (Elt F) ((c : Thread nD τ).loc b))

/-! ## Blocks -/

/-- The block of window `w` at grid point `t`: the elements of the window's array, as the region finds it, that the
    block's rectangle selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's current staging buffer holds the input block at every point: at a point where it is fetched, by the
    fetch; elsewhere the block index has not moved since the last fetch.  Stated for any proof data whose array is the
    entry contents and whose body leaves the input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's one access rectangle -/

/-- The whole 1024 x 1024 block, as a rectangle at the origin with unit strides. -/
abbrev whole1 : Rect S1024x1024 := Rect.unit (s := S1024x1024) ![0, 0] S1024x1024.size inb_S1024x1024_S1024x1024_0_0

/-! ## What the body leaves in the output block -/

/-- The output block after the body, from the input block `x0`: the single store, of the payload of the whole-block
    load of `x0`, read back as a function on the block. -/
def out1_1 (x0 : Vec F S1024x1024 .f32) : Vec F S1024x1024 .bf16 :=
  View.canon [⟨whole1, k1_pay1 (View.ld x0 whole1)⟩]

/-- The single store's rectangle is the whole block, so every element of the block lies in it. -/
theorem cover1_1 (p0 : Vec F S1024x1024 .bf16) (y : S1024x1024.Idx) :
    ∃ pc ∈ ([⟨whole1, p0⟩] : List (View.Piece (Elt F) S1024x1024 .bf16)), y ∈ pc.1.set :=
  View.cover_of_tiled [⟨whole1, p0⟩] S1024x1024.size (by rfl) y

/-! ## The body's triple -/

set_option maxHeartbeats 1000000 in
/-- On whole staging memrefs, the input's holding `x0` and the output's holding anything, the body runs to a state
    where the input's still holds `x0` and the output's holds `out1_1 x0`.  (The load of the output buffer that
    precedes the store reads a value nothing uses.) -/
theorem sound_kernel1 (c : Dev nD) (E : Set ℕ) (i : grid1.Coords) (arg0 : Memref sig .tc .vmem S1024x1024 .f32) (harg0 : arg0.IsWhole) (arg1 : Memref sig .tc .vmem S1024x1024 .bf16) (harg1 : arg1.IsWhole)
    (x0 : Vec F S1024x1024 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__weight_quant_kernel i arg0 harg0 arg1 harg1) K := by
  simp only [cc1__weight_quant_kernel_eq_skeleton]; unfold cc1__weight_quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of this call on core `c`: each window's array as the region finds it; after the body at point
    `t` the input's buffer still at its block and the output's at `out1_1` of the input block; the invariant is the
    untouched rest (scoped buffers and the generator register); nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation -/

/-- What the body is entered with at point `t`: the invariant, what is owed, and each window's current staging buffer
    at its contents before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns: the same, each buffer at its contents after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds the input block, so the body's triple applies; the invariant
    and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/-
  The main call: a grid of 32 points; seven input windows and one output window.  Windows 0, 1 and the output
  window 7 are cut into 32 row blocks of 512 x 1024, one per point; windows 2..6 (a bf16[1024,1024] matrix, three
  f32[1024] vectors and an f32[1,1] scalar) are a single block each, the same at every point, so the pipeline fetches them at
  the first point only.  The body loads all seven input blocks whole, computes a 512 x 1024 block from them (payload
  `k2_pay2` inside the body's first part, then `k2_pay1` over its value) and stores it over the whole output block.
  This module states what every window's staging buffer holds after the body, as a function of the input blocks,
  and proves the body's triple at every grid point.
-/
import proofs.«177588_j61813169324800_1_alg».proof.Proof.Gen.Kernel.Launch
import proofs.«177588_j61813169324800_1_alg».proof.Proof.Gen.Kernel.Skeleton
import proofs.«177588_j61813169324800_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, one step per coordinate of a long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at it
variable (V : (c : Dev nD) → (b : Ref sig .tc) → Buf (Elt F) ((c : Thread nD τ).loc b))

/-! ## Blocks -/

/-- The block of window `w` at grid point `t`: the elements of the window's array, as the region finds it, that the
    block's rectangle selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Every input's current staging buffer holds that input's block at every point.  At a point where the window is
    fetched the fetch puts it there; at a point where it is not, the block index is the previous point's, the body
    left the buffer alone, and so the buffer still holds the same block.  (For windows 2..6 that is every point but the
    first.)  Each lemma is stated for any proof data whose array is the entry contents and whose body leaves the
    input block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's access rectangles: each is a whole block, at the origin with unit strides -/

abbrev rows2 : Rect S512x1024 := Rect.unit (s := S512x1024) ![0, 0] S512x1024.size inb_S512x1024_S512x1024_0_0
abbrev mat2 : Rect S1024x1024 := Rect.unit (s := S1024x1024) ![0, 0] S1024x1024.size inb_S1024x1024_S1024x1024_0_0
abbrev vec2 : Rect S1024 := Rect.unit (s := S1024) ![0] S1024.size inb_S1024_S1024_0
abbrev one2 : Rect S1x1 := Rect.unit (s := S1x1) ![0, 0] S1x1.size inb_S1x1_S1x1_0_0

/-! ## What the body leaves in the output block -/

/-- The output block after the body, from the seven input blocks: the single store, read back as a function on the
    block.  Its payload is `k2_pay1` over the normalised block `k2_pay2` (of the activation block `x0`, the scale
    `x6`, the weight matrix `x2`, the vector `x3` and the residual block `x1`) and the vectors `x4` and `x5`. -/
def out2_7 (x0 x1 : Vec F S512x1024 .f32) (x2 : Vec F S1024x1024 .bf16) (x3 x4 x5 : Vec F S1024 .f32) (x6 : Vec F S1x1 .f32) : Vec F S512x1024 .f32 :=
  View.canon [⟨rows2, k2_pay1 (k2_pay2 (View.ld x0 rows2) (View.ld x6 one2) (View.ld x2 mat2) (View.ld x3 vec2) (View.ld x1 rows2)) (View.ld x4 vec2) (View.ld x5 vec2)⟩]

/-- The single store's rectangle is the whole block, so every element of the block lies in it. -/
theorem cover2_7 (p0 : Vec F S512x1024 .f32) (y : S512x1024.Idx) :
    ∃ pc ∈ ([⟨rows2, p0⟩] : List (View.Piece (Elt F) S512x1024 .f32)), y ∈ pc.1.set :=
  View.cover_of_tiled [⟨rows2, p0⟩] S512x1024.size (by rfl) y

/-! ## The body's triple -/

set_option maxHeartbeats 2000000 in
/-- On whole staging memrefs, the inputs' holding `x0 .. x6` and the output's holding anything, the body runs to a
    state where every input's still holds what it did and the output's holds `out2_7 x0 .. x6`.  (The load of the
    output buffer that precedes the store reads a value nothing uses.) -/
theorem sound_kernel2 (c : Dev nD) (E : Set ℕ) (i : grid2.Coords)
    (arg0 : Memref sig .tc .vmem S512x1024 .f32) (harg0 : arg0.IsWhole)
    (arg1 : Memref sig .tc .vmem S512x1024 .f32) (harg1 : arg1.IsWhole)
    (arg2 : Memref sig .tc .vmem S1024x1024 .bf16) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024 .f32) (harg5 : arg5.IsWhole)
    (arg6 : Memref sig .tc .vmem S1x1 .f32) (harg6 : arg6.IsWhole)
    (arg7 : Memref sig .tc .vmem S512x1024 .f32) (harg7 : arg7.IsWhole)
    (x0 : Vec F S512x1024 .f32) (x1 : Vec F S512x1024 .f32) (x2 : Vec F S1024x1024 .bf16) (x3 : Vec F S1024 .f32) (x4 : Vec F S1024 .f32) (x5 : Vec F S1024 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__main_kernel i arg0 harg0 arg1 harg1 arg2 harg2 arg3 harg3 arg4 harg4 arg5 harg5 arg6 harg6 arg7 harg7) K := by
  simp only [cc2__main_kernel_eq_skeleton]; unfold cc2__main_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

/-! ## The pipeline's proof data -/

/-- The proof data of this call on core `c`: each window's array as the region finds it; after the body at point
    `t` every input's buffer still at its block and the output's at `out2_7` of the seven input blocks; the invariant
    is the untouched rest (scoped buffers and the generator register); nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Every input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation -/

/-- What the body is entered with at point `t`: the invariant, what is owed, and each window's current staging buffer
    at its contents before the body, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: the same, each buffer at its contents after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: every input's buffer holds that input's block, so the body's triple applies; the
    invariant and what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The whole program as six items — two reshapes; the running-maximum region; the scale 127 / max; the weight region and
  the main region back to back; the final reshape — and its run from any launch memory.

  Between two items every buffer that is not scoped to a region holds a known function of the launch memory: a stretch
  of host operations applies them to what it finds; a region leaves each of its arrays at what its write-backs make of
  it (an input array untouched, an output array with every block the body stored written back in grid order) and every
  other buffer as it found it. The run below ends with every such buffer at the last of these contents; the argument
  arrays are read back through all six items to the launch memory, which is the frame claim.
-/
import proofs.«177588_j61813169324800_1_alg».proof.Proof.KRegion0
import proofs.«177588_j61813169324800_1_alg».proof.Proof.KRegion1
import proofs.«177588_j61813169324800_1_alg».proof.Proof.KRegion2
import proofs.«177588_j61813169324800_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the seven boundaries -/

/-- At launch. -/
abbrev B0 : Dev nD → Valuation τ sig (Elt F) := fun c b => (s₀ m ρ).mem ((c : Dev nD), b)
/-- After the two reshapes of the activations and the residual to 16384 rows. -/
abbrev B1 : Dev nD → Valuation τ sig (Elt F) := fun c => StableHlo.after hostOps0 (B0 m ρ c)
abbrev E0 : (c : Dev nD) → (b : Ref sig .tc) → Buf (Elt F) ((c : Thread nD τ).loc b) := fun c b => B1 m ρ c b

/-- After the running-maximum region: its one-cell output array at what the write-back after the last point leaves. -/
def B2 (c : Dev nD) : Valuation τ sig (Elt F) :=
  Pipeline.withArrays spec0 c (B1 m ρ c) fun w => (dat0 (E0 m ρ) c).arrAt w cfg0.N
theorem B2_arr (c : Dev nD) (w : Fin cfg0.W) :
    B2 m ρ c (Proc.devRef .tc (Pipeline.arrRef spec0 w)) = (dat0 (E0 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same contents read at the TensorCore's references. -/
abbrev X0 : (c : Dev nD) → (b : Ref sig .tc) → Buf (Elt F) ((c : Thread nD τ).loc b) := fun c b => B2 m ρ c b
theorem left0 (c : Dev nD) (w : Fin cfg0.W) : (dat0 (E0 m ρ) c).arrAt w cfg0.N = X0 m ρ c (Pipeline.arrRef spec0 w) :=
  (B2_arr m ρ c w).symm
theorem rest0 (c : Dev nD) : ∀ b, b ∉ Finset.univ.image (Pipeline.arrRef spec0) → X0 m ρ c b = E0 m ρ c b :=
  fun b hb => B2_of_ne m ρ c b fun w e => hb (Finset.mem_image.mpr ⟨w, Finset.mem_univ _, e⟩)

/-- After the scale 127 / max is formed on the host. -/
abbrev B3 : Dev nD → Valuation τ sig (Elt F) := fun c => StableHlo.after hostOps1 (B2 m ρ c)
abbrev E1 : (c : Dev nD) → (b : Ref sig .tc) → Buf (Elt F) ((c : Thread nD τ).loc b) := fun c b => B3 m ρ c b

/-- After the weight region: the quantised transposed weight written back whole. -/
def B4 (c : Dev nD) : Valuation τ sig (Elt F) :=
  Pipeline.withArrays spec1 c (B3 m ρ c) fun w => (dat1 (E1 m ρ) c).arrAt w cfg1.N
theorem B4_arr (c : Dev nD) (w : Fin cfg1.W) :
    B4 m ρ c (Proc.devRef .tc (Pipeline.arrRef spec1 w)) = (dat1 (E1 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same contents read at the TensorCore's references. -/
abbrev X1 : (c : Dev nD) → (b : Ref sig .tc) → Buf (Elt F) ((c : Thread nD τ).loc b) := fun c b => B4 m ρ c b
theorem left1 (c : Dev nD) (w : Fin cfg1.W) : (dat1 (E1 m ρ) c).arrAt w cfg1.N = X1 m ρ c (Pipeline.arrRef spec1 w) :=
  (B4_arr m ρ c w).symm
theorem rest1 (c : Dev nD) : ∀ b, b ∉ Finset.univ.image (Pipeline.arrRef spec1) → X1 m ρ c b = E1 m ρ c b :=
  fun b hb => B4_of_ne m ρ c b fun w e => hb (Finset.mem_image.mpr ⟨w, Finset.mem_univ _, e⟩)

abbrev E2 : (c : Dev nD) → (b : Ref sig .tc) → Buf (Elt F) ((c : Thread nD τ).loc b) := fun c b => B4 m ρ c b

/-- After the main region: each of the 32 row blocks of the output written back. -/
def B5 (c : Dev nD) : Valuation τ sig (Elt F) :=
  Pipeline.withArrays spec2 c (B4 m ρ c) fun w => (dat2 (E2 m ρ) c).arrAt w cfg2.N
theorem B5_arr (c : Dev nD) (w : Fin cfg2.W) :
    B5 m ρ c (Proc.devRef .tc (Pipeline.arrRef spec2 w)) = (dat2 (E2 m ρ) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m ρ c (Proc.devRef .tc b) = B4 m ρ c (Proc.devRef .tc b) := by
  unfold B5; exact Pipeline.withArrays_of_ne spec2 c _ _ b hb
/-- The same contents read at the TensorCore's references. -/
abbrev X2 : (c : Dev nD) → (b : Ref sig .tc) → Buf (Elt F) ((c : Thread nD τ).loc b) := fun c b => B5 m ρ c b
theorem left2 (c : Dev nD) (w : Fin cfg2.W) : (dat2 (E2 m ρ) c).arrAt w cfg2.N = X2 m ρ c (Pipeline.arrRef spec2 w) :=
  (B5_arr m ρ c w).symm
theorem rest2 (c : Dev nD) : ∀ b, b ∉ Finset.univ.image (Pipeline.arrRef spec2) → X2 m ρ c b = E2 m ρ c b :=
  fun b hb => B5_of_ne m ρ c b fun w e => hb (Finset.mem_image.mpr ⟨w, Finset.mem_univ _, e⟩)

/-- After the final reshape to [8, 2048, 1024]. -/
abbrev B6 : Dev nD → Valuation τ sig (Elt F) := fun c => StableHlo.after hostOps3 (B5 m ρ c)

/-! ### The argument arrays end as launched

No host operation writes an argument; a region either does not touch it or stages it as an input window, whose array
no write-back changes. -/

theorem B6_main_arg0 (c : Dev nD) : B6 m ρ c (Proc.devRef .tc main_arg0) = m ((c : Thread nD τ).loc main_arg0) :=
  calc B6 m ρ c (Proc.devRef .tc main_arg0)
    _ = B5 m ρ c (Proc.devRef .tc main_arg0) := StableHlo.after_of_writes_sub hostOps3 _ hostOps3_writes (by decide)
    _ = B4 m ρ c (Proc.devRef .tc main_arg0) := B5_of_ne m ρ c main_arg0 (by decide)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := B2_of_ne m ρ c main_arg0 (by decide)
    _ = B0 m ρ c (Proc.devRef .tc main_arg0) := StableHlo.after_of_writes_sub hostOps0 _ hostOps0_writes (by decide)
    _ = m ((c : Thread nD τ).loc main_arg0) := rfl

theorem B6_main_arg1 (c : Dev nD) : B6 m ρ c (Proc.devRef .tc main_arg1) = m ((c : Thread nD τ).loc main_arg1) :=
  calc B6 m ρ c (Proc.devRef .tc main_arg1)
    _ = B5 m ρ c (Proc.devRef .tc main_arg1) := StableHlo.after_of_writes_sub hostOps3 _ hostOps3_writes (by decide)
    _ = B4 m ρ c (Proc.devRef .tc main_arg1) := B5_of_ne m ρ c main_arg1 (by decide)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl

theorem B6_main_arg2 (c : Dev nD) : B6 m ρ c (Proc.devRef .tc main_arg2) = m ((c : Thread nD τ).loc main_arg2) :=
  calc B6 m ρ c (Proc.devRef .tc main_arg2)
    _ = B5 m ρ c (Proc.devRef .tc main_arg2) := StableHlo.after_of_writes_sub hostOps3 _ hostOps3_writes (by decide)
    _ = B4 m ρ c (Proc.devRef .tc main_arg2) := B5_of_ne m ρ c main_arg2 (by decide)
    _ = B3 m ρ c (Proc.devRef .tc main_arg2) := (B4_arr m ρ c 0).trans (((dat1 (E1 m ρ) c).arrAt_in 0 rfl _).trans (A_eq1 (E1 m ρ) c 0))
    _ = B2 m ρ c (Proc.devRef .tc main_arg2) := StableHlo.after_of_writes_sub hostOps1 _ hostOps1_writes (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl

theorem B6_main_arg3 (c : Dev nD) : B6 m ρ c (Proc.devRef .tc main_arg3) = m ((c : Thread nD τ).loc main_arg3) :=
  calc B6 m ρ c (Proc.devRef .tc main_arg3)
    _ = B5 m ρ c (Proc.devRef .tc main_arg3) := StableHlo.after_of_writes_sub hostOps3 _ hostOps3_writes (by decide)
    _ = B4 m ρ c (Proc.devRef .tc main_arg3) := (B5_arr m ρ c 3).trans (((dat2 (E2 m ρ) c).arrAt_in 3 rfl _).trans (A_eq2 (E2 m ρ) c 3))
    _ = B3 m ρ c (Proc.devRef .tc main_arg3) := B4_of_ne m ρ c main_arg3 (by decide)
    _ = B2 m ρ c (Proc.devRef .tc main_arg3) := StableHlo.after_of_writes_sub hostOps1 _ hostOps1_writes (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl

theorem B6_main_arg4 (c : Dev nD) : B6 m ρ c (Proc.devRef .tc main_arg4) = m ((c : Thread nD τ).loc main_arg4) :=
  calc B6 m ρ c (Proc.devRef .tc main_arg4)
    _ = B5 m ρ c (Proc.devRef .tc main_arg4) := StableHlo.after_of_writes_sub hostOps3 _ hostOps3_writes (by decide)
    _ = B4 m ρ c (Proc.devRef .tc main_arg4) := (B5_arr m ρ c 4).trans (((dat2 (E2 m ρ) c).arrAt_in 4 rfl _).trans (A_eq2 (E2 m ρ) c 4))
    _ = B3 m ρ c (Proc.devRef .tc main_arg4) := B4_of_ne m ρ c main_arg4 (by decide)
    _ = B2 m ρ c (Proc.devRef .tc main_arg4) := StableHlo.after_of_writes_sub hostOps1 _ hostOps1_writes (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl

theorem B6_main_arg5 (c : Dev nD) : B6 m ρ c (Proc.devRef .tc main_arg5) = m ((c : Thread nD τ).loc main_arg5) :=
  calc B6 m ρ c (Proc.devRef .tc main_arg5)
    _ = B5 m ρ c (Proc.devRef .tc main_arg5) := StableHlo.after_of_writes_sub hostOps3 _ hostOps3_writes (by decide)
    _ = B4 m ρ c (Proc.devRef .tc main_arg5) := (B5_arr m ρ c 5).trans (((dat2 (E2 m ρ) c).arrAt_in 5 rfl _).trans (A_eq2 (E2 m ρ) c 5))
    _ = B3 m ρ c (Proc.devRef .tc main_arg5) := B4_of_ne m ρ c main_arg5 (by decide)
    _ = B2 m ρ c (Proc.devRef .tc main_arg5) := StableHlo.after_of_writes_sub hostOps1 _ hostOps1_writes (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl

/-! ## The proof data of the three pipelines, and what rides along -/

/-- Each pipeline's proof data at the contents its region is entered with. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)
/-- A stretch of host operations as an item, from the contents W. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without what is owed: every unscoped buffer at the last contents, the generator register somewhere. -/
abbrev Tend (c : Dev nD) : sProp 𝕄 := iprop(StableHlo.held (c : Thread nD τ) (Pipeline.ucRefs τ sig) (B6 m ρ c) ∗ ∃ r, prngReg c r)

/-! ## The three regions as items -/

-- unifying a library lemma stated over the pinned configuration with the printed one unfolds plain definitions in a
-- metavariable's type
set_option backward.isDefEq.respectTransparency.types false in
/-- The running-maximum region, entered with the buffers at B1 and left with them at B2: its two arrays are split out of the unscoped buffers and put back at what the pipeline leaves; the generator register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- The weight region, from B3 to B4, in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- The main region, from B4 to B5, in the same way. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (B4 m ρ c) ∗ R c)
  post c := iprop(StableHlo.held (c : Thread nD τ) (Pipeline.ucRefs τ sig) (B5 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (left2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

abbrev items : List (Pipeline.Seg (pcfgs (F := F)) adm (pdats m ρ) () defs₀ 𝒱₀ L lv) :=
  [ .host (hostItem hostOps0 hostOps0_sub hostOps0_fresh (B0 m ρ)),
    .region (reg0 m ρ),
    .host (hostItem hostOps1 hostOps1_sub hostOps1_fresh (B2 m ρ)),
    .region (reg1 m ρ),
    .region (reg2 m ρ),
    .host (hostItem hostOps3 hostOps3_sub hostOps3_fresh (B5 m ρ)) ]

theorem main_items (c : Dev nD) : main (F := F) c = Pipeline.Seg.run (items m ρ) := (main_chain c).trans (by chain_rfl)

set_option backward.isDefEq.respectTransparency.types false in
/-- THE RUN. From any memory with zero counters, every weakly fair execution of the program on the TensorCores
    terminates, nothing faulting, and in every final memory every unscoped buffer holds the last contents B6. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m ρ c b) :=
  Pipeline.θ_run_regions_kit (pcfgs (F := F)) adm (pdats m ρ) () cellOf_inj emb₁ defs₀ 𝒱₀ L lv m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tend m ρ)
    (hch := ⟨fun _ => .rfl, fun _ => .rfl, fun _ => .rfl, fun _ => .rfl, fun _ => .rfl, fun _ => .rfl, fun c =>
      (show iprop(StableHlo.held (c : Thread nD τ) (Pipeline.ucRefs τ sig) (B6 m ρ c) ∗ R c)
          ⊢ (iprop(Tend m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h => h)

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (B6_main_arg0 m ρ c),
     (h c _ (mem_uc main_arg1 (by decide))).trans (B6_main_arg1 m ρ c),
     (h c _ (mem_uc main_arg2 (by decide))).trans (B6_main_arg2 m ρ c),
     (h c _ (mem_uc main_arg3 (by decide))).trans (B6_main_arg3 m ρ c),
     (h c _ (mem_uc main_arg4 (by decide))).trans (B6_main_arg4 m ρ c),
     (h c _ (mem_uc main_arg5 (by decide))).trans (B6_main_arg5 m ρ c)⟩) (run_all m ρ)

end Cert.Kernel.Hand

end
-- ==== Proof.KIRegion0Runs.lean ====
/-
  The first region: the running maximum of |clip x| over the sixteen blocks of 1024 rows.

  The region's one output block is the single cell (0, 0), the same block at every grid point, written back only
  after the last point. At the first point the body stores the block maximum of the first 1024 rows into it; at every
  later point it reads the cell back and stores the larger of what it read and that point's block maximum. So after
  point t the cell holds the maximum over rows 0 .. 1024 (t + 1) - 1, and what is written back is the maximum over
  all 16384 rows. This module runs the body once in each of the two cases, on any staging memrefs, and records what
  each case leaves in the cell as the pieces its one store writes.
-/
import proofs.«177588_j61813169324800_1_alg».proof.Proof.Gen.KernelIdeal.Launch
import proofs.«177588_j61813169324800_1_alg».proof.Proof.Gen.KernelIdeal.Skeleton
import proofs.«177588_j61813169324800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two cases over the grid -/

/-- The first conditional of the body is taken at the first grid point only, -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- and the second at every other point: exactly one of the two stores happens at each point. -/
theorem cond2_iff : ∀ t : Fin cfg0.N, k0_cond2 (grid0.coords t) = 1#1 ↔ t.val ≠ 0 :=
  (by decide +kernel : ∀ t : Fin grid0.N, k0_cond2 (grid0.coords t) = 1#1 ↔ t.val ≠ 0)

/-- Hence no coordinate leaves the output cell unstored: the two conditions are complementary. -/
theorem live_out : ∀ i : cfg0.grid.Coords, cfg0.idle 1 i = false :=
  (by decide +kernel : ∀ i : grid0.Coords, idle0 1 i = false)
theorem live_in : ∀ i : cfg0.grid.Coords, cfg0.idle 0 i = false := fun _ => rfl

/-! ## The staging memrefs at a point -/

/-- One staging buffer of the output cell, through which its contents are stated. -/
abbrev cellView : View sig .tc .vmem S1x1 .f32 := (Memref.whole cc0_stg1_0 : Memref sig .tc .vmem S1x1 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)

/-! ## The body in each case -/

set_option maxHeartbeats 1000000 in
/-- AT THE FIRST POINT (first conditional taken, second not): on whole staging memrefs, the rows' at contents x0 and
    the cell's at anything, the body runs to the continuation with the rows' memref as it was and the cell's written
    with the pieces found here — one store of the block maximum of x0. -/
noncomputable def runFirst (c : Dev nD) (i : grid0.Coords) (arg1 : Memref sig .tc .vmem S1024x1024 .f32) (harg1 : arg1.IsWhole)
    (arg2 : Memref sig .tc .vmem S1x1 .f32) (harg2 : arg2.IsWhole) (hc1 : k0_cond1 i = 1#1) (hc2 : ¬ k0_cond2 i = 1#1)
    (x0 : Vec F S1024x1024 .f32) :
    { L1 : List (View.Piece (Elt F) S1x1 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__reduce_max_kernel i arg1 harg1 arg2 harg2) K } := by
  refine ⟨?_, fun E K => ?run⟩
  case run =>
    simp only [cc0__reduce_max_kernel_eq_skeleton]; unfold cc0__reduce_max_kernel_skel
    unfold owns
    iintro ⟨⟨%f0, %hf0, H0⟩, ⟨%d1, %f1, -, H1⟩, Hk⟩
    obtain rfl := harg1.eq_unread hf0
    sl_exec (disch := first | exact hc1 | exact hc2)
    sl_step
    iapply Hk
    isplitl [H0]
    · iexists _; isplitr; · ipureintro; exact harg1.read_unread _
      iexact H0
    iexists _; iexact H1

set_option maxHeartbeats 1000000 in
/-- AT A LATER POINT (first conditional not taken, second taken): the cell's memref now at the running contents xo,
    which the body reads before it stores; it is left written with one store of max (xo, block maximum of x0). -/
noncomputable def runLater (c : Dev nD) (i : grid0.Coords) (arg1 : Memref sig .tc .vmem S1024x1024 .f32) (harg1 : arg1.IsWhole)
    (arg2 : Memref sig .tc .vmem S1x1 .f32) (harg2 : arg2.IsWhole) (hc1 : ¬ k0_cond1 i = 1#1) (hc2 : k0_cond2 i = 1#1)
    (x0 : Vec F S1024x1024 .f32) (xo : Vec F S1x1 .f32) :
    { L1 : List (View.Piece (Elt F) S1x1 .f32) //
      ∀ (E : Set ℕ) (K : PUnit → sProp 𝕄),
        iprop(owns (c : Thread nD τ) arg1 fullShare x0 ∗ owns (c : Thread nD τ) arg2 fullShare xo
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__reduce_max_kernel i arg1 harg1 arg2 harg2) K } := by
  refine ⟨?_, fun E K => ?run⟩
  case run =>
    simp only [cc0__reduce_max_kernel_eq_skeleton]; unfold cc0__reduce_max_kernel_skel
    unfold owns
    iintro ⟨⟨%f0, %hf0, H0⟩, ⟨%f1, %hf1, H1⟩, Hk⟩
    obtain rfl := harg1.eq_unread hf0; obtain rfl := harg2.eq_unread hf1
    sl_exec (disch := first | exact hc1 | exact hc2)
    sl_step
    iapply Hk
    isplitl [H0]
    · iexists _; isplitr; · ipureintro; exact harg1.read_unread _
      iexact H0
    iexists _; iexact H1

end Cert.KernelIdeal.Hand

end
-- ==== Proof.KIRegion0.lean ====
/-
  The first region, continued: what the output cell holds after each grid point, and the body obligation.

  After the first point the cell holds the first block's maximum; after point t + 1 it holds the larger of what it
  held after point t and block t + 1's maximum. The cell's staging buffer is never written back before the last
  point and the body stores into it at every point, so at each later point the body finds in it exactly what the
  point before left. With that, the body's run in the point's case is the pipeline's obligation at the point.
-/
import proofs.«177588_j61813169324800_1_alg».proof.Proof.KIRegion0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the cell -/

/-- The one store of the first case covers the cell. -/
theorem coverFirst (c : Dev nD) (i : grid0.Coords) (arg1 : Memref sig .tc .vmem S1024x1024 .f32) (harg1 : arg1.IsWhole)
    (arg2 : Memref sig .tc .vmem S1x1 .f32) (harg2 : arg2.IsWhole) (hc1 : k0_cond1 i = 1#1) (hc2 : ¬ k0_cond2 i = 1#1)
    (x0 : Vec F S1024x1024 .f32) (y : S1x1.Idx) :
    ∃ pc ∈ (runFirst c i arg1 harg1 arg2 harg2 hc1 hc2 x0).1, y ∈ pc.1.set :=
  View.cover_of_tiledL (runFirst c i arg1 harg1 arg2 harg2 hc1 hc2 x0).1 S1x1.size (by sl_kernel_rfl) y

/-- The cell after the first case: its store read back. -/
def cellFirst (c : Dev nD) (i : grid0.Coords) (arg1 : Memref sig .tc .vmem S1024x1024 .f32) (harg1 : arg1.IsWhole)
    (arg2 : Memref sig .tc .vmem S1x1 .f32) (harg2 : arg2.IsWhole) (hc1 : k0_cond1 i = 1#1) (hc2 : ¬ k0_cond2 i = 1#1)
    (x0 : Vec F S1024x1024 .f32) : Vec F S1x1 .f32 :=
  cellView.read (Elt F) (cellView.writes (Elt F) cellView.junk (runFirst c i arg1 harg1 arg2 harg2 hc1 hc2 x0).1)

/-- The one store of the later case covers the cell. -/
theorem coverLater (c : Dev nD) (i : grid0.Coords) (arg1 : Memref sig .tc .vmem S1024x1024 .f32) (harg1 : arg1.IsWhole)
    (arg2 : Memref sig .tc .vmem S1x1 .f32) (harg2 : arg2.IsWhole) (hc1 : ¬ k0_cond1 i = 1#1) (hc2 : k0_cond2 i = 1#1)
    (x0 : Vec F S1024x1024 .f32) (xo : Vec F S1x1 .f32) (y : S1x1.Idx) :
    ∃ pc ∈ (runLater c i arg1 harg1 arg2 harg2 hc1 hc2 x0 xo).1, y ∈ pc.1.set :=
  View.cover_of_tiledL (runLater c i arg1 harg1 arg2 harg2 hc1 hc2 x0 xo).1 S1x1.size (by sl_kernel_rfl) y

/-- The cell after the later case, from what it held (xo) and the point's rows (x0). -/
def cellLater (c : Dev nD) (i : grid0.Coords) (arg1 : Memref sig .tc .vmem S1024x1024 .f32) (harg1 : arg1.IsWhole)
    (arg2 : Memref sig .tc .vmem S1x1 .f32) (harg2 : arg2.IsWhole) (hc1 : ¬ k0_cond1 i = 1#1) (hc2 : k0_cond2 i = 1#1)
    (x0 : Vec F S1024x1024 .f32) (xo : Vec F S1x1 .f32) : Vec F S1x1 .f32 :=
  cellView.read (Elt F) (cellView.writes (Elt F) cellView.junk (runLater c i arg1 harg1 arg2 harg2 hc1 hc2 x0 xo).1)

/-! ## The region at the contents it is entered with -/

variable (V : (c : Dev nD) → (b : Ref sig .tc) → Buf (Elt F) ((c : Thread nD τ).loc b))

/-- A window's block at a grid point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds the point's 1024 rows whenever the body runs, for any proof data over these arrays
    that leaves the rows' block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl live_in (fun _ _ _ => rfl) (fun t => by rw [hafter]; unfold Dat.blockOf iblk0; rw [hA]; try rfl) t d).trans
    (by unfold Dat.fetched Dat.blockOf iblk0; rw [hA]; try rfl)

/-- THE RUNNING MAXIMUM. What the cell's staging buffer holds after the body at position n: the first case at n = 0,
    the later case over what position n - 1 left otherwise. -/
def cellAfter (c : Dev nD) : (n : ℕ) → n < cfg0.N → Vec F S1x1 .f32
  | 0, hn => cellFirst c (grid0.coords ⟨0, hn⟩) (ms0_0 ⟨0, hn⟩) (hs0_0 ⟨0, hn⟩) (ms0_1 ⟨0, hn⟩) (hs0_1 ⟨0, hn⟩)
      ((cond1_iff ⟨0, hn⟩).mpr rfl) (fun h => (cond2_iff ⟨0, hn⟩).mp h rfl) (iblk0 V c 0 ⟨0, hn⟩)
  | n + 1, hn => cellLater c (grid0.coords ⟨n + 1, hn⟩) (ms0_0 ⟨n + 1, hn⟩) (hs0_0 ⟨n + 1, hn⟩) (ms0_1 ⟨n + 1, hn⟩) (hs0_1 ⟨n + 1, hn⟩)
      (fun h => Nat.succ_ne_zero n ((cond1_iff ⟨n + 1, hn⟩).mp h)) ((cond2_iff ⟨n + 1, hn⟩).mpr (Nat.succ_ne_zero n))
      (iblk0 V c 0 ⟨n + 1, hn⟩) (cellAfter c n (Nat.lt_of_succ_lt hn))

theorem cellAfter_first (c : Dev nD) (t : Fin cfg0.N) (h0 : t.val = 0) :
    cellAfter V c t.val t.isLt = cellFirst c (grid0.coords t) (ms0_0 t) (hs0_0 t) (ms0_1 t) (hs0_1 t)
      ((cond1_iff t).mpr h0) (fun h => (cond2_iff t).mp h h0) (iblk0 V c 0 t) := by
  obtain ⟨n, hn⟩ := t
  cases n with
  | zero => rfl
  | succ n => exact absurd h0 (Nat.succ_ne_zero n)

theorem cellAfter_later (c : Dev nD) (t : Fin cfg0.N) (h0 : t.val ≠ 0) :
    cellAfter V c t.val t.isLt = cellLater c (grid0.coords t) (ms0_0 t) (hs0_0 t) (ms0_1 t) (hs0_1 t)
      (fun h => h0 ((cond1_iff t).mp h)) ((cond2_iff t).mpr h0) (iblk0 V c 0 t)
      (cellAfter V c (t.val - 1) (Nat.lt_of_le_of_lt (Nat.sub_le _ _) t.isLt)) := by
  obtain ⟨n, hn⟩ := t
  cases n with
  | zero => exact absurd rfl h0
  | succ n => rfl

/-! ## The proof data -/

/-- The region's proof data on a core: its two arrays as the region finds them; after the body at a point the rows'
    buffer still at the point's rows and the cell's at the running maximum; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => cellAfter V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = cellAfter V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- At a later point the cell's staging buffer holds what the point before left: the point is not the first, the
    buffer is written back only after the last point, the body stores into it at every point, the block is whole. -/
theorem before0_1_later (c : Dev nD) (t : Fin cfg0.N) (h0 : t.val ≠ 0) (d) :
    (dat0 V c).before 1 t d = cellAfter V c (t.val - 1) (Nat.lt_of_le_of_lt (Nat.sub_le _ _) t.isLt) := by
  have hN : t.val < 16 := lt_of_lt_of_eq t.isLt (show cfg0.N = 16 from N_0)
  rw [Dat.before_out_kept _ 1 rfl t h0 (Bool.eq_false_iff.mpr fun h => by have := (flush0_1 _).mp h; dsimp only at this; omega)
    live_out (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the rows' memref holds the point's rows; at the first point the cell's memref holds
    anything and the first case runs; at a later point it holds what the point before left and the later case runs. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val = 0
  · rw [cellAfter_first V c t h0]
    unfold cellFirst
    iintro ⟨HΦ, Ho, ⟨%d0, H0⟩, ⟨%d1, H1⟩⟩
    iapply ((runFirst c (grid0.coords t) _ _ _ _ ((cond1_iff t).mpr h0) (fun h => (cond2_iff t).mp h h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFirst c _ _ _ _ _ _ _ _)
  · rw [cellAfter_later V c t h0]
    simp only [before0_1_later V c t h0]
    unfold cellLater
    iintro ⟨HΦ, Ho, ⟨%d0, H0⟩, ⟨%d1, H1⟩⟩
    iapply ((runLater c (grid0.coords t) _ _ _ _ (fun h => h0 ((cond1_iff t).mp h)) ((cond2_iff t).mpr h0) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverLater c _ _ _ _ _ _ _ _ _)

/-- The pipeline's body obligation for the region, at every point: the stated idleness of each window is decided
    away (the rows' window is never idle by its statement, the cell's by the complementary conditions). -/
theorem body_obligation0 (c : Dev nD) : BodyObligation (dat0 (F := F) V c) (defs₀ (F := F)) Variants.none () Set.univ := fun t => by
  rw [bigSep_W0, bigSep_W0]
  simp only [live_in (cfg0.grid.coords t)]
  rw [show idle0 1 (grid0.coords t) = false from live_out _]
  exact sound_body0 V c t

end Cert.KernelIdeal.Hand

end
-- ==== Proof.KIRegion1.lean ====
/-
  The weight-quantisation call: a grid of ONE point, one f32[1024,1024] input window and one bf16[1024,1024]
  output window, each a single block that is the whole array.  The body loads the input block whole, computes the
  quantised, transposed, truncated matrix (the payload `k1_pay1`), and stores it over the whole output block.
  This module states what every window's staging buffer holds after the body, as a function of the input block,
  and proves the body's triple at every grid point.
-/
import proofs.«177588_j61813169324800_1_alg».proof.Proof.Gen.KernelIdeal.Launch
import proofs.«177588_j61813169324800_1_alg».proof.Proof.Gen.KernelIdeal.Skeleton
import proofs.«177588_j61813169324800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, one step per coordinate of a long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at it
variable (V : (c : Dev nD) → (b : Ref sig .tc) → Buf (Elt F) ((c : Thread nD τ).loc b))

/-! ## Blocks -/

/-- The block of window `w` at grid point `t`: the elements of the window's array, as the region finds it, that the
    block's rectangle selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's current staging buffer holds the input block at every point: at a point where it is fetched, by the
    fetch; elsewhere the block index has not moved since the last fetch.  Stated for any proof data whose array is the
    entry contents and whose body leaves the input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's one access rectangle -/

/-- The whole 1024 x 1024 block, as a rectangle at the origin with unit strides. -/
abbrev whole1 : Rect S1024x1024 := Rect.unit (s := S1024x1024) ![0, 0] S1024x1024.size inb_S1024x1024_S1024x1024_0_0

/-! ## What the body leaves in the output block -/

/-- The output block after the body, from the input block `x0`: the single store, of the payload of the whole-block
    load of `x0`, read back as a function on the block. -/
def out1_1 (x0 : Vec F S1024x1024 .f32) : Vec F S1024x1024 .bf16 :=
  View.canon [⟨whole1, k1_pay1 (View.ld x0 whole1)⟩]

/-- The single store's rectangle is the whole block, so every element of the block lies in it. -/
theorem cover1_1 (p0 : Vec F S1024x1024 .bf16) (y : S1024x1024.Idx) :
    ∃ pc ∈ ([⟨whole1, p0⟩] : List (View.Piece (Elt F) S1024x1024 .bf16)), y ∈ pc.1.set :=
  View.cover_of_tiled [⟨whole1, p0⟩] S1024x1024.size (by rfl) y

/-! ## The body's triple -/

set_option maxHeartbeats 1000000 in
/-- On whole staging memrefs, the input's holding `x0` and the output's holding anything, the body runs to a state
    where the input's still holds `x0` and the output's holds `out1_1 x0`.  (The load of the output buffer that
    precedes the store reads a value nothing uses.) -/
theorem sound_kernel1 (c : Dev nD) (E : Set ℕ) (i : grid1.Coords) (arg0 : Memref sig .tc .vmem S1024x1024 .f32) (harg0 : arg0.IsWhole) (arg1 : Memref sig .tc .vmem S1024x1024 .bf16) (harg1 : arg1.IsWhole)
    (x0 : Vec F S1024x1024 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__weight_quant_kernel i arg0 harg0 arg1 harg1) K := by
  simp only [cc1__weight_quant_kernel_eq_skeleton]; unfold cc1__weight_quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of this call on core `c`: each window's array as the region finds it; after the body at point
    `t` the input's buffer still at its block and the output's at `out1_1` of the input block; the invariant is the
    untouched rest (scoped buffers and the generator register); nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation -/

/-- What the body is entered with at point `t`: the invariant, what is owed, and each window's current staging buffer
    at its contents before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns: the same, each buffer at its contents after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds the input block, so the body's triple applies; the invariant
    and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
/-
  The main call: a grid of 32 points; seven input windows and one output window.  Windows 0, 1 and the output
  window 7 are cut into 32 row blocks of 512 x 1024, one per point; windows 2..6 (a bf16[1024,1024] matrix, three
  f32[1024] vectors and an f32[1,1] scalar) are a single block each, the same at every point, so the pipeline fetches them at
  the first point only.  The body loads all seven input blocks whole, computes a 512 x 1024 block from them (payload
  `k2_pay2` inside the body's first part, then `k2_pay1` over its value) and stores it over the whole output block.
  This module states what every window's staging buffer holds after the body, as a function of the input blocks,
  and proves the body's triple at every grid point.
-/
import proofs.«177588_j61813169324800_1_alg».proof.Proof.Gen.KernelIdeal.Launch
import proofs.«177588_j61813169324800_1_alg».proof.Proof.Gen.KernelIdeal.Skeleton
import proofs.«177588_j61813169324800_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided structurally, one step per coordinate of a long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered; everything below is stated at it
variable (V : (c : Dev nD) → (b : Ref sig .tc) → Buf (Elt F) ((c : Thread nD τ).loc b))

/-! ## Blocks -/

/-- The block of window `w` at grid point `t`: the elements of the window's array, as the region finds it, that the
    block's rectangle selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Every input's current staging buffer holds that input's block at every point.  At a point where the window is
    fetched the fetch puts it there; at a point where it is not, the block index is the previous point's, the body
    left the buffer alone, and so the buffer still holds the same block.  (For windows 2..6 that is every point but the
    first.)  Each lemma is stated for any proof data whose array is the entry contents and whose body leaves the
    input block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's access rectangles: each is a whole block, at the origin with unit strides -/

abbrev rows2 : Rect S512x1024 := Rect.unit (s := S512x1024) ![0, 0] S512x1024.size inb_S512x1024_S512x1024_0_0
abbrev mat2 : Rect S1024x1024 := Rect.unit (s := S1024x1024) ![0, 0] S1024x1024.size inb_S1024x1024_S1024x1024_0_0
abbrev vec2 : Rect S1024 := Rect.unit (s := S1024) ![0] S1024.size inb_S1024_S1024_0
abbrev one2 : Rect S1x1 := Rect.unit (s := S1x1) ![0, 0] S1x1.size inb_S1x1_S1x1_0_0

/-! ## What the body leaves in the output block -/

/-- The output block after the body, from the seven input blocks: the single store, read back as a function on the
    block.  Its payload is `k2_pay1` over the normalised block `k2_pay2` (of the activation block `x0`, the scale
    `x6`, the weight matrix `x2`, the vector `x3` and the residual block `x1`) and the vectors `x4` and `x5`. -/
def out2_7 (x0 x1 : Vec F S512x1024 .f32) (x2 : Vec F S1024x1024 .bf16) (x3 x4 x5 : Vec F S1024 .f32) (x6 : Vec F S1x1 .f32) : Vec F S512x1024 .f32 :=
  View.canon [⟨rows2, k2_pay1 (k2_pay2 (View.ld x0 rows2) (View.ld x6 one2) (View.ld x2 mat2) (View.ld x3 vec2) (View.ld x1 rows2)) (View.ld x4 vec2) (View.ld x5 vec2)⟩]

/-- The single store's rectangle is the whole block, so every element of the block lies in it. -/
theorem cover2_7 (p0 : Vec F S512x1024 .f32) (y : S512x1024.Idx) :
    ∃ pc ∈ ([⟨rows2, p0⟩] : List (View.Piece (Elt F) S512x1024 .f32)), y ∈ pc.1.set :=
  View.cover_of_tiled [⟨rows2, p0⟩] S512x1024.size (by rfl) y

/-! ## The body's triple -/

set_option maxHeartbeats 2000000 in
/-- On whole staging memrefs, the inputs' holding `x0 .. x6` and the output's holding anything, the body runs to a
    state where every input's still holds what it did and the output's holds `out2_7 x0 .. x6`.  (The load of the
    output buffer that precedes the store reads a value nothing uses.) -/
theorem sound_kernel2 (c : Dev nD) (E : Set ℕ) (i : grid2.Coords)
    (arg0 : Memref sig .tc .vmem S512x1024 .f32) (harg0 : arg0.IsWhole)
    (arg1 : Memref sig .tc .vmem S512x1024 .f32) (harg1 : arg1.IsWhole)
    (arg2 : Memref sig .tc .vmem S1024x1024 .bf16) (harg2 : arg2.IsWhole)
    (arg3 : Memref sig .tc .vmem S1024 .f32) (harg3 : arg3.IsWhole)
    (arg4 : Memref sig .tc .vmem S1024 .f32) (harg4 : arg4.IsWhole)
    (arg5 : Memref sig .tc .vmem S1024 .f32) (harg5 : arg5.IsWhole)
    (arg6 : Memref sig .tc .vmem S1x1 .f32) (harg6 : arg6.IsWhole)
    (arg7 : Memref sig .tc .vmem S512x1024 .f32) (harg7 : arg7.IsWhole)
    (x0 : Vec F S512x1024 .f32) (x1 : Vec F S512x1024 .f32) (x2 : Vec F S1024x1024 .bf16) (x3 : Vec F S1024 .f32) (x4 : Vec F S1024 .f32) (x5 : Vec F S1024 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__main_kernel i arg0 harg0 arg1 harg1 arg2 harg2 arg3 harg3 arg4 harg4 arg5 harg5 arg6 harg6 arg7 harg7) K := by
  simp only [cc2__main_kernel_eq_skeleton]; unfold cc2__main_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover2_7 _)

/-! ## The pipeline's proof data -/

/-- The proof data of this call on core `c`: each window's array as the region finds it; after the body at point
    `t` every input's buffer still at its block and the output's at `out2_7` of the seven input blocks; the invariant
    is the untouched rest (scoped buffers and the generator register); nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Every input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation -/

/-- What the body is entered with at point `t`: the invariant, what is owed, and each window's current staging buffer
    at its contents before the body, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns: the same, each buffer at its contents after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: every input's buffer holds that input's block, so the body's triple applies; the
    invariant and what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/-
  The whole program as six items — two reshapes; the running-maximum region; the scale 127 / max; the weight region and
  the main region back to back; the final reshape — and its run from any launch memory.

  Between two items every buffer that is not scoped to a region holds a known function of the launch memory: a stretch
  of host operations applies them to what it finds; a region leaves each of its arrays at what its write-backs make of
  it (an input array untouched, an output array with every block the body stored written back in grid order) and every
  other buffer as it found it. The run below ends with every such buffer at the last of these contents; the argument
  arrays are read back through all six items to the launch memory, which is the frame claim.
-/
import proofs.«177588_j61813169324800_1_alg».proof.Proof.KIRegion0
import proofs.«177588_j61813169324800_1_alg».proof.Proof.KIRegion1
import proofs.«177588_j61813169324800_1_alg».proof.Proof.KIRegion2
import proofs.«177588_j61813169324800_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the seven boundaries -/

/-- At launch. -/
abbrev B0 : Dev nD → Valuation τ sig (Elt F) := fun c b => (s₀ m ρ).mem ((c : Dev nD), b)
/-- After the two reshapes of the activations and the residual to 16384 rows. -/
abbrev B1 : Dev nD → Valuation τ sig (Elt F) := fun c => StableHlo.after hostOps0 (B0 m ρ c)
abbrev E0 : (c : Dev nD) → (b : Ref sig .tc) → Buf (Elt F) ((c : Thread nD τ).loc b) := fun c b => B1 m ρ c b

/-- After the running-maximum region: its one-cell output array at what the write-back after the last point leaves. -/
def B2 (c : Dev nD) : Valuation τ sig (Elt F) :=
  Pipeline.withArrays spec0 c (B1 m ρ c) fun w => (dat0 (E0 m ρ) c).arrAt w cfg0.N
theorem B2_arr (c : Dev nD) (w : Fin cfg0.W) :
    B2 m ρ c (Proc.devRef .tc (Pipeline.arrRef spec0 w)) = (dat0 (E0 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same contents read at the TensorCore's references. -/
abbrev X0 : (c : Dev nD) → (b : Ref sig .tc) → Buf (Elt F) ((c : Thread nD τ).loc b) := fun c b => B2 m ρ c b
theorem left0 (c : Dev nD) (w : Fin cfg0.W) : (dat0 (E0 m ρ) c).arrAt w cfg0.N = X0 m ρ c (Pipeline.arrRef spec0 w) :=
  (B2_arr m ρ c w).symm
theorem rest0 (c : Dev nD) : ∀ b, b ∉ Finset.univ.image (Pipeline.arrRef spec0) → X0 m ρ c b = E0 m ρ c b :=
  fun b hb => B2_of_ne m ρ c b fun w e => hb (Finset.mem_image.mpr ⟨w, Finset.mem_univ _, e⟩)

/-- After the scale 127 / max is formed on the host. -/
abbrev B3 : Dev nD → Valuation τ sig (Elt F) := fun c => StableHlo.after hostOps1 (B2 m ρ c)
abbrev E1 : (c : Dev nD) → (b : Ref sig .tc) → Buf (Elt F) ((c : Thread nD τ).loc b) := fun c b => B3 m ρ c b

/-- After the weight region: the quantised transposed weight written back whole. -/
def B4 (c : Dev nD) : Valuation τ sig (Elt F) :=
  Pipeline.withArrays spec1 c (B3 m ρ c) fun w => (dat1 (E1 m ρ) c).arrAt w cfg1.N
theorem B4_arr (c : Dev nD) (w : Fin cfg1.W) :
    B4 m ρ c (Proc.devRef .tc (Pipeline.arrRef spec1 w)) = (dat1 (E1 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same contents read at the TensorCore's references. -/
abbrev X1 : (c : Dev nD) → (b : Ref sig .tc) → Buf (Elt F) ((c : Thread nD τ).loc b) := fun c b => B4 m ρ c b
theorem left1 (c : Dev nD) (w : Fin cfg1.W) : (dat1 (E1 m ρ) c).arrAt w cfg1.N = X1 m ρ c (Pipeline.arrRef spec1 w) :=
  (B4_arr m ρ c w).symm
theorem rest1 (c : Dev nD) : ∀ b, b ∉ Finset.univ.image (Pipeline.arrRef spec1) → X1 m ρ c b = E1 m ρ c b :=
  fun b hb => B4_of_ne m ρ c b fun w e => hb (Finset.mem_image.mpr ⟨w, Finset.mem_univ _, e⟩)

abbrev E2 : (c : Dev nD) → (b : Ref sig .tc) → Buf (Elt F) ((c : Thread nD τ).loc b) := fun c b => B4 m ρ c b

/-- After the main region: each of the 32 row blocks of the output written back. -/
def B5 (c : Dev nD) : Valuation τ sig (Elt F) :=
  Pipeline.withArrays spec2 c (B4 m ρ c) fun w => (dat2 (E2 m ρ) c).arrAt w cfg2.N
theorem B5_arr (c : Dev nD) (w : Fin cfg2.W) :
    B5 m ρ c (Proc.devRef .tc (Pipeline.arrRef spec2 w)) = (dat2 (E2 m ρ) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m ρ c (Proc.devRef .tc b) = B4 m ρ c (Proc.devRef .tc b) := by
  unfold B5; exact Pipeline.withArrays_of_ne spec2 c _ _ b hb
/-- The same contents read at the TensorCore's references. -/
abbrev X2 : (c : Dev nD) → (b : Ref sig .tc) → Buf (Elt F) ((c : Thread nD τ).loc b) := fun c b => B5 m ρ c b
theorem left2 (c : Dev nD) (w : Fin cfg2.W) : (dat2 (E2 m ρ) c).arrAt w cfg2.N = X2 m ρ c (Pipeline.arrRef spec2 w) :=
  (B5_arr m ρ c w).symm
theorem rest2 (c : Dev nD) : ∀ b, b ∉ Finset.univ.image (Pipeline.arrRef spec2) → X2 m ρ c b = E2 m ρ c b :=
  fun b hb => B5_of_ne m ρ c b fun w e => hb (Finset.mem_image.mpr ⟨w, Finset.mem_univ _, e⟩)

/-- After the final reshape to [8, 2048, 1024]. -/
abbrev B6 : Dev nD → Valuation τ sig (Elt F) := fun c => StableHlo.after hostOps3 (B5 m ρ c)

/-! ### The argument arrays end as launched

No host operation writes an argument; a region either does not touch it or stages it as an input window, whose array
no write-back changes. -/

theorem B6_main_arg0 (c : Dev nD) : B6 m ρ c (Proc.devRef .tc main_arg0) = m ((c : Thread nD τ).loc main_arg0) :=
  calc B6 m ρ c (Proc.devRef .tc main_arg0)
    _ = B5 m ρ c (Proc.devRef .tc main_arg0) := StableHlo.after_of_writes_sub hostOps3 _ hostOps3_writes (by decide)
    _ = B4 m ρ c (Proc.devRef .tc main_arg0) := B5_of_ne m ρ c main_arg0 (by decide)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := B2_of_ne m ρ c main_arg0 (by decide)
    _ = B0 m ρ c (Proc.devRef .tc main_arg0) := StableHlo.after_of_writes_sub hostOps0 _ hostOps0_writes (by decide)
    _ = m ((c : Thread nD τ).loc main_arg0) := rfl

theorem B6_main_arg1 (c : Dev nD) : B6 m ρ c (Proc.devRef .tc main_arg1) = m ((c : Thread nD τ).loc main_arg1) :=
  calc B6 m ρ c (Proc.devRef .tc main_arg1)
    _ = B5 m ρ c (Proc.devRef .tc main_arg1) := StableHlo.after_of_writes_sub hostOps3 _ hostOps3_writes (by decide)
    _ = B4 m ρ c (Proc.devRef .tc main_arg1) := B5_of_ne m ρ c main_arg1 (by decide)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl

theorem B6_main_arg2 (c : Dev nD) : B6 m ρ c (Proc.devRef .tc main_arg2) = m ((c : Thread nD τ).loc main_arg2) :=
  calc B6 m ρ c (Proc.devRef .tc main_arg2)
    _ = B5 m ρ c (Proc.devRef .tc main_arg2) := StableHlo.after_of_writes_sub hostOps3 _ hostOps3_writes (by decide)
    _ = B4 m ρ c (Proc.devRef .tc main_arg2) := B5_of_ne m ρ c main_arg2 (by decide)
    _ = B3 m ρ c (Proc.devRef .tc main_arg2) := (B4_arr m ρ c 0).trans (((dat1 (E1 m ρ) c).arrAt_in 0 rfl _).trans (A_eq1 (E1 m ρ) c 0))
    _ = B2 m ρ c (Proc.devRef .tc main_arg2) := StableHlo.after_of_writes_sub hostOps1 _ hostOps1_writes (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl

theorem B6_main_arg3 (c : Dev nD) : B6 m ρ c (Proc.devRef .tc main_arg3) = m ((c : Thread nD τ).loc main_arg3) :=
  calc B6 m ρ c (Proc.devRef .tc main_arg3)
    _ = B5 m ρ c (Proc.devRef .tc main_arg3) := StableHlo.after_of_writes_sub hostOps3 _ hostOps3_writes (by decide)
    _ = B4 m ρ c (Proc.devRef .tc main_arg3) := (B5_arr m ρ c 3).trans (((dat2 (E2 m ρ) c).arrAt_in 3 rfl _).trans (A_eq2 (E2 m ρ) c 3))
    _ = B3 m ρ c (Proc.devRef .tc main_arg3) := B4_of_ne m ρ c main_arg3 (by decide)
    _ = B2 m ρ c (Proc.devRef .tc main_arg3) := StableHlo.after_of_writes_sub hostOps1 _ hostOps1_writes (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl

theorem B6_main_arg4 (c : Dev nD) : B6 m ρ c (Proc.devRef .tc main_arg4) = m ((c : Thread nD τ).loc main_arg4) :=
  calc B6 m ρ c (Proc.devRef .tc main_arg4)
    _ = B5 m ρ c (Proc.devRef .tc main_arg4) := StableHlo.after_of_writes_sub hostOps3 _ hostOps3_writes (by decide)
    _ = B4 m ρ c (Proc.devRef .tc main_arg4) := (B5_arr m ρ c 4).trans (((dat2 (E2 m ρ) c).arrAt_in 4 rfl _).trans (A_eq2 (E2 m ρ) c 4))
    _ = B3 m ρ c (Proc.devRef .tc main_arg4) := B4_of_ne m ρ c main_arg4 (by decide)
    _ = B2 m ρ c (Proc.devRef .tc main_arg4) := StableHlo.after_of_writes_sub hostOps1 _ hostOps1_writes (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl

theorem B6_main_arg5 (c : Dev nD) : B6 m ρ c (Proc.devRef .tc main_arg5) = m ((c : Thread nD τ).loc main_arg5) :=
  calc B6 m ρ c (Proc.devRef .tc main_arg5)
    _ = B5 m ρ c (Proc.devRef .tc main_arg5) := StableHlo.after_of_writes_sub hostOps3 _ hostOps3_writes (by decide)
    _ = B4 m ρ c (Proc.devRef .tc main_arg5) := (B5_arr m ρ c 5).trans (((dat2 (E2 m ρ) c).arrAt_in 5 rfl _).trans (A_eq2 (E2 m ρ) c 5))
    _ = B3 m ρ c (Proc.devRef .tc main_arg5) := B4_of_ne m ρ c main_arg5 (by decide)
    _ = B2 m ρ c (Proc.devRef .tc main_arg5) := StableHlo.after_of_writes_sub hostOps1 _ hostOps1_writes (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl

/-! ## The proof data of the three pipelines, and what rides along -/

/-- Each pipeline's proof data at the contents its region is entered with. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)
/-- A stretch of host operations as an item, from the contents W. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without what is owed: every unscoped buffer at the last contents, the generator register somewhere. -/
abbrev Tend (c : Dev nD) : sProp 𝕄 := iprop(StableHlo.held (c : Thread nD τ) (Pipeline.ucRefs τ sig) (B6 m ρ c) ∗ ∃ r, prngReg c r)

/-! ## The three regions as items -/

-- unifying a library lemma stated over the pinned configuration with the printed one unfolds plain definitions in a
-- metavariable's type
set_option backward.isDefEq.respectTransparency.types false in
/-- The running-maximum region, entered with the buffers at B1 and left with them at B2: its two arrays are split out of the unscoped buffers and put back at what the pipeline leaves; the generator register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- The weight region, from B3 to B4, in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- The main region, from B4 to B5, in the same way. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (B4 m ρ c) ∗ R c)
  post c := iprop(StableHlo.held (c : Thread nD τ) (Pipeline.ucRefs τ sig) (B5 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (left2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

abbrev items : List (Pipeline.Seg (pcfgs (F := F)) adm (pdats m ρ) () defs₀ 𝒱₀ L lv) :=
  [ .host (hostItem hostOps0 hostOps0_sub hostOps0_fresh (B0 m ρ)),
    .region (reg0 m ρ),
    .host (hostItem hostOps1 hostOps1_sub hostOps1_fresh (B2 m ρ)),
    .region (reg1 m ρ),
    .region (reg2 m ρ),
    .host (hostItem hostOps3 hostOps3_sub hostOps3_fresh (B5 m ρ)) ]

theorem main_items (c : Dev nD) : main (F := F) c = Pipeline.Seg.run (items m ρ) := (main_chain c).trans (by chain_rfl)

set_option backward.isDefEq.respectTransparency.types false in
/-- THE RUN. From any memory with zero counters, every weakly fair execution of the program on the TensorCores
    terminates, nothing faulting, and in every final memory every unscoped buffer holds the last contents B6. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m ρ c b) :=
  Pipeline.θ_run_regions_kit (pcfgs (F := F)) adm (pdats m ρ) () cellOf_inj emb₁ defs₀ 𝒱₀ L lv m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tend m ρ)
    (hch := ⟨fun _ => .rfl, fun _ => .rfl, fun _ => .rfl, fun _ => .rfl, fun _ => .rfl, fun _ => .rfl, fun c =>
      (show iprop(StableHlo.held (c : Thread nD τ) (Pipeline.ucRefs τ sig) (B6 m ρ c) ∗ R c)
          ⊢ (iprop(Tend m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h => h)

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (B6_main_arg0 m ρ c),
     (h c _ (mem_uc main_arg1 (by decide))).trans (B6_main_arg1 m ρ c),
     (h c _ (mem_uc main_arg2 (by decide))).trans (B6_main_arg2 m ρ c),
     (h c _ (mem_uc main_arg3 (by decide))).trans (B6_main_arg3 m ρ c),
     (h c _ (mem_uc main_arg4 (by decide))).trans (B6_main_arg4 m ρ c),
     (h c _ (mem_uc main_arg5 (by decide))).trans (B6_main_arg5 m ρ c)⟩) (run_all m ρ)

end Cert.KernelIdeal.Hand

end
-- ==== Proof.KIRegion0Cell.lean ====
/-
  The first region's cell, case by case, as the body's arithmetic: after the first point the cell holds the block
  maximum of the point's rows (the payload of the first store); after a later point, the larger of what it held and
  the point's block maximum (the payload of the second store). So the cell's contents follow the recursion
      cell 0 = blockmax (rows 0),   cell (n + 1) = max (cell n, blockmax (rows (n + 1))).
-/
import proofs.«177588_j61813169324800_1_alg».proof.Proof.KIRegion0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem origin2 : (![0, 0] : Fin 2 → Nat) = fun _ => 0 := funext fun a => by fin_cases a <;> rfl

/-- The first case leaves the block maximum of the rows it was given. -/
theorem cellFirst_eq (c : Dev nD) (i : grid0.Coords) (arg1 : Memref sig .tc .vmem S1024x1024 .f32) (harg1 : arg1.IsWhole)
    (arg2 : Memref sig .tc .vmem S1x1 .f32) (harg2 : arg2.IsWhole) (hc1 : k0_cond1 i = 1#1) (hc2 : ¬ k0_cond2 i = 1#1)
    (x0 : Vec F S1024x1024 .f32) : cellFirst c i arg1 harg1 arg2 harg2 hc1 hc2 x0 = k0_pay1 x0 := by
  unfold cellFirst
  rw [View.read_writes_eq_canon _ _ _ (coverFirst c i arg1 harg1 arg2 harg2 hc1 hc2 x0)]
  unfold runFirst
  dsimp only
  rw [View.canon_unit_zero origin2]
  simp only [View.readAt_eq_ld, harg1.read_unread, View.ld_unit_zero (S := S1024x1024) origin2]

/-- The later case leaves the maximum of what the cell held and the block maximum of the rows it was given. -/
theorem cellLater_eq (c : Dev nD) (i : grid0.Coords) (arg1 : Memref sig .tc .vmem S1024x1024 .f32) (harg1 : arg1.IsWhole)
    (arg2 : Memref sig .tc .vmem S1x1 .f32) (harg2 : arg2.IsWhole) (hc1 : ¬ k0_cond1 i = 1#1) (hc2 : k0_cond2 i = 1#1)
    (x0 : Vec F S1024x1024 .f32) (xo : Vec F S1x1 .f32) : cellLater c i arg1 harg1 arg2 harg2 hc1 hc2 x0 xo = k0_pay2 x0 xo := by
  unfold cellLater
  rw [View.read_writes_eq_canon _ _ _ (coverLater c i arg1 harg1 arg2 harg2 hc1 hc2 x0 xo)]
  unfold runLater
  dsimp only
  rw [View.canon_unit_zero origin2]
  simp only [View.readAt_eq_ld, harg1.read_unread, harg2.read_unread, View.ld_unit_zero (S := S1024x1024) origin2,
    View.ld_unit_zero (S := S1x1) origin2]

variable (V : (c : Dev nD) → (b : Ref sig .tc) → Buf (Elt F) ((c : Thread nD τ).loc b))

/-- The recursion the cell follows over the grid. -/
theorem cellAfter_zero (c : Dev nD) (h : 0 < cfg0.N) : cellAfter V c 0 h = k0_pay1 (iblk0 V c 0 ⟨0, h⟩) :=
  cellFirst_eq c _ _ _ _ _ _ _ _

theorem cellAfter_succ (c : Dev nD) (n : ℕ) (h : n + 1 < cfg0.N) :
    cellAfter V c (n + 1) h = k0_pay2 (iblk0 V c 0 ⟨n + 1, h⟩) (cellAfter V c n (Nat.lt_of_succ_lt h)) :=
  cellLater_eq c _ _ _ _ _ _ _ _ _

end Cert.KernelIdeal.Hand

end
-- ==== Proof.KIValueHost.lean ====
/-
  The program's host operations at the ideal instance, in closed form, and the buffers each region passes through
  untouched: the activations and the residual as 16384 rows (two reshapes of the arguments), the scale 127 / M of the
  one-cell maximum M the first region leaves, and the result as the main region's 16384 rows reshaped back to
  [8, 2048, 1024].
-/
import proofs.«177588_j61813169324800_1_alg».proof.Proof.KIRun
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The host stretches -/

/-- The activations as 16384 rows of 1024. -/
theorem rows_x (c : Dev nD) : B1 m ρ c (Proc.devRef .tc main_v0)
    = fun i => shapeCast S16384x1024 (m ((c : Thread nD τ).loc main_arg0)) shapeCasts_S8x2048x1024_S16384x1024 i := by
  show StableHlo.after hostOps0 (B0 m ρ c) (Proc.devRef .tc main_v0) = _
  after_results
  rfl

/-- The residual as 16384 rows of 1024. -/
theorem rows_res (c : Dev nD) : B1 m ρ c (Proc.devRef .tc main_v1)
    = fun i => shapeCast S16384x1024 (m ((c : Thread nD τ).loc main_arg1)) shapeCasts_S8x2048x1024_S16384x1024 i := by
  show StableHlo.after hostOps0 (B0 m ρ c) (Proc.devRef .tc main_v1) = _
  after_results
  rfl

/-- The activations' scale: 127 divided by the cell the first region leaves. -/
theorem scale_cell (c : Dev nD) : B3 m ρ c (Proc.devRef .tc main_v4)
    = Host.divf (F := Ideal) (broadcastInDim S1x1 ![] bcast_S_S1x1 (constant (F := Ideal) S_ .f32 0x42FE0000#32)) (B2 m ρ c (Proc.devRef .tc main_v2)) := by
  show StableHlo.after hostOps1 (B2 m ρ c) (Proc.devRef .tc main_v4) = _
  after_results

/-- The result: the main region's rows at the shape [8, 2048, 1024]. -/
theorem result_rows (c : Dev nD) : B6 m ρ c (Proc.devRef .tc main_v7)
    = fun i => shapeCast S8x2048x1024 (B5 m ρ c (Proc.devRef .tc main_v6)) shapeCasts_S16384x1024_S8x2048x1024 i := by
  show StableHlo.after hostOps3 (B5 m ρ c) (Proc.devRef .tc main_v7) = _
  after_results
  rfl

/-! ## What the main region is entered with -/

/-- The rows of the activations reach the main region as the first reshape left them: the first region reads them,
    the scale's host operations and the weight region do not touch them. -/
theorem E2_rows_x (c : Dev nD) : E2 m ρ c main_v0 = B1 m ρ c (Proc.devRef .tc main_v0) :=
  calc B4 m ρ c (Proc.devRef .tc main_v0)
    _ = B3 m ρ c (Proc.devRef .tc main_v0) := B4_of_ne m ρ c main_v0 (by decide)
    _ = B2 m ρ c (Proc.devRef .tc main_v0) := StableHlo.after_of_writes_sub hostOps1 _ hostOps1_writes (by decide)
    _ = B1 m ρ c (Proc.devRef .tc main_v0) := (B2_arr m ρ c 0).trans (((dat0 (E0 m ρ) c).arrAt_in 0 rfl _).trans (A_eq0 (E0 m ρ) c 0))

theorem E2_rows_res (c : Dev nD) : E2 m ρ c main_v1 = B1 m ρ c (Proc.devRef .tc main_v1) :=
  calc B4 m ρ c (Proc.devRef .tc main_v1)
    _ = B3 m ρ c (Proc.devRef .tc main_v1) := B4_of_ne m ρ c main_v1 (by decide)
    _ = B2 m ρ c (Proc.devRef .tc main_v1) := StableHlo.after_of_writes_sub hostOps1 _ hostOps1_writes (by decide)
    _ = B1 m ρ c (Proc.devRef .tc main_v1) := B2_of_ne m ρ c main_v1 (by decide)

/-- The scale reaches the main region as the host formed it. -/
theorem E2_scale (c : Dev nD) : E2 m ρ c main_v4 = B3 m ρ c (Proc.devRef .tc main_v4) :=
  B4_of_ne m ρ c main_v4 (by decide)

/-- The quantised weight is what the weight region's one write-back leaves. -/
theorem E2_wq (c : Dev nD) : E2 m ρ c main_v5 = (dat1 (E1 m ρ) c).arrAt 1 cfg1.N :=
  B4_arr m ρ c 1

/-- Bias, gamma and beta reach the main region as launched. -/
theorem E2_arg (c : Dev nD) (r : Ref sig .tc) (h4 : ∀ w, Pipeline.arrRef spec1 w ≠ r) (h3 : r ∉ hostOps1_W)
    (h2 : ∀ w, Pipeline.arrRef spec0 w ≠ r) (h1 : r ∉ hostOps0_W) : E2 m ρ c r = m ((c : Thread nD τ).loc r) :=
  calc B4 m ρ c (Proc.devRef .tc r)
    _ = B3 m ρ c (Proc.devRef .tc r) := B4_of_ne m ρ c r h4
    _ = B2 m ρ c (Proc.devRef .tc r) := StableHlo.after_of_writes_sub hostOps1 _ hostOps1_writes h3
    _ = B1 m ρ c (Proc.devRef .tc r) := B2_of_ne m ρ c r h2
    _ = B0 m ρ c (Proc.devRef .tc r) := StableHlo.after_of_writes_sub hostOps0 _ hostOps0_writes h1
    _ = m ((c : Thread nD τ).loc r) := rfl

/-- The weight reaches the weight region as launched. -/
theorem E1_weight (c : Dev nD) : E1 m ρ c main_arg2 = m ((c : Thread nD τ).loc main_arg2) :=
  calc B3 m ρ c (Proc.devRef .tc main_arg2)
    _ = B2 m ρ c (Proc.devRef .tc main_arg2) := StableHlo.after_of_writes_sub hostOps1 _ hostOps1_writes (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl

/-- The one-cell maximum is what the first region's one write-back leaves. -/
theorem B2_cell (c : Dev nD) : B2 m ρ c (Proc.devRef .tc main_v2) = (dat0 (E0 m ρ) c).arrAt 1 cfg0.N :=
  B2_arr m ρ c 1

/-- The main region's rows are what its 32 write-backs leave. -/
theorem B5_rows (c : Dev nD) : B5 m ρ c (Proc.devRef .tc main_v6) = (dat2 (E2 m ρ) c).arrAt 7 cfg2.N :=
  B5_arr m ρ c 7

end Cert.KernelIdeal.HandValue

end
-- ==== Proof.Spec.lean ====
/-
  The function both programs compute, index by index, on the extended reals.

  A dense layer with symmetric 8-bit fake quantization of its input and of its weight, a bias, a residual
  and a layer normalization over the last axis:

    clip t  = min 2.5 (max (-2.5) t)
    M a     = the supremum over ALL entries of |clip a|          s a = 127 / M a
    q a t   = round (clip t * s a) / s a                          (round: to nearest, ties to even)
    y[p,q,o]   = (sum over c of q x x[p,q,c] * q w w[o,c]) + b[o] + res[p,q,o]
    mu[p,q]    = (sum over o of y[p,q,o]) / 1024
    d[p,q,o]   = y[p,q,o] - mu[p,q]
    v[p,q]     = (sum over o of d[p,q,o] * d[p,q,o]) / 1024
    out[p,q,o] = d[p,q,o] * rsqrt (v[p,q] + eps) * g[o] + be[o]

  Every operation is the exact one on the extended reals; the float literals stay the words they are
  written as and are never evaluated where both sides carry the same word. No program is imported here.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Spec

/-- Indices of an [8, 2048, 1024] array. -/
abbrev X3 : Type := (⟨3, ![8, 2048, 1024]⟩ : Shape).Idx
/-- Indices of a [1024, 1024] array. -/
abbrev W2 : Type := (⟨2, ![1024, 1024]⟩ : Shape).Idx
/-- Indices of a [1024] array. -/
abbrev V1 : Type := (⟨1, ![1024]⟩ : Shape).Idx

/-- The clamp into [-2.5, 2.5]: the smaller of 2.5 and the larger of -2.5 and `t`. -/
def clipv (t : EReal) : EReal :=
  min (Ideal.ofBits .f32 0x40200000#32) (max (Ideal.ofBits .f32 0xC0200000#32) t)

/-- The absolute value: the larger of `t` and `-t`. -/
def absv (t : EReal) : EReal := max t (-t)

/-- Rounding to the nearest integer, ties to even, the infinities fixed. -/
def rnd (t : EReal) : EReal := Ideal.liftRound Ideal.roundHalfEven t

/-- The supremum, over every entry of an array, of the absolute value of the clamped entry
    (`Finset.univ.sup`: the least upper bound, `⊥` for an empty index type). -/
def absMax {ι : Type} [Fintype ι] (a : ι → EReal) : EReal :=
  Finset.univ.sup fun i => absv (clipv (a i))

/-- The quantization step's reciprocal: 127 over the array's supremum. -/
def scale (M : EReal) : EReal := Ideal.div (Ideal.ofBits .f32 0x42FE0000#32) M

/-- One entry quantized at the scale `s`: clamp, multiply by `s`, round, divide by `s`. -/
def quant (s t : EReal) : EReal := Ideal.div (rnd (clipv t * s)) s

/-- An array quantized at its own scale, entry by entry. -/
def qarr {ι : Type} [Fintype ι] (a : ι → EReal) (i : ι) : EReal := quant (scale (absMax a)) (a i)

/-- The dense layer with bias and residual at row `(p, q)` and output feature `o`: the contraction over the
    input feature `c` of the quantized input against the quantized weight's row `o`, plus bias, plus residual. -/
def lin (x res : X3 → EReal) (w : W2 → EReal) (b : V1 → EReal) (p : Fin 8) (q : Fin 2048) (o : Fin 1024) : EReal :=
  (∑ c : Fin 1024, qarr x (ix3 p q c) * qarr w (ix2 o c)) + b (ix1 o) + res (ix3 p q o)

/-- The mean of row `(p, q)` over its 1024 output features. -/
def mean (x res : X3 → EReal) (w : W2 → EReal) (b : V1 → EReal) (p : Fin 8) (q : Fin 2048) : EReal :=
  Ideal.div (∑ o : Fin 1024, lin x res w b p q o) (Ideal.ofBits .f32 0x44800000#32)

/-- The deviation from the row's mean. -/
def dev (x res : X3 → EReal) (w : W2 → EReal) (b : V1 → EReal) (p : Fin 8) (q : Fin 2048) (o : Fin 1024) : EReal :=
  lin x res w b p q o - mean x res w b p q

/-- The variance of row `(p, q)`: the mean of the squared deviations. -/
def var (x res : X3 → EReal) (w : W2 → EReal) (b : V1 → EReal) (p : Fin 8) (q : Fin 2048) : EReal :=
  Ideal.div (∑ o : Fin 1024, dev x res w b p q o * dev x res w b p q o) (Ideal.ofBits .f32 0x44800000#32)

/-- The normalized, scaled and shifted output at coordinates `(p, q, o)`. -/
def outAt (x res : X3 → EReal) (w : W2 → EReal) (b g be : V1 → EReal) (p : Fin 8) (q : Fin 2048) (o : Fin 1024) : EReal :=
  dev x res w b p q o * Ideal.rsqrt (var x res w b p q + Ideal.ofBits .f32 0x2B8CBCCC#32) * g (ix1 o) + be (ix1 o)

/-- The whole result array. -/
def out (x res : X3 → EReal) (w : W2 → EReal) (b g be : V1 → EReal) : X3 → EReal :=
  fun i => outAt x res w b g be (i 0) (i 1) (i 2)

theorem out_ix3 (x res : X3 → EReal) (w : W2 → EReal) (b g be : V1 → EReal) (p : Fin 8) (q : Fin 2048) (o : Fin 1024) :
    out x res w b g be (ix3 p q o) = outAt x res w b g be p q o := rfl

end Cert.Spec

end
-- ==== Proof.SpecLaws.lean ====
/-
  The algebraic laws that join the two spellings of the specification's function, proved on the extended reals
  with no finiteness assumption on any input:

  * a clamped value is a real number in [-2.5, 2.5], and for a real `a` and ANY extended real `q`,
    `a + (q - a) = q` (the straight-through form of the quantizer is the quantizer);
  * for `0 < v`, `v = ⊤` included, `d / sqrt v = d * rsqrt v` for every extended real `d`;
  * a mean of squares plus a positive real is positive: a square is nonnegative on the extended reals
    (`⊥ * ⊥ = ⊤`), a finite sum of nonnegatives is nonnegative, and so is its quotient by 1024.
-/
import proofs.«177588_j61813169324800_1_alg».proof.Proof.Spec

noncomputable section

open Idealize.ShloMosaic Idealize.ShloMosaic.ValueIdx
open scoped BigOperators

namespace Cert.Spec

/-! ### The literals that are evaluated (each only where a law needs its sign or its finiteness) -/

theorem lit_hi : Ideal.ofBits .f32 0x40200000#32 = ((5 / 2 : ℝ) : EReal) := by
  simp [Ideal.ofBits, Ideal.ieee, -EReal.coe_mul]; norm_num

theorem lit_lo : Ideal.ofBits .f32 0xC0200000#32 = ((-(5 / 2) : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

theorem lit_eps_pos : ∃ e : ℝ, 0 < e ∧ Ideal.ofBits .f32 0x2B8CBCCC#32 = (e : EReal) := by
  refine ⟨_, ?_, by simp [Ideal.ofBits, Ideal.ieee, -EReal.coe_mul]; rfl⟩
  positivity

theorem lit_neg_inf : Ideal.ofBits .f32 0xFF800000#32 = ⊥ := by
  simp [Ideal.ofBits, Ideal.ieee]

/-! ### The clamp is real-valued; the straight-through form -/

/-- A clamped value is a real number: it lies between the reals -2.5 and 2.5. -/
theorem clipv_real (t : EReal) : ∃ a : ℝ, clipv t = (a : EReal) := by
  have hlo : ((-(5 / 2) : ℝ) : EReal) ≤ clipv t := by
    unfold clipv; rw [lit_hi, lit_lo]
    exact le_min (by exact_mod_cast (by norm_num : (-(5 / 2) : ℝ) ≤ 5 / 2)) (le_max_left _ _)
  have hhi : clipv t ≤ ((5 / 2 : ℝ) : EReal) := by
    unfold clipv; rw [lit_hi]; exact min_le_left _ _
  have hbot : clipv t ≠ ⊥ := fun h => by rw [h] at hlo; exact absurd hlo (by simp)
  have htop : clipv t ≠ ⊤ := fun h => by rw [h] at hhi; exact absurd hhi (by simp)
  exact ⟨(clipv t).toReal, (EReal.coe_toReal htop hbot).symm⟩

/-- For a real `a` and any extended real `q`, `a + (q - a) = q`. -/
theorem ste_cancel (a : ℝ) (q : EReal) : (a : EReal) + (q - (a : EReal)) = q := by
  induction q using EReal.rec with
  | bot => simp
  | top => simp
  | coe r => rw [← EReal.coe_sub, ← EReal.coe_add]; congr 1; ring

/-- The straight-through form at a clamped value: `clip t + (q - clip t) = q`, for any `q`. -/
theorem ste_clipv (t q : EReal) : clipv t + (q - clipv t) = q := by
  obtain ⟨a, ha⟩ := clipv_real t
  rw [ha]; exact ste_cancel a q

/-! ### Division by a square root against the product with the reciprocal square root -/

/-- For `0 < v` (`v = ⊤` included) and every extended real `d`: `d / sqrt v = d * rsqrt v`. -/
theorem div_sqrt_eq_mul_rsqrt (d v : EReal) (hv : 0 < v) : Ideal.div d (Ideal.sqrt v) = d * Ideal.rsqrt v := by
  induction v using EReal.rec with
  | bot => exact absurd hv (by simp)
  | top => simp [Ideal.div]
  | coe r =>
    have hr : 0 < r := by exact_mod_cast hv
    have hs : Real.sqrt r ≠ 0 := (Real.sqrt_pos.2 hr).ne'
    rw [Ideal.sqrt_coe, if_neg (not_lt.2 hr.le), Ideal.rsqrt_coe, if_neg (not_lt.2 hr.le), if_neg hr.ne',
      Ideal.div, if_neg (by exact_mod_cast hs), EReal.coe_inv]

/-! ### A mean of squares plus a positive real is positive -/

/-- A square is nonnegative on the extended reals. -/
theorem mul_self_nonneg' (d : EReal) : 0 ≤ d * d := by
  induction d using EReal.rec with
  | bot => simp
  | top => simp
  | coe r => rw [← EReal.coe_mul]; exact_mod_cast mul_self_nonneg r

/-- The quotient of a nonnegative extended real by 1024 is nonnegative. -/
theorem div_1024_nonneg {s : EReal} (hs : 0 ≤ s) : 0 ≤ Ideal.div s (Ideal.ofBits .f32 0x44800000#32) := by
  rw [lit_1024, Ideal.div_coe (by norm_num : (1024 : ℝ) ≠ 0)]
  exact mul_nonneg hs (by exact_mod_cast (by norm_num : (0 : ℝ) ≤ 1 / 1024))

/-- The mean of the squares of any 1024 extended reals, plus the positive literal, is positive. -/
theorem mean_sq_add_eps_pos (d : Fin 1024 → EReal) :
    0 < Ideal.div (∑ o : Fin 1024, d o * d o) (Ideal.ofBits .f32 0x44800000#32) + Ideal.ofBits .f32 0x2B8CBCCC#32 := by
  obtain ⟨e, he, hE⟩ := lit_eps_pos
  rw [hE]
  exact Right.add_pos_of_nonneg_of_pos (div_1024_nonneg (Finset.sum_nonneg fun o _ => mul_self_nonneg' (d o)))
    (by exact_mod_cast he)

/-- The variance plus the positive literal is positive, whatever the inputs. -/
theorem var_eps_pos (x res : X3 → EReal) (w : W2 → EReal) (b : V1 → EReal) (p : Fin 8) (q : Fin 2048) :
    0 < var x res w b p q + Ideal.ofBits .f32 0x2B8CBCCC#32 :=
  mean_sq_add_eps_pos fun o => dev x res w b p q o

/-- The reference's last step against the kernel's: dividing the deviation by `sqrt (var + eps)` is multiplying it by
    `rsqrt (var + eps)`. -/
theorem div_sqrt_var (x res : X3 → EReal) (w : W2 → EReal) (b : V1 → EReal) (p : Fin 8) (q : Fin 2048) (d : EReal) :
    Ideal.div d (Ideal.sqrt (var x res w b p q + Ideal.ofBits .f32 0x2B8CBCCC#32))
      = d * Ideal.rsqrt (var x res w b p q + Ideal.ofBits .f32 0x2B8CBCCC#32) :=
  div_sqrt_eq_mul_rsqrt d _ (var_eps_pos x res w b p q)

/-! ### The supremum as a fold of `max` from `⊥` -/

/-- The supremum over a finite set is the fold of `max` from `⊥`: the form a reduction by maximum from `-∞` takes. -/
theorem fold_max_bot_eq_sup {ι : Type} (s : Finset ι) (f : ι → EReal) : s.fold max ⊥ f = s.sup f := rfl

end Cert.Spec

end
-- ==== Proof.LibKeepdims.lean ====
/-
  Keepdims layouts and single-axis sums of rank-3 arrays, read at an index written by coordinates.

  A sum over one axis that keeps the axis as a unit axis is, in a kernel, a lane or sublane reduction followed by a
  shape cast that appends or inserts the unit axis, and its consumer broadcasts the unit axis back. Each of these
  operations reads its operand at an index whose coordinates are those of the result index with the unit coordinate
  dropped, added or set to zero; the sums range over the coordinates of the reduced axis.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A `[1, 1, b]` array broadcast to `[1, a, b]` reads, at `(u, i, r)`, the operand's one row at `r`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (r : Fin b) :
    broadcastTo ⟨3, ![1, a, b]⟩ v h (ix3 u i r) = v (ix3 (0 : Fin 1) (0 : Fin 1) r) := by
  refine broadcastTo_apply v h (ix3 u i r) (ix3 (0 : Fin 1) (0 : Fin 1) r) fun ax => ?_
  match ax with
  | ⟨0, _⟩ => exact (if_pos rfl).symm
  | ⟨1, _⟩ => exact (if_pos rfl).symm
  | ⟨2, _⟩ =>
    show r.val = if b = 1 then 0 else r.val
    split
    · have := r.isLt; omega
    · rfl

/-- The sum of an `[a, b, c]` array over its last axis reads, at `(i, j)`, the sum over `k` of the operand at
    `(i, j, k)`. At the ideal values. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext
      (match ax with | ⟨0, _⟩ => rfl | ⟨1, _⟩ => rfl | ⟨2, _⟩ => rfl)))

/-- The sum of an `[a, b, c]` array over its middle axis reads, at `(i, r)`, the sum over `k` of the operand at
    `(i, k, r)`. At the ideal values. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (r : Fin c) :
    multiReduction .add [1] ⟨2, ![a, c]⟩ src acc h hφ hacc (ix2 i r) = ∑ k : Fin b, src (ix3 i k r) :=
  (Ideal.multiReduction_add_single src acc h hφ hacc (ix2 i r)).trans
    (Finset.sum_congr rfl fun k _ => congrArg src (funext fun ax => Fin.ext
      (match ax with | ⟨0, _⟩ => rfl | ⟨1, _⟩ => rfl | ⟨2, _⟩ => rfl)))

end Cert.LibKeepdims
-- ==== Proof.LibRunMax.lean ====
/-
  The running maximum of a finite sequence.

  The left-nested maximum  b 0 ⊔ b 1 ⊔ … ⊔ b n  is an upper bound of each of its terms and the least one. Hence, when
  every term is below the supremum of a finite family and every member of the family is below some term, the running
  maximum is that supremum: an accumulator that starts at the first block's maximum and takes the maximum with each
  later block's ends at the maximum over all blocks, whatever the blocks are.
-/
import Mathlib

namespace Cert.LibRunMax

variable {α : Type*} [SemilatticeSup α]

/-- `b 0 ⊔ b 1 ⊔ … ⊔ b n`, nested to the left. -/
def runMax (b : ℕ → α) : ℕ → α
  | 0 => b 0
  | n + 1 => runMax b n ⊔ b (n + 1)

@[simp] theorem runMax_zero (b : ℕ → α) : runMax b 0 = b 0 := rfl
@[simp] theorem runMax_succ (b : ℕ → α) (n : ℕ) : runMax b (n + 1) = runMax b n ⊔ b (n + 1) := rfl

/-- Each term up to `n` is below the running maximum at `n`. -/
theorem le_runMax (b : ℕ → α) : ∀ (n t : ℕ), t ≤ n → b t ≤ runMax b n
  | 0, t, h => by
    obtain rfl : t = 0 := Nat.le_zero.mp h
    exact le_rfl
  | n + 1, t, h => by
    rcases Nat.lt_or_ge t (n + 1) with h' | h'
    · exact (le_runMax b n t (Nat.lt_succ_iff.mp h')).trans le_sup_left
    · obtain rfl : t = n + 1 := le_antisymm h h'
      exact le_sup_right

/-- A bound of every term up to `n` bounds the running maximum at `n`. -/
theorem runMax_le (b : ℕ → α) (u : α) : ∀ n : ℕ, (∀ t ≤ n, b t ≤ u) → runMax b n ≤ u
  | 0, h => h 0 le_rfl
  | n + 1, h => sup_le (runMax_le b u n fun t ht => h t (Nat.le_succ_of_le ht)) (h (n + 1) le_rfl)

/-- The running maximum of terms that together cover a finite family, each staying below the family's supremum,
    is that supremum. -/
theorem runMax_eq_sup [OrderBot α] {ι : Type*} [Fintype ι] (b : ℕ → α) (n : ℕ) (f : ι → α)
    (hb : ∀ t ≤ n, b t ≤ Finset.univ.sup f) (hf : ∀ i, ∃ t ≤ n, f i ≤ b t) :
    runMax b n = Finset.univ.sup f :=
  le_antisymm (runMax_le b _ n hb) (Finset.sup_le fun i _ => by
    obtain ⟨t, ht, hi⟩ := hf i
    exact hi.trans (le_runMax b n t ht))

/-- A supremum taken in two stages — over the lanes of each row, then over the rows — is below any bound of the
    entries, and above each entry. -/
theorem sup_sup_le [OrderBot α] {ρ κ : Type*} [Fintype ρ] [Fintype κ] (g : ρ → κ → α) (u : α) (h : ∀ p q, g p q ≤ u) :
    (Finset.univ.sup fun p => Finset.univ.sup fun q => g p q) ≤ u :=
  Finset.sup_le fun p _ => Finset.sup_le fun q _ => h p q

theorem le_sup_sup [OrderBot α] {ρ κ : Type*} [Fintype ρ] [Fintype κ] (g : ρ → κ → α) (p : ρ) (q : κ) :
    g p q ≤ Finset.univ.sup fun p => Finset.univ.sup fun q => g p q :=
  (Finset.le_sup (f := fun q => g p q) (Finset.mem_univ q)).trans
    (Finset.le_sup (f := fun p => Finset.univ.sup fun q => g p q) (Finset.mem_univ p))

end Cert.LibRunMax
-- ==== Proof.KIValue0.lean ====
/-
  The first region at the ideal instance: the cell it leaves holds the maximum of |clip x| over ALL entries of x.

  A block's maximum is a supremum in two stages (over the 1024 lanes of a row, then over the block's 1024 rows), both
  from -infinity, the bottom of the extended reals. The cell follows the running maximum of the sixteen block maxima,
  block t being rows 1024 t .. 1024 t + 1023 of the 16384 rows, and row r of those is row (r / 2048, r % 2048) of x.
  Every entry of x lies in exactly one block and every block entry is an entry of x, so the running maximum after the
  last block is the supremum over all entries.
-/
import proofs.«177588_j61813169324800_1_alg».proof.Proof.KIRegion0Cell
import proofs.«177588_j61813169324800_1_alg».proof.Proof.KIValueHost
import proofs.«177588_j61813169324800_1_alg».proof.Proof.Spec
import proofs.«177588_j61813169324800_1_alg».proof.Proof.SpecLaws
import proofs.«177588_j61813169324800_1_alg».proof.Proof.LibKeepdims
import proofs.«177588_j61813169324800_1_alg».proof.Proof.LibRunMax
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

open Cert.Spec Cert.LibRunMax

/-! ## Reductions by maximum, read as suprema -/

/-- A fold of max from the bit pattern of -infinity is the supremum. -/
theorem fold_max_neg_inf {ι : Type} (s : Finset ι) (f : ι → EReal) :
    s.fold max (FloatOps.ofBits (F := Ideal) .f32 0xFF800000#32) f = s.sup f := by
  show s.fold max (Ideal.ofBits .f32 0xFF800000#32) f = s.sup f
  rw [lit_neg_inf]; rfl

/-- The maximum over the lanes of row k of a 1024 x 1024 array. -/
theorem rowMax_apply (v : FVec Ideal S1024x1024 .f32) (k : Fin 1024) :
    multiReduction .maximumf [1] S1024 v 0xFF800000#32 reduces_S1024x1024_S1024 (.inl rfl) rfl (ix1 k)
      = Finset.univ.sup fun q : Fin 1024 => v (ix2 k q) :=
  (Ideal.multiReduction_maximumf_single v _ reduces_S1024x1024_S1024 (.inl rfl) rfl (ix1 k)).trans
    ((fold_max_neg_inf _ _).trans (Finset.sup_congr rfl fun q _ => congrArg v (funext fun ax => Fin.ext
      (match ax with | ⟨0, _⟩ => rfl | ⟨1, _⟩ => rfl))))

/-- The maximum over the 1024 rows of a one-lane column. -/
theorem colMax_apply (u : FVec Ideal S1024x1 .f32) :
    multiReduction .maximumf [0] S1 u 0xFF800000#32 reduces_S1024x1_S1 (.inl rfl) rfl (ix1 (0 : Fin 1))
      = Finset.univ.sup fun p : Fin 1024 => u (ix2 p (0 : Fin 1)) :=
  (Ideal.multiReduction_maximumf_single u _ reduces_S1024x1_S1 (.inl rfl) rfl (ix1 (0 : Fin 1))).trans
    ((fold_max_neg_inf _ _).trans (Finset.sup_congr rfl fun p _ => congrArg u (funext fun ax => Fin.ext
      (match ax with | ⟨0, _⟩ => rfl | ⟨1, _⟩ => rfl))))

/-- The maximum of |clip| over a block of 1024 rows, in the two stages the body takes it. -/
def blockMax (x0 : S1024x1024.Idx → EReal) : EReal :=
  Finset.univ.sup fun p : Fin 1024 => Finset.univ.sup fun q : Fin 1024 => absv (clipv (x0 (ix2 p q)))

/-- What the first store writes: the block maximum, in the one cell. -/
theorem cellPay1_apply (x0 : Vec Ideal S1024x1024 .f32) :
    k0_pay1 (F := Ideal) x0 (ix2 (0 : Fin 1) (0 : Fin 1)) = blockMax x0 := by
  unfold k0_pay1 blockMax
  dsimp only
  refine (Cert.LibKeepdims.shapeCast_a_a1_apply _ _ (0 : Fin 1) (0 : Fin 1)).trans ?_
  refine (colMax_apply _).trans ?_
  refine Finset.sup_congr rfl fun p _ => ?_
  refine (Cert.LibKeepdims.shapeCast_a_a1_apply _ _ p (0 : Fin 1)).trans ?_
  refine (rowMax_apply _ p).trans ?_
  refine Finset.sup_congr rfl fun q _ => ?_
  rw [shapeCast_self]
  rfl

/-- What the second store writes: the larger of the cell and the block maximum. -/
theorem cellPay2_apply (x0 : Vec Ideal S1024x1024 .f32) (xo : Vec Ideal S1x1 .f32) :
    k0_pay2 (F := Ideal) x0 xo (ix2 (0 : Fin 1) (0 : Fin 1)) = max (xo (ix2 (0 : Fin 1) (0 : Fin 1))) (blockMax x0) := by
  unfold k0_pay2
  rw [shapeCast_self]
  show max (xo _) (k0_pay1 (F := Ideal) x0 _) = _
  rw [cellPay1_apply]

/-! ## The cell over the grid -/

variable (V : (c : Dev nD) → (b : Ref sig .tc) → Buf (Elt Ideal) ((c : Thread nD τ).loc b))

/-- Block t's maximum, bottom past the grid. -/
def blockMaxAt (c : Dev nD) (t : ℕ) : EReal :=
  if h : t < cfg0.N then blockMax (iblk0 V c 0 ⟨t, h⟩) else ⊥

/-- The cell after point n is the running maximum of the block maxima up to n. -/
theorem cell_runMax (c : Dev nD) : ∀ (n : ℕ) (h : n < cfg0.N),
    cellAfter V c n h (ix2 (0 : Fin 1) (0 : Fin 1)) = runMax (blockMaxAt V c) n
  | 0, h => by
    rw [cellAfter_zero, cellPay1_apply]
    show _ = blockMaxAt V c 0
    unfold blockMaxAt; rw [dif_pos h]
  | n + 1, h => by
    rw [cellAfter_succ, cellPay2_apply, cell_runMax c n (Nat.lt_of_succ_lt h)]
    show _ = runMax (blockMaxAt V c) n ⊔ blockMaxAt V c (n + 1)
    unfold blockMaxAt; rw [dif_pos h]

end Cert.KernelIdeal.HandValue

end
-- ==== Proof.KIValue0Max.lean ====
/-
  The first region's result: the one cell of its output array ends at the maximum of |clip x| over every entry of x.

  The output array is a single cell, written back once, after the last grid point, from the staging buffer that holds
  the running maximum of all sixteen blocks. Block t of the 16384 x 1024 rows is rows 1024 t .. 1024 t + 1023, and row r
  of the reshaped activations is row (r / 2048, r % 2048) of x; so the sixteen blocks together hold each entry of x
  exactly once, and the running maximum over them is the supremum over all of x.
-/
import proofs.«177588_j61813169324800_1_alg».proof.Proof.KIValue0
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

open Cert.Spec Cert.LibRunMax

variable (V : (c : Dev nD) → (b : Ref sig .tc) → Buf (Elt Ideal) ((c : Thread nD τ).loc b))

/-! ## The one-cell array after the region -/

theorem N0 : cfg0.N = 16 := N_0

/-- The one-cell shape has one index. -/
instance : Subsingleton S1x1.Idx := ⟨fun a b => funext fun d => Fin.ext (by
  have ha : (a d).val < 1 := by
    match d with
    | ⟨0, _⟩ => exact (a 0).isLt
    | ⟨1, _⟩ => exact (a 1).isLt
  have hb : (b d).val < 1 := by
    match d with
    | ⟨0, _⟩ => exact (b 0).isLt
    | ⟨1, _⟩ => exact (b 1).isLt
  omega)⟩

/-- The cell's window sits at block (0, 0) at every point. -/
theorem cell_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- An index of the one-cell array is in a point's block iff each coordinate is in the block's range. -/
theorem mem_cell (t : Fin cfg0.N) (i : S1x1.Idx) :
    i ∈ ((cfg0.win 1).blk t).view.set ↔ ∀ a : Fin 2, win0_1.index t a * S1x1.size a ≤ (i a).val ∧ (i a).val < win0_1.index t a * S1x1.size a + S1x1.size a := by
  show i ∈ ((View.whole main_v2).slice (win0_1.rect t)).set ↔ _
  rw [View.set_slice_whole, Rect.mem_set_unit]
  exact Iff.rfl

/-- The last point's write-back covers the whole array. -/
theorem cell_covered (i : S1x1.Idx) : ∃ t : Fin cfg0.N, (cfg0.win 1).flush t = true ∧ i ∈ ((cfg0.win 1).blk t).view.set := by
  refine ⟨⟨15, by rw [N0]; decide⟩, (flush0_1 _).mpr rfl, ?_⟩
  rw [mem_cell]
  obtain ⟨e0, e1⟩ := cell_index ⟨15, by rw [N0]; decide⟩
  intro a
  match a with
  | ⟨0, _⟩ =>
    have h : (i 0).val < 1 := (i 0).isLt
    show win0_1.index _ (0 : Fin 2) * 1 ≤ (i 0).val ∧ (i 0).val < win0_1.index _ (0 : Fin 2) * 1 + 1
    omega
  | ⟨1, _⟩ =>
    have h : (i 1).val < 1 := (i 1).isLt
    show win0_1.index _ (1 : Fin 2) * 1 ≤ (i 1).val ∧ (i 1).val < win0_1.index _ (1 : Fin 2) * 1 + 1
    omega

/-- The output array ends at what the staging cell holds after the last point. -/
theorem cell_final (c : Dev nD) :
    (dat0 (F := Ideal) V c).arrAt 1 cfg0.N = cellAfter V c 15 (by rw [N0]; decide) := by
  refine (dat0 V c).arrAt_eq_of_cover 1 _ (fun t hf => ?_) (fun i => cell_covered i)
  have h15 : t.val = 15 := by
    have := (flush0_1 t).mp hf
    have hN : t.val < 16 := lt_of_lt_of_eq t.isLt N0
    omega
  show (cfg0.win 1).cut (grid0.coords t) ((dat0 V c).after 1 t) = _
  rw [after0_1]
  obtain ⟨n, hn⟩ := t
  dsimp only at h15
  subst h15
  funext j
  show cellAfter V c 15 _ j = cellAfter V c 15 _ (((cfg0.win 1).blk ⟨15, hn⟩).view.emb j)
  exact congrArg (cellAfter V c 15 _) (Subsingleton.elim (α := S1x1.Idx) _ _)

/-! ## Where a block's rows sit -/

/-- The rows' window moves down by one block per grid point and never sideways. -/
theorem rows_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry (p, q) of block t is entry (1024 t + p, q) of the 16384 rows. -/
theorem iblk0_apply (c : Dev nD) (t : Fin cfg0.N) (p q : Fin 1024) (r : Fin 16384) (hr : r.val = 1024 * t.val + p.val) :
    iblk0 V c 0 t (ix2 p q) = V c main_v0 (ix2 r q) := by
  obtain ⟨e0, e1⟩ := rows_index t
  show V c main_v0 (((cfg0.win 0).blk t).view.emb (ix2 p q)) = V c main_v0 (ix2 r q)
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * q.val = q.val; omega

/-! ## Every entry of x, once -/

/-- Row r of the 16384 rows is row (a, b) of x when r = 2048 a + b. -/
theorem rows_apply (x : S8x2048x1024.Idx → EReal) (a : Fin 8) (b : Fin 2048) (q : Fin 1024) (r : Fin 16384)
    (hr : r.val = 2048 * a.val + b.val) :
    shapeCast S16384x1024 x shapeCasts_S8x2048x1024_S16384x1024 (ix2 r q) = x (ix3 a b q) :=
  shapeCast_apply x _ _ _ (by
    rw [Shape.rowMajor_val_three, Shape.rowMajor_val_two]
    show (a.val * 2048 + b.val) * 1024 + q.val = r.val * 1024 + q.val
    rw [hr]; ring)

/-- Entry (p, q) of block t is the entry (a, b, q) of x with 2048 a + b = 1024 t + p. -/
theorem entry_eq (c : Dev nD) (t : Fin cfg0.N) (p q : Fin 1024) (a : Fin 8) (b : Fin 2048)
    (h : 2048 * a.val + b.val = 1024 * t.val + p.val) :
    iblk0 (E0 m ρ) c 0 t (ix2 p q) = m ((c : Thread nD τ).loc main_arg0) (ix3 a b q) := by
  have ht : t.val < 16 := lt_of_lt_of_eq t.isLt N0
  have hp := p.isLt
  rw [iblk0_apply (E0 m ρ) c t p q ⟨1024 * t.val + p.val, by omega⟩ rfl]
  show B1 m ρ c (Proc.devRef .tc main_v0) _ = _
  rw [rows_x]
  exact rows_apply _ a b q _ h.symm

/-- THE CELL AFTER THE LAST POINT is the maximum of |clip x| over all of x. -/
theorem cell_is_absMax (c : Dev nD) :
    cellAfter (E0 m ρ) c 15 (by rw [N0]; decide) (ix2 (0 : Fin 1) (0 : Fin 1)) = absMax (m ((c : Thread nD τ).loc main_arg0)) := by
  rw [cell_runMax]
  refine runMax_eq_sup (ι := S8x2048x1024.Idx) _ 15 _ (fun t ht => ?_) (fun i => ?_)
  · have h16 : t < cfg0.N := by rw [N0]; omega
    unfold blockMaxAt; rw [dif_pos h16]
    refine sup_sup_le _ _ fun p q => ?_
    have hp := p.isLt
    rw [entry_eq m ρ c ⟨t, h16⟩ p q ⟨(1024 * t + p.val) / 2048, by omega⟩ ⟨(1024 * t + p.val) % 2048, by omega⟩
      (by show 2048 * ((1024 * t + p.val) / 2048) + (1024 * t + p.val) % 2048 = 1024 * t + p.val; omega)]
    exact Finset.le_sup (f := fun i => absv (clipv (m ((c : Thread nD τ).loc main_arg0) i))) (Finset.mem_univ _)
  · obtain ⟨a, b, q, rfl⟩ : ∃ (a : Fin 8) (b : Fin 2048) (q : Fin 1024), i = ix3 a b q := ⟨i 0, i 1, i 2, eq_ix3 i⟩
    have ha := a.isLt; have hb := b.isLt
    have h16 : (2048 * a.val + b.val) / 1024 < cfg0.N := by rw [N0]; omega
    refine ⟨(2048 * a.val + b.val) / 1024, by omega, ?_⟩
    unfold blockMaxAt; rw [dif_pos h16]
    have e := entry_eq m ρ c ⟨_, h16⟩ ⟨(2048 * a.val + b.val) % 1024, by omega⟩ q a b
      (by show 2048 * a.val + b.val = 1024 * ((2048 * a.val + b.val) / 1024) + (2048 * a.val + b.val) % 1024; omega)
    show absv (clipv (m ((c : Thread nD τ).loc main_arg0) (ix3 a b q))) ≤ _
    rw [← e]
    exact le_sup_sup (fun p q => absv (clipv (iblk0 (E0 m ρ) c 0 ⟨_, h16⟩ (ix2 p q)))) _ _

/-- So the scale the main region is entered with is 127 over that maximum. -/
theorem scale_is (c : Dev nD) :
    E2 m ρ c main_v4 (ix2 (0 : Fin 1) (0 : Fin 1)) = scale (absMax (m ((c : Thread nD τ).loc main_arg0))) := by
  rw [E2_scale, scale_cell, B2_cell, cell_final]
  show Ideal.div (Ideal.ofBits .f32 0x42FE0000#32) (cellAfter (E0 m ρ) c 15 _ (ix2 (0 : Fin 1) (0 : Fin 1))) = _
  rw [cell_is_absMax]; rfl

end Cert.KernelIdeal.HandValue

end
-- ==== Proof.KIValue1.lean ====
/-
  The weight call at the ideal instance.  Its one block is the whole 1024 x 1024 weight array `w`.  The body clips
  every entry to [-2.5, 2.5], takes the maximum `M` of the absolute values in two stages (along each row, then over
  the rows), forms the scale 127 / M, rounds clip * scale to the nearest integer (ties to even), divides by the scale
  again, and transposes: entry (c, o) of the result is the quantised entry (o, c) of `w`.  A two-stage supremum over
  rows and lanes is the supremum over all entries, so the result is the specification's quantised array, transposed.
-/
import proofs.«177588_j61813169324800_1_alg».proof.Proof.KIRegion1
import proofs.«177588_j61813169324800_1_alg».proof.Proof.KIValue0
import proofs.«177588_j61813169324800_1_alg».proof.Proof.Spec
import proofs.«177588_j61813169324800_1_alg».proof.Proof.SpecLaws
import proofs.«177588_j61813169324800_1_alg».proof.Proof.LibKeepdims
import proofs.«177588_j61813169324800_1_alg».proof.Proof.LibRunMax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec Cert.LibRunMax

/-! ## The two-stage supremum is the supremum over all entries -/

theorem blockMax_eq_absMax (w : S1024x1024.Idx → EReal) : blockMax w = Cert.Spec.absMax w := by
  unfold blockMax Cert.Spec.absMax
  refine le_antisymm ?_ ?_
  · exact sup_sup_le (fun (p q : Fin 1024) => absv (clipv (w (ix2 p q)))) _ fun p q =>
      Finset.le_sup (f := fun i : S1024x1024.Idx => absv (clipv (w i))) (Finset.mem_univ (ix2 p q))
  · refine Finset.sup_le fun i _ => ?_
    exact (congrArg (fun j : S1024x1024.Idx => absv (clipv (w j))) (eq_ix2 i)).le.trans
      (le_sup_sup (fun (p q : Fin 1024) => absv (clipv (w (ix2 p q)))) (i 0) (i 1))

/-! ## The body's arithmetic in stages -/

theorem whz2 : (![0, 0] : Fin 2 → Nat) = fun _ => 0 := funext fun a => by fin_cases a <;> rfl

/-- The entries clipped to [-2.5, 2.5]. -/
def wClip (v0 : Vec Ideal S1024x1024 .f32) : FVec Ideal S1024x1024 .f32 :=
  have cst : Ideal .f32 := Scalar.ofBits .f32 0xC0200000#32
  have cst_1 : Ideal .f32 := Scalar.ofBits .f32 0x40200000#32
  have v1 : FVec Ideal S1024x1024 .f32 := broadcast S1024x1024 cst
  have v2 : FVec Ideal S1024x1024 .f32 := maximumf v1 v0
  have v3 : FVec Ideal S1024x1024 .f32 := broadcast S1024x1024 cst_1
  have v4 : FVec Ideal S1024x1024 .f32 := minimumf v3 v2
  v4

/-- The maximum of the absolute values, row by row and then over the rows, as a 1 x 1 array. -/
def wMaxCell (v4 : FVec Ideal S1024x1024 .f32) : FVec Ideal S1x1 .f32 :=
  have v5 : FVec Ideal S1024x1024 .f32 := absf v4
  have v6 : FVec Ideal S1024 .f32 := multiReduction .maximumf [1] S1024 v5 0xFF800000#32 reduces_S1024x1024_S1024 (.inl rfl) rfl
  have v7 : FVec Ideal S1024x1 .f32 := shapeCast S1024x1 v6 shapeCasts_S1024_S1024x1
  have v8 : FVec Ideal S1 .f32 := multiReduction .maximumf [0] S1 v7 0xFF800000#32 reduces_S1024x1_S1 (.inl rfl) rfl
  have v9 : FVec Ideal S1x1 .f32 := shapeCast S1x1 v8 shapeCasts_S1_S1x1
  v9

/-- The scale: the literal 127 divided by the maximum, as a 1 x 1 array. -/
def wScale (v9 : FVec Ideal S1x1 .f32) : FVec Ideal S1x1 .f32 :=
  have cst_4 : Ideal .f32 := Scalar.ofBits .f32 0x42FE0000#32
  have v10 : FVec Ideal S1x1 .f32 := broadcast S1x1 cst_4
  have v11 : FVec Ideal S1x1 .f32 := divf v10 v9
  v11

/-- The clipped entries times the scale, rounded, divided by the scale. -/
def wRound (v4 : FVec Ideal S1024x1024 .f32) (v11 : FVec Ideal S1x1 .f32) : FVec Ideal S1024x1024 .f32 :=
  have v12 : FVec Ideal S1024x1024 .f32 := broadcastTo S1024x1024 v11 broadcasts_S1x1_S1024x1024
  have v13 : FVec Ideal S1024x1024 .f32 := mulf v4 v12
  have v14 : FVec Ideal S1024x1024 .f32 := roundeven v13
  have v15 : FVec Ideal S1024x1024 .f32 := broadcastTo S1024x1024 v11 broadcasts_S1x1_S1024x1024
  have v16 : FVec Ideal S1024x1024 .f32 := divf v14 v15
  v16

/-- The transpose, narrowed (the narrowing changes nothing here). -/
def wTr (v16 : FVec Ideal S1024x1024 .f32) : FVec Ideal S1024x1024 .bf16 :=
  have v17 : FVec Ideal S1024x1024 .f32 := transpose S1024x1024 [1, 0] v16 transposes_S1024x1024_p1_0_S1024x1024
  have v18 : FVec Ideal S1024x1024 .bf16 := truncf .bf16 v17 bitsLt_bf16_f32
  v18

/-- The body's payload is the stages composed. -/
theorem wpay_eq (v0 : Vec Ideal S1024x1024 .f32) :
    k1_pay1 (F := Ideal) v0 = wTr (wRound (wClip v0) (wScale (wMaxCell (wClip v0)))) := rfl

/-! ## Each stage at an index -/

theorem wClip_apply (v0 : Vec Ideal S1024x1024 .f32) (i : S1024x1024.Idx) : wClip v0 i = clipv (v0 i) := rfl

/-- The maximum cell holds the two-stage supremum of the absolute values. -/
theorem wMaxCell_apply (v4 : FVec Ideal S1024x1024 .f32) :
    wMaxCell v4 (ix2 (0 : Fin 1) (0 : Fin 1))
      = Finset.univ.sup fun p : Fin 1024 => Finset.univ.sup fun q : Fin 1024 => absv (v4 (ix2 p q)) := by
  unfold wMaxCell
  dsimp only
  refine (Cert.LibKeepdims.shapeCast_a_a1_apply _ _ (0 : Fin 1) (0 : Fin 1)).trans ?_
  refine (colMax_apply _).trans ?_
  refine Finset.sup_congr rfl fun p _ => ?_
  refine (Cert.LibKeepdims.shapeCast_a_a1_apply _ _ p (0 : Fin 1)).trans ?_
  refine (rowMax_apply _ p).trans ?_
  exact Finset.sup_congr rfl fun q _ => rfl

theorem wScale_apply (v9 : FVec Ideal S1x1 .f32) :
    wScale v9 (ix2 (0 : Fin 1) (0 : Fin 1)) = Cert.Spec.scale (v9 (ix2 (0 : Fin 1) (0 : Fin 1))) := rfl

/-- A 1 x 1 array broadcast over the 1024 x 1024 block reads its one entry everywhere. -/
theorem wbcast_scalar_apply {α : Type} (v : S1x1.Idx → α) (h : S1x1.Broadcasts S1024x1024) (p c : Fin 1024) :
    broadcastTo S1024x1024 v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

theorem wRound_apply (v4 : FVec Ideal S1024x1024 .f32) (v11 : FVec Ideal S1x1 .f32) (p c : Fin 1024) :
    wRound v4 v11 (ix2 p c)
      = Ideal.div (Cert.Spec.rnd (v4 (ix2 p c) * v11 (ix2 (0 : Fin 1) (0 : Fin 1)))) (v11 (ix2 (0 : Fin 1) (0 : Fin 1))) := by
  show Ideal.div (Ideal.liftRound Ideal.roundHalfEven
      (v4 (ix2 p c) * broadcastTo S1024x1024 v11 broadcasts_S1x1_S1024x1024 (ix2 p c)))
      (broadcastTo S1024x1024 v11 broadcasts_S1x1_S1024x1024 (ix2 p c)) = _
  rw [wbcast_scalar_apply]
  rfl

theorem wTr_apply (v16 : FVec Ideal S1024x1024 .f32) (cc o : Fin 1024) : wTr v16 (ix2 cc o) = v16 (ix2 o cc) := by
  show transpose S1024x1024 [1, 0] v16 transposes_S1024x1024_p1_0_S1024x1024 (ix2 cc o) = _
  exact transpose_ix2_apply v16 _ cc o

/-! ## The payload and the stored block at an index -/

/-- Entry (cc, o) of the body's payload is the specification's quantised entry (o, cc) of the block. -/
theorem wpay_apply (w : Vec Ideal S1024x1024 .f32) (cc o : Fin 1024) :
    k1_pay1 (F := Ideal) w (ix2 cc o) = Cert.Spec.qarr w (ix2 o cc) := by
  have hM : (Finset.univ.sup fun p : Fin 1024 => Finset.univ.sup fun q : Fin 1024 => absv (wClip w (ix2 p q)))
      = Cert.Spec.absMax w := blockMax_eq_absMax w
  rw [wpay_eq, wTr_apply, wRound_apply, wScale_apply, wMaxCell_apply, hM]
  rfl

theorem out1_1_apply (x0 : Vec Ideal S1024x1024 .f32) (cc o : Fin 1024) :
    Hand.out1_1 (F := Ideal) x0 (ix2 cc o) = Cert.Spec.qarr x0 (ix2 o cc) := by
  unfold Hand.out1_1
  rw [View.canon_unit_zero whz2]
  simp only [View.ld_unit_zero (S := S1024x1024) whz2]
  exact wpay_apply x0 cc o

/-- The quantised array, transposed: entry `i` is the quantised entry at `i`'s coordinates swapped. -/
def wOut (W : S1024x1024.Idx → EReal) : S1024x1024.Idx → EReal := fun i =>
  have a : Fin 1024 := i 0
  have b : Fin 1024 := i 1
  Cert.Spec.qarr W (ix2 b a)

theorem wOut_apply (W : S1024x1024.Idx → EReal) (cc o : Fin 1024) : wOut W (ix2 cc o) = Cert.Spec.qarr W (ix2 o cc) := rfl

/-- The stored block against the array: if the input block is the array `W`, what the body stores at block index `j`
    is the quantised `W` at the transposed position. -/
theorem wblock_eq (W x0 : S1024x1024.Idx → EReal) (h0 : x0 = W) (j k : S1024x1024.Idx)
    (hk0 : (k 0).val = (j 0).val) (hk1 : (k 1).val = (j 1).val) :
    Hand.out1_1 (F := Ideal) x0 j = wOut W k := by
  subst h0
  obtain ⟨cc, o, rfl⟩ : ∃ (cc o : Fin 1024), j = ix2 cc o := ⟨j 0, j 1, eq_ix2 j⟩
  obtain ⟨cc', o', rfl⟩ : ∃ (cc' o' : Fin 1024), k = ix2 cc' o' := ⟨k 0, k 1, eq_ix2 k⟩
  obtain rfl : cc' = cc := Fin.ext hk0
  obtain rfl : o' = o := Fin.ext hk1
  rw [wOut_apply]
  exact out1_1_apply x0 cc' o'

/-! ## From the one block to the array -/

/-- Both windows' one block sits at block index 0 on both axes (decided over the one grid point). -/
theorem widx_facts : ∀ t : Fin cfg1.N,
    win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

variable (V : (c : Dev nD) → (b : Ref sig .tc) → Buf (Elt Ideal) ((c : Thread nD τ).loc b))

/-- The input block is the whole weight array. -/
theorem iblk1_0_eq (c : Dev nD) (t : Fin cfg1.N) :
    (Hand.iblk1 V c 0 t : S1024x1024.Idx → EReal) = (V c main_arg2 : S1024x1024.Idx → EReal) := by
  obtain ⟨e0, e1, -, -⟩ := widx_facts t
  funext y
  unfold Hand.iblk1
  rw [View.read_apply]
  show V c main_arg2 _ = V c main_arg2 y
  congr 1
  funext a; apply Fin.ext
  match a with
  | ⟨0, _⟩ => show win1_0.index t (0 : Fin 2) * 1024 + 1 * (y 0).val = (y 0).val; rw [e0]; omega
  | ⟨1, _⟩ => show win1_0.index t (1 : Fin 2) * 1024 + 1 * (y 1).val = (y 1).val; rw [e1]; omega

/-- The one grid point writes back the quantised weight array, transposed. -/
theorem wflushed_eq (c : Dev nD) (t : Fin cfg1.N) :
    (Hand.dat1 (F := Ideal) V c).flushed 1 t = ((cfg1.win 1).blk t).view.read (Elt Ideal) (wOut (V c main_arg2)) := by
  show (cfg1.win 1).cut (grid1.coords t) ((Hand.dat1 (F := Ideal) V c).after 1 t) = _
  rw [Hand.after1_1]
  obtain ⟨-, -, e0, e1⟩ := widx_facts t
  funext j
  show Hand.out1_1 (F := Ideal) (Hand.iblk1 V c 0 t) j = wOut (V c main_arg2) (((cfg1.win 1).blk t).view.emb j)
  refine wblock_eq (V c main_arg2) (Hand.iblk1 V c 0 t) (iblk1_0_eq V c t) j (((cfg1.win 1).blk t).view.emb j) ?_ ?_
  · show win1_1.index t (0 : Fin 2) * 1024 + 1 * (j 0).val = (j 0).val
    rw [e0]; omega
  · show win1_1.index t (1 : Fin 2) * 1024 + 1 * (j 1).val = (j 1).val
    rw [e1]; omega

/-- Every index of the output array lies in the one point's block. -/
theorem wcovered (i : S1024x1024.Idx) :
    ∃ t : Fin cfg1.N, (cfg1.win 1).flush t = true ∧ i ∈ ((cfg1.win 1).blk t).view.set := by
  have hi0 : (i 0).val < 1024 := (i 0).isLt
  have hi1 : (i 1).val < 1024 := (i 1).isLt
  obtain ⟨-, -, e0, e1⟩ := widx_facts t1_0
  refine ⟨t1_0, flush1_1 t1_0, ?_⟩
  show i ∈ ((View.whole main_v5).slice (win1_1.rect t1_0)).set
  rw [View.set_slice_whole, Rect.mem_set_unit]
  intro a
  match a with
  | ⟨0, _⟩ =>
    show win1_1.index t1_0 (0 : Fin 2) * 1024 ≤ (i 0).val ∧ (i 0).val < win1_1.index t1_0 (0 : Fin 2) * 1024 + 1024
    rw [e0]; omega
  | ⟨1, _⟩ =>
    show win1_1.index t1_0 (1 : Fin 2) * 1024 ≤ (i 1).val ∧ (i 1).val < win1_1.index t1_0 (1 : Fin 2) * 1024 + 1024
    rw [e1]; omega

/-- After the weight call its output array holds the quantised weight array, transposed. -/
theorem final1 (c : Dev nD) :
    (Hand.dat1 (F := Ideal) V c).arrAt 1 cfg1.N = fun i => Cert.Spec.qarr (V c main_arg2) (ix2 (i 1) (i 0)) :=
  (Hand.dat1 (F := Ideal) V c).arrAt_eq_of_cover 1 (wOut (V c main_arg2))
    (fun t _ => wflushed_eq V c t) (fun i => wcovered i)

end Cert.KernelIdeal.HandValue

end
-- ==== Proof.KIValue2Spec.lean ====
/-
  The value of the main call, as one function of the seven arrays it is entered with, index by index, over the
  extended reals.  Row `r` of the result depends on row `r` of the activations and of the residual only:
  the activations are clipped to [-2.5, 2.5], scaled by `s`, rounded to the nearest integer (ties to even) and
  divided by `s` again; the quantised row is multiplied by the weight matrix, the first vector and the residual
  row are added; the row is then centred by its mean, divided by the square root of its variance plus a small
  constant, multiplied by the second vector and shifted by the third.  The float literals stay as bit patterns.
-/
import proofs.«177588_j61813169324800_1_alg».proof.KernelIdeal
import Idealize.ShloMosaic.PureOps.Ideal
import Idealize.ShloMosaic.Lib.ValueIdx

noncomputable section

namespace Cert.KernelIdeal.HandValue

open Cert.KernelIdeal Idealize.ShloMosaic Idealize.ShloMosaic.ValueIdx

/-- One activation `x` clipped to [-2.5, 2.5], multiplied by the scale `s`, rounded half to even, divided by `s`. -/
def quantAt (s x : EReal) : EReal :=
  Ideal.div (Ideal.liftRound Ideal.roundHalfEven
    (min (Ideal.ofBits .f32 0x40200000#32) (max (Ideal.ofBits .f32 0xC0200000#32) x) * s)) s

/-- A row of the linear layer: at column `o`, the quantised activation row `xrow` against column `o` of the weights,
    plus the bias `b` at `o`, plus the residual row at `o`. -/
def linRow (s : EReal) (xrow : Fin 1024 → EReal) (wq : S1024x1024.Idx → EReal) (b : S1024.Idx → EReal)
    (rrow : Fin 1024 → EReal) (o : Fin 1024) : EReal :=
  (∑ c : Fin 1024, quantAt s (xrow c) * wq (ix2 c o)) + b (ix1 o) + rrow o

/-- The mean of a row of 1024 entries (the divisor is the literal 1024.0). -/
def meanRow (y : Fin 1024 → EReal) : EReal :=
  Ideal.div (∑ o : Fin 1024, y o) (Ideal.ofBits .f32 0x44800000#32)

/-- A row's entry minus the row's mean. -/
def devRow (y : Fin 1024 → EReal) (o : Fin 1024) : EReal := y o - meanRow y

/-- The mean of the squared deviations of a row. -/
def varRow (y : Fin 1024 → EReal) : EReal :=
  Ideal.div (∑ o : Fin 1024, devRow y o * devRow y o) (Ideal.ofBits .f32 0x44800000#32)

/-- A row's deviation times the reciprocal square root of its variance plus the literal 1e-12. -/
def normRow (y : Fin 1024 → EReal) (o : Fin 1024) : EReal :=
  devRow y o * Ideal.rsqrt (varRow y + Ideal.ofBits .f32 0x2B8CBCCC#32)

/-- A row of the result: the normalised linear row, times `g`, plus `be`, column by column. -/
def outRow (s : EReal) (xrow : Fin 1024 → EReal) (wq : S1024x1024.Idx → EReal) (b g be : S1024.Idx → EReal)
    (rrow : Fin 1024 → EReal) (o : Fin 1024) : EReal :=
  normRow (linRow s xrow wq b rrow) o * g (ix1 o) + be (ix1 o)

/-- The whole result: row `r`, column `o` is `outRow` of row `r` of the activations `xs` and of the residual `rs`,
    with the scale read from the one entry of `sa`. -/
def mainOut (xs rs : S16384x1024.Idx → EReal) (wq : S1024x1024.Idx → EReal) (b g be : S1024.Idx → EReal)
    (sa : S1x1.Idx → EReal) : S16384x1024.Idx → EReal := fun i =>
  have r : Fin 16384 := i 0
  have o : Fin 1024 := i 1
  outRow (sa (ix2 (0 : Fin 1) (0 : Fin 1))) (fun c => xs (ix2 r c)) wq b g be (fun o' => rs (ix2 r o')) o

/-- The result at row `r`, column `o`. -/
theorem mainOut_apply (xs rs : S16384x1024.Idx → EReal) (wq : S1024x1024.Idx → EReal) (b g be : S1024.Idx → EReal)
    (sa : S1x1.Idx → EReal) (r : Fin 16384) (o : Fin 1024) :
    mainOut xs rs wq b g be sa (ix2 r o)
      = outRow (sa (ix2 (0 : Fin 1) (0 : Fin 1))) (fun c => xs (ix2 r c)) wq b g be (fun o' => rs (ix2 r o')) o := rfl

end Cert.KernelIdeal.HandValue

end
-- ==== Proof.KIValue2Ops.lean ====
/-
  The main call's body, read at an index over the extended reals.  The body's arithmetic is cut into four stages
  (quantise the activations; the linear layer with bias and residual; centre each row; scale each row by the
  reciprocal root of its variance), each stage is read at row `p`, column `o` of the 512 x 1024 block, and the
  stages are put together: the block the body stores is, entry by entry, `outRow` of the input blocks' rows.
-/
import proofs.«177588_j61813169324800_1_alg».proof.Proof.KIValue2Spec
import proofs.«177588_j61813169324800_1_alg».proof.Proof.KIRegion2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Idealize.ShloMosaic Idealize.ShloMosaic.ValueIdx

/-! ## Layout operations at an index -/

theorem hz2 : (![0, 0] : Fin 2 → Nat) = fun _ => 0 := funext fun a => by fin_cases a <;> rfl
theorem hz1 : (![0] : Fin 1 → Nat) = fun _ => 0 := funext fun a => by fin_cases a <;> rfl

/-- A 1 x 1 array broadcast over the block reads its one entry everywhere. -/
theorem bcast_scalar_apply {α : Type} (v : S1x1.Idx → α) (h : S1x1.Broadcasts S512x1024) (p : Fin 512) (c : Fin 1024) :
    broadcastTo S512x1024 v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A length-1024 vector laid as one row and broadcast over the block's rows reads, at (p, o), the vector at o. -/
theorem bcast_row_apply {α : Type} (v : S1024.Idx → α) (h1 : S1024.ShapeCasts S1x1024) (h2 : S1x1024.Broadcasts S512x1024)
    (p : Fin 512) (o : Fin 1024) : broadcastTo S512x1024 (shapeCast S1x1024 v h1) h2 (ix2 p o) = v (ix1 o) :=
  (broadcastTo_1b_ab_apply _ h2 p o).trans (shapeCast_a_1a_apply v h1 0 o)

/-- A length-512 vector laid as one column reads, at (p, 0), the vector at p. -/
theorem cast_col_apply {α : Type} (v : S512.Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_two, Shape.rowMajor_val_one]
    show p.val = p.val * 1 + u.val
    rw [hu]; omega)

/-- A 512 x 1 column broadcast over the block's columns reads, at (p, o), the column at p. -/
theorem bcast_col_apply {α : Type} (v : S512x1.Idx → α) (h : S512x1.Broadcasts S512x1024) (p : Fin 512) (o : Fin 1024) :
    broadcastTo S512x1024 v h (ix2 p o) = v (ix2 p (0 : Fin 1)) := by
  refine broadcastTo_apply v h (ix2 p o) (ix2 p (0 : Fin 1)) fun ax => ?_
  match ax with
  | ⟨0, _⟩ => rfl
  | ⟨1, _⟩ => rfl

/-- The sum along the block's columns, at row p, is the sum of the row's 1024 entries. -/
theorem rowsum_apply (v : FVec Ideal S512x1024 .f32) (h : S512x1024.Reduces [1] S512) (hφ : FKind.Formats .f32)
    (hacc : (0x00000000#32 : BitVec 32) = 0x00000000#32) (p : Fin 512) :
    multiReduction .add [1] S512 v 0x00000000#32 h hφ hacc (ix1 p) = ∑ o : Fin 1024, v (ix2 p o) := by
  refine (Ideal.multiReduction_add_single v _ h hφ hacc (ix1 p)).trans ?_
  refine Finset.sum_congr rfl fun o _ => congrArg v ?_
  funext ax; apply Fin.ext
  match ax with
  | ⟨0, _⟩ => rfl
  | ⟨1, _⟩ => rfl

/-- The matrix product into a zero accumulator, at (p, o): row p of the left factor against column o of the right. -/
theorem mm_apply (A : FVec Ideal S512x1024 .bf16) (B : FVec Ideal S1024x1024 .bf16) (p : Fin 512) (o : Fin 1024) :
    matmul dot_S512x1024_S1024x1024_S512x1024_1_0_0_1_n_n none A B (constant S512x1024 .f32 0x00000000#32) (ix2 p o)
      = ∑ c : Fin 1024, A (ix2 p c) * B (ix2 c o) := by
  show FloatOps.matmul dot_S512x1024_S1024x1024_S512x1024_1_0_0_1_n_n none A B (constant S512x1024 .f32 0x00000000#32) (ix2 p o) = _
  rw [Ideal.matmul_constant_zero_apply, ← Equiv.sum_comp (contrEquiv1 dot_S512x1024_S1024x1024_S512x1024_1_0_0_1_n_n 1024 rfl rfl).symm]
  refine Finset.sum_congr rfl fun c _ => ?_
  have c2 := contrEquiv1_symm_val dot_S512x1024_S1024x1024_S512x1024_1_0_0_1_n_n 1024 rfl rfl c
  have l2 : dot_S512x1024_S1024x1024_S512x1024_1_0_0_1_n_n.lhsIdx (ix2 p o) ((contrEquiv1 _ 1024 rfl rfl).symm c) = ix2 p c := by
    funext ax; apply Fin.ext
    match ax with
    | ⟨0, _⟩ => simp [DotDims.lhsIdx, dot_S512x1024_S1024x1024_S512x1024_1_0_0_1_n_n]; rfl
    | ⟨1, _⟩ => simp [DotDims.lhsIdx, dot_S512x1024_S1024x1024_S512x1024_1_0_0_1_n_n]; exact c2
  have r2 : dot_S512x1024_S1024x1024_S512x1024_1_0_0_1_n_n.rhsIdx (ix2 p o) ((contrEquiv1 _ 1024 rfl rfl).symm c) = ix2 c o := by
    funext ax; apply Fin.ext
    match ax with
    | ⟨0, _⟩ => simp [DotDims.rhsIdx, dot_S512x1024_S1024x1024_S512x1024_1_0_0_1_n_n]; exact c2
    | ⟨1, _⟩ => simp [DotDims.rhsIdx, dot_S512x1024_S1024x1024_S512x1024_1_0_0_1_n_n]; rfl
  rw [l2, r2]

/-! ## The body's arithmetic in four stages -/

/-- Stage 1: the activations clipped, scaled, rounded, unscaled, and narrowed (the narrowing changes nothing here). -/
def qVec (v0 : Vec Ideal S512x1024 .f32) (v6 : Vec Ideal S1x1 .f32) : FVec Ideal S512x1024 .bf16 :=
  have v1 : FVec Ideal S512x1024 .f32 := shapeCast S512x1024 v0 shapeCasts_S512x1024_S512x1024
  have cst : Ideal .f32 := Scalar.ofBits .f32 0xC0200000#32
  have cst_1 : Ideal .f32 := Scalar.ofBits .f32 0x40200000#32
  have v2 : FVec Ideal S512x1024 .f32 := broadcast S512x1024 cst
  have v3 : FVec Ideal S512x1024 .f32 := maximumf v2 v1
  have v4 : FVec Ideal S512x1024 .f32 := broadcast S512x1024 cst_1
  have v5 : FVec Ideal S512x1024 .f32 := minimumf v4 v3
  have v7 : FVec Ideal S1x1 .f32 := shapeCast S1x1 v6 shapeCasts_S1x1_S1x1
  have v8 : FVec Ideal S512x1024 .f32 := broadcastTo S512x1024 v7 broadcasts_S1x1_S512x1024
  have v9 : FVec Ideal S512x1024 .f32 := mulf v5 v8
  have v10 : FVec Ideal S512x1024 .f32 := roundeven v9
  have v11 : FVec Ideal S512x1024 .f32 := broadcastTo S512x1024 v7 broadcasts_S1x1_S512x1024
  have v12 : FVec Ideal S512x1024 .f32 := divf v10 v11
  have v13 : FVec Ideal S512x1024 .bf16 := truncf .bf16 v12 bitsLt_bf16_f32
  v13

/-- Stage 2: the quantised block times the weight matrix, plus the bias row, plus the residual block. -/
def yVec (v13 : FVec Ideal S512x1024 .bf16) (v14 : Vec Ideal S1024x1024 .bf16) (v17 : Vec Ideal S1024 .f32)
    (v21 : Vec Ideal S512x1024 .f32) : FVec Ideal S512x1024 .f32 :=
  have v15 : FVec Ideal S1024x1024 .bf16 := shapeCast S1024x1024 v14 shapeCasts_S1024x1024_S1024x1024
  have cst_6 : FVec Ideal S512x1024 .f32 := constant S512x1024 .f32 0x00000000#32
  have v16 : FVec Ideal S512x1024 .f32 := matmul dot_S512x1024_S1024x1024_S512x1024_1_0_0_1_n_n none v13 v15 cst_6
  have v18 : FVec Ideal S1x1024 .f32 := shapeCast S1x1024 v17 shapeCasts_S1024_S1x1024
  have v19 : FVec Ideal S512x1024 .f32 := broadcastTo S512x1024 v18 broadcasts_S1x1024_S512x1024
  have v20 : FVec Ideal S512x1024 .f32 := addf v16 v19
  have v22 : FVec Ideal S512x1024 .f32 := shapeCast S512x1024 v21 shapeCasts_S512x1024_S512x1024
  have v23 : FVec Ideal S512x1024 .f32 := addf v20 v22
  v23

/-- Stage 3: each row minus its mean. -/
def dVec (v23 : FVec Ideal S512x1024 .f32) : FVec Ideal S512x1024 .f32 :=
  have v24 : FVec Ideal S512 .f32 := multiReduction .add [1] S512 v23 0x00000000#32 reduces_S512x1024_S512 (.inl rfl) rfl
  have v25 : FVec Ideal S512x1 .f32 := shapeCast S512x1 v24 shapeCasts_S512_S512x1
  have cst_11 : Ideal .f32 := Scalar.ofBits .f32 0x44800000#32
  have v26 : FVec Ideal S512x1 .f32 := broadcast S512x1 cst_11
  have v27 : FVec Ideal S512x1 .f32 := divf v25 v26
  have v28 : FVec Ideal S512x1024 .f32 := broadcastTo S512x1024 v27 broadcasts_S512x1_S512x1024
  have v29 : FVec Ideal S512x1024 .f32 := subf v23 v28
  v29

/-- Stage 4: each centred row times the reciprocal root of (its mean square plus the small constant). -/
def nVec (v29 : FVec Ideal S512x1024 .f32) : FVec Ideal S512x1024 .f32 :=
  have v30 : FVec Ideal S512x1024 .f32 := mulf v29 v29
  have v31 : FVec Ideal S512 .f32 := multiReduction .add [1] S512 v30 0x00000000#32 reduces_S512x1024_S512 (.inl rfl) rfl
  have v32 : FVec Ideal S512x1 .f32 := shapeCast S512x1 v31 shapeCasts_S512_S512x1
  have cst_13 : Ideal .f32 := Scalar.ofBits .f32 0x44800000#32
  have v33 : FVec Ideal S512x1 .f32 := broadcast S512x1 cst_13
  have v34 : FVec Ideal S512x1 .f32 := divf v32 v33
  have cst_14 : Ideal .f32 := Scalar.ofBits .f32 0x2B8CBCCC#32
  have v35 : FVec Ideal S512x1 .f32 := broadcast S512x1 cst_14
  have v36 : FVec Ideal S512x1 .f32 := addf v34 v35
  have v37 : FVec Ideal S512x1 .f32 := rsqrt v36
  have v38 : FVec Ideal S512x1024 .f32 := broadcastTo S512x1024 v37 broadcasts_S512x1_S512x1024
  have v39 : FVec Ideal S512x1024 .f32 := mulf v29 v38
  v39

/-- The body's first payload is the four stages composed. -/
theorem pay2_eq (v0 : Vec Ideal S512x1024 .f32) (v6 : Vec Ideal S1x1 .f32) (v14 : Vec Ideal S1024x1024 .bf16)
    (v17 : Vec Ideal S1024 .f32) (v21 : Vec Ideal S512x1024 .f32) :
    k2_pay2 (F := Ideal) v0 v6 v14 v17 v21 = nVec (dVec (yVec (qVec v0 v6) v14 v17 v21)) := rfl

/-! ## Each stage at an index -/

theorem qVec_apply (v0 : Vec Ideal S512x1024 .f32) (v6 : Vec Ideal S1x1 .f32) (p : Fin 512) (c : Fin 1024) :
    qVec v0 v6 (ix2 p c) = quantAt (v6 (ix2 (0 : Fin 1) (0 : Fin 1))) (v0 (ix2 p c)) := by
  show Ideal.div (Ideal.liftRound Ideal.roundHalfEven
      (min (Ideal.ofBits .f32 0x40200000#32) (max (Ideal.ofBits .f32 0xC0200000#32)
          (shapeCast S512x1024 v0 shapeCasts_S512x1024_S512x1024 (ix2 p c)))
        * broadcastTo S512x1024 (shapeCast S1x1 v6 shapeCasts_S1x1_S1x1) broadcasts_S1x1_S512x1024 (ix2 p c)))
      (broadcastTo S512x1024 (shapeCast S1x1 v6 shapeCasts_S1x1_S1x1) broadcasts_S1x1_S512x1024 (ix2 p c)) = _
  rw [bcast_scalar_apply]
  simp only [shapeCast_self]
  rfl

theorem yVec_apply (q : FVec Ideal S512x1024 .bf16) (v14 : Vec Ideal S1024x1024 .bf16) (v17 : Vec Ideal S1024 .f32)
    (v21 : Vec Ideal S512x1024 .f32) (p : Fin 512) (o : Fin 1024) :
    yVec q v14 v17 v21 (ix2 p o) = (∑ c : Fin 1024, q (ix2 p c) * v14 (ix2 c o)) + v17 (ix1 o) + v21 (ix2 p o) := by
  show matmul dot_S512x1024_S1024x1024_S512x1024_1_0_0_1_n_n none q (shapeCast S1024x1024 v14 shapeCasts_S1024x1024_S1024x1024)
        (constant S512x1024 .f32 0x00000000#32) (ix2 p o)
      + broadcastTo S512x1024 (shapeCast S1x1024 v17 shapeCasts_S1024_S1x1024) broadcasts_S1x1024_S512x1024 (ix2 p o)
      + shapeCast S512x1024 v21 shapeCasts_S512x1024_S512x1024 (ix2 p o) = _
  rw [mm_apply, bcast_row_apply]
  simp only [shapeCast_self]

theorem dVec_apply (y : FVec Ideal S512x1024 .f32) (p : Fin 512) (o : Fin 1024) :
    dVec y (ix2 p o) = devRow (fun o' => y (ix2 p o')) o := by
  show y (ix2 p o) - broadcastTo S512x1024 (divf (shapeCast S512x1
        (multiReduction .add [1] S512 y 0x00000000#32 reduces_S512x1024_S512 (.inl rfl) rfl) shapeCasts_S512_S512x1)
      (broadcast S512x1 (Scalar.ofBits .f32 0x44800000#32))) broadcasts_S512x1_S512x1024 (ix2 p o) = _
  rw [bcast_col_apply]
  show y (ix2 p o) - Ideal.div (shapeCast S512x1
        (multiReduction .add [1] S512 y 0x00000000#32 reduces_S512x1024_S512 (.inl rfl) rfl) shapeCasts_S512_S512x1 (ix2 p (0 : Fin 1)))
      (Ideal.ofBits .f32 0x44800000#32) = _
  rw [cast_col_apply, rowsum_apply]
  rfl

theorem nVec_apply (d : FVec Ideal S512x1024 .f32) (p : Fin 512) (o : Fin 1024) :
    nVec d (ix2 p o) = d (ix2 p o) * Ideal.rsqrt (Ideal.div (∑ o' : Fin 1024, d (ix2 p o') * d (ix2 p o'))
      (Ideal.ofBits .f32 0x44800000#32) + Ideal.ofBits .f32 0x2B8CBCCC#32) := by
  show d (ix2 p o) * broadcastTo S512x1024 (rsqrt (addf (divf (shapeCast S512x1
        (multiReduction .add [1] S512 (mulf d d) 0x00000000#32 reduces_S512x1024_S512 (.inl rfl) rfl) shapeCasts_S512_S512x1)
      (broadcast S512x1 (Scalar.ofBits .f32 0x44800000#32))) (broadcast S512x1 (Scalar.ofBits .f32 0x2B8CBCCC#32))))
      broadcasts_S512x1_S512x1024 (ix2 p o) = _
  rw [bcast_col_apply]
  show d (ix2 p o) * Ideal.rsqrt (Ideal.div (shapeCast S512x1
        (multiReduction .add [1] S512 (mulf d d) 0x00000000#32 reduces_S512x1024_S512 (.inl rfl) rfl) shapeCasts_S512_S512x1 (ix2 p (0 : Fin 1)))
      (Ideal.ofBits .f32 0x44800000#32) + Ideal.ofBits .f32 0x2B8CBCCC#32) = _
  rw [cast_col_apply, rowsum_apply]
  rfl

/-- The body's second payload at an index: times the second vector, plus the third. -/
theorem pay1_apply (v39 : FVec Ideal S512x1024 .f32) (v40 v44 : Vec Ideal S1024 .f32) (p : Fin 512) (o : Fin 1024) :
    k2_pay1 (F := Ideal) v39 v40 v44 (ix2 p o) = v39 (ix2 p o) * v40 (ix1 o) + v44 (ix1 o) := by
  show v39 (ix2 p o) * broadcastTo S512x1024 (shapeCast S1x1024 v40 shapeCasts_S1024_S1x1024) broadcasts_S1x1024_S512x1024 (ix2 p o)
      + broadcastTo S512x1024 (shapeCast S1x1024 v44 shapeCasts_S1024_S1x1024) broadcasts_S1x1024_S512x1024 (ix2 p o) = _
  rw [bcast_row_apply, bcast_row_apply]

/-! ## The stages put together -/

/-- The body's first payload at (p, o): the normalised linear row of the blocks' rows p. -/
theorem pay2_apply (v0 : Vec Ideal S512x1024 .f32) (v6 : Vec Ideal S1x1 .f32) (v14 : Vec Ideal S1024x1024 .bf16)
    (v17 : Vec Ideal S1024 .f32) (v21 : Vec Ideal S512x1024 .f32) (p : Fin 512) (o : Fin 1024) :
    k2_pay2 (F := Ideal) v0 v6 v14 v17 v21 (ix2 p o)
      = normRow (linRow (v6 (ix2 (0 : Fin 1) (0 : Fin 1))) (fun c => v0 (ix2 p c)) v14 v17 (fun o' => v21 (ix2 p o'))) o := by
  have hy : (fun o' : Fin 1024 => yVec (qVec v0 v6) v14 v17 v21 (ix2 p o'))
      = linRow (v6 (ix2 (0 : Fin 1) (0 : Fin 1))) (fun c => v0 (ix2 p c)) v14 v17 (fun o' => v21 (ix2 p o')) := by
    funext o'
    rw [yVec_apply]
    simp only [qVec_apply]
    rfl
  rw [pay2_eq, nVec_apply]
  simp only [dVec_apply, hy]
  rfl

/-- What the body stores, at (p, o): `outRow` of row p of the activation and residual blocks, the whole weight matrix,
    the three vectors and the scale. -/
theorem out2_7_apply (x0 x1 : Vec Ideal S512x1024 .f32) (x2 : Vec Ideal S1024x1024 .bf16) (x3 x4 x5 : Vec Ideal S1024 .f32)
    (x6 : Vec Ideal S1x1 .f32) (p : Fin 512) (o : Fin 1024) :
    Hand.out2_7 (F := Ideal) x0 x1 x2 x3 x4 x5 x6 (ix2 p o)
      = outRow (x6 (ix2 (0 : Fin 1) (0 : Fin 1))) (fun c => x0 (ix2 p c)) x2 x3 x4 x5 (fun o' => x1 (ix2 p o')) o := by
  unfold Hand.out2_7
  rw [View.canon_unit_zero hz2]
  simp only [View.ld_unit_zero (S := S512x1024) hz2, View.ld_unit_zero (S := S1024x1024) hz2,
    View.ld_unit_zero (S := S1x1) hz2, View.ld_unit_zero (S := S1024) hz1]
  rw [pay1_apply, pay2_apply]
  rfl

end Cert.KernelIdeal.HandValue

end
-- ==== Proof.KIValue2.lean ====
/-
  From blocks to the array.  The main call's output window is cut into 32 row blocks of 512 rows; grid point `t`
  writes block `t`.  At point `t` windows 0 and 1 hold rows 512 t .. 512 t + 511 of their arrays and windows 2..6
  hold their whole arrays, so what point `t` writes back is rows 512 t .. 512 t + 511 of `mainOut` of the seven
  arrays.  Row `r` lies in the block of point `r / 512`; the 32 blocks cover the array, which therefore ends
  holding `mainOut`.
-/
import proofs.«177588_j61813169324800_1_alg».proof.Proof.KIValue2Ops
import Idealize.ShloMosaic.Lib.Pipeline.Value

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

/-! ## The index maps, decided over the 32 grid points -/

/-- Where each window's block sits at grid point `t`: windows 0, 1 and 7 at row block `t`, column block 0; windows
    2..6 at block 0 on every axis. -/
structure IdxFacts (t : Fin cfg2.N) : Prop where
  w0_0 : win2_0.index t (0 : Fin 2) = t.val
  w0_1 : win2_0.index t (1 : Fin 2) = 0
  w1_0 : win2_1.index t (0 : Fin 2) = t.val
  w1_1 : win2_1.index t (1 : Fin 2) = 0
  w2_0 : win2_2.index t (0 : Fin 2) = 0
  w2_1 : win2_2.index t (1 : Fin 2) = 0
  w3_0 : win2_3.index t (0 : Fin 1) = 0
  w4_0 : win2_4.index t (0 : Fin 1) = 0
  w5_0 : win2_5.index t (0 : Fin 1) = 0
  w6_0 : win2_6.index t (0 : Fin 2) = 0
  w6_1 : win2_6.index t (1 : Fin 2) = 0
  w7_0 : win2_7.index t (0 : Fin 2) = t.val
  w7_1 : win2_7.index t (1 : Fin 2) = 0

theorem idx_facts_raw : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0 ∧ win2_4.index t (0 : Fin 1) = 0 ∧ win2_5.index t (0 : Fin 1) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem idx_facts (t : Fin cfg2.N) : IdxFacts t := by
  obtain ⟨a, b, c, d, e, f, g, h, i, j, k, l, m⟩ := idx_facts_raw t
  exact ⟨a, b, c, d, e, f, g, h, i, j, k, l, m⟩

variable (V : (c : Dev nD) → (b : Ref sig .tc) → Buf (Elt Ideal) ((c : Thread nD τ).loc b))

/-! ## Each input block, read off its array -/

theorem iblk2_0_apply (c : Dev nD) (t : Fin cfg2.N) (y : S512x1024.Idx) (k : S16384x1024.Idx)
    (hk0 : (k 0).val = 512 * t.val + (y 0).val) (hk1 : (k 1).val = (y 1).val) :
    (Hand.iblk2 V c 0 t : S512x1024.Idx → EReal) y = (V c main_v0 : S16384x1024.Idx → EReal) k := by
  have e := idx_facts t
  unfold Hand.iblk2
  rw [View.read_apply]
  show V c main_v0 _ = V c main_v0 k
  congr 1
  funext a; apply Fin.ext
  match a with
  | ⟨0, _⟩ => show win2_0.index t (0 : Fin 2) * 512 + 1 * (y 0).val = (k 0).val; rw [e.w0_0, hk0]; omega
  | ⟨1, _⟩ => show win2_0.index t (1 : Fin 2) * 1024 + 1 * (y 1).val = (k 1).val; rw [e.w0_1, hk1]; omega

theorem iblk2_1_apply (c : Dev nD) (t : Fin cfg2.N) (y : S512x1024.Idx) (k : S16384x1024.Idx)
    (hk0 : (k 0).val = 512 * t.val + (y 0).val) (hk1 : (k 1).val = (y 1).val) :
    (Hand.iblk2 V c 1 t : S512x1024.Idx → EReal) y = (V c main_v1 : S16384x1024.Idx → EReal) k := by
  have e := idx_facts t
  unfold Hand.iblk2
  rw [View.read_apply]
  show V c main_v1 _ = V c main_v1 k
  congr 1
  funext a; apply Fin.ext
  match a with
  | ⟨0, _⟩ => show win2_1.index t (0 : Fin 2) * 512 + 1 * (y 0).val = (k 0).val; rw [e.w1_0, hk0]; omega
  | ⟨1, _⟩ => show win2_1.index t (1 : Fin 2) * 1024 + 1 * (y 1).val = (k 1).val; rw [e.w1_1, hk1]; omega

theorem iblk2_2_eq (c : Dev nD) (t : Fin cfg2.N) :
    (Hand.iblk2 V c 2 t : S1024x1024.Idx → EReal) = (V c main_v5 : S1024x1024.Idx → EReal) := by
  have e := idx_facts t
  funext y
  unfold Hand.iblk2
  rw [View.read_apply]
  show V c main_v5 _ = V c main_v5 y
  congr 1
  funext a; apply Fin.ext
  match a with
  | ⟨0, _⟩ => show win2_2.index t (0 : Fin 2) * 1024 + 1 * (y 0).val = (y 0).val; rw [e.w2_0]; omega
  | ⟨1, _⟩ => show win2_2.index t (1 : Fin 2) * 1024 + 1 * (y 1).val = (y 1).val; rw [e.w2_1]; omega

theorem iblk2_3_eq (c : Dev nD) (t : Fin cfg2.N) :
    (Hand.iblk2 V c 3 t : S1024.Idx → EReal) = (V c main_arg3 : S1024.Idx → EReal) := by
  have e := idx_facts t
  funext y
  unfold Hand.iblk2
  rw [View.read_apply]
  show V c main_arg3 _ = V c main_arg3 y
  congr 1
  funext a; apply Fin.ext
  match a with
  | ⟨0, _⟩ => show win2_3.index t (0 : Fin 1) * 1024 + 1 * (y 0).val = (y 0).val; rw [e.w3_0]; omega

theorem iblk2_4_eq (c : Dev nD) (t : Fin cfg2.N) :
    (Hand.iblk2 V c 4 t : S1024.Idx → EReal) = (V c main_arg4 : S1024.Idx → EReal) := by
  have e := idx_facts t
  funext y
  unfold Hand.iblk2
  rw [View.read_apply]
  show V c main_arg4 _ = V c main_arg4 y
  congr 1
  funext a; apply Fin.ext
  match a with
  | ⟨0, _⟩ => show win2_4.index t (0 : Fin 1) * 1024 + 1 * (y 0).val = (y 0).val; rw [e.w4_0]; omega

theorem iblk2_5_eq (c : Dev nD) (t : Fin cfg2.N) :
    (Hand.iblk2 V c 5 t : S1024.Idx → EReal) = (V c main_arg5 : S1024.Idx → EReal) := by
  have e := idx_facts t
  funext y
  unfold Hand.iblk2
  rw [View.read_apply]
  show V c main_arg5 _ = V c main_arg5 y
  congr 1
  funext a; apply Fin.ext
  match a with
  | ⟨0, _⟩ => show win2_5.index t (0 : Fin 1) * 1024 + 1 * (y 0).val = (y 0).val; rw [e.w5_0]; omega

theorem iblk2_6_eq (c : Dev nD) (t : Fin cfg2.N) :
    (Hand.iblk2 V c 6 t : S1x1.Idx → EReal) = (V c main_v4 : S1x1.Idx → EReal) := by
  have e := idx_facts t
  funext y
  unfold Hand.iblk2
  rw [View.read_apply]
  show V c main_v4 _ = V c main_v4 y
  congr 1
  funext a; apply Fin.ext
  match a with
  | ⟨0, _⟩ => show win2_6.index t (0 : Fin 2) * 1 + 1 * (y 0).val = (y 0).val; rw [e.w6_0]; omega
  | ⟨1, _⟩ => show win2_6.index t (1 : Fin 2) * 1 + 1 * (y 1).val = (y 1).val; rw [e.w6_1]; omega

/-! ## One block of the result -/

/-- If the two row blocks `x0`, `x1` are rows 512 T .. 512 T + 511 of `xs`, `rs`, then what the body stores at block index
    `j` is `mainOut` at the array index `k` that sits 512 T rows further down. -/
theorem block_eq (xs rs : S16384x1024.Idx → EReal) (wq : S1024x1024.Idx → EReal) (b g be : S1024.Idx → EReal)
    (sa : S1x1.Idx → EReal) (T : Nat) (x0 x1 : S512x1024.Idx → EReal) (x2 : S1024x1024.Idx → EReal)
    (x3 x4 x5 : S1024.Idx → EReal) (x6 : S1x1.Idx → EReal)
    (h0 : ∀ (y : S512x1024.Idx) (k : S16384x1024.Idx), (k 0).val = 512 * T + (y 0).val → (k 1).val = (y 1).val → x0 y = xs k)
    (h1 : ∀ (y : S512x1024.Idx) (k : S16384x1024.Idx), (k 0).val = 512 * T + (y 0).val → (k 1).val = (y 1).val → x1 y = rs k)
    (h2 : x2 = wq) (h3 : x3 = b) (h4 : x4 = g) (h5 : x5 = be) (h6 : x6 = sa)
    (j : S512x1024.Idx) (k : S16384x1024.Idx) (hk0 : (k 0).val = 512 * T + (j 0).val) (hk1 : (k 1).val = (j 1).val) :
    Hand.out2_7 (F := Ideal) x0 x1 x2 x3 x4 x5 x6 j = mainOut xs rs wq b g be sa k := by
  subst h2 h3 h4 h5 h6
  obtain ⟨p, o, rfl⟩ : ∃ (p : Fin 512) (o : Fin 1024), j = ix2 p o := ⟨j 0, j 1, eq_ix2 j⟩
  obtain ⟨r, o', rfl⟩ : ∃ (r : Fin 16384) (o' : Fin 1024), k = ix2 r o' := ⟨k 0, k 1, eq_ix2 k⟩
  obtain rfl : o' = o := Fin.ext hk1
  rw [out2_7_apply, mainOut_apply]
  have hx : (fun c : Fin 1024 => x0 (ix2 p c)) = fun c => xs (ix2 r c) := funext fun c => h0 (ix2 p c) (ix2 r c) hk0 rfl
  have hr : (fun c : Fin 1024 => x1 (ix2 p c)) = fun c => rs (ix2 r c) := funext fun c => h1 (ix2 p c) (ix2 r c) hk0 rfl
  rw [hx, hr]

/-! ## What a point writes back, the cover, the array -/

/-- Grid point `t` writes back block `t` of `mainOut` of the seven arrays as the region finds them. -/
theorem flushed_eq (c : Dev nD) (t : Fin cfg2.N) :
    (Hand.dat2 (F := Ideal) V c).flushed 7 t = ((cfg2.win 7).blk t).view.read (Elt Ideal)
      (mainOut (V c main_v0) (V c main_v1) (V c main_v5) (V c main_arg3) (V c main_arg4) (V c main_arg5) (V c main_v4)) := by
  show (cfg2.win 7).cut (grid2.coords t) ((Hand.dat2 (F := Ideal) V c).after 7 t) = _
  rw [Hand.after2_7]
  have e := idx_facts t
  funext j
  show Hand.out2_7 (F := Ideal) (Hand.iblk2 V c 0 t) (Hand.iblk2 V c 1 t) (Hand.iblk2 V c 2 t) (Hand.iblk2 V c 3 t)
      (Hand.iblk2 V c 4 t) (Hand.iblk2 V c 5 t) (Hand.iblk2 V c 6 t) j
    = mainOut (V c main_v0) (V c main_v1) (V c main_v5) (V c main_arg3) (V c main_arg4) (V c main_arg5) (V c main_v4) (((cfg2.win 7).blk t).view.emb j)
  refine block_eq (V c main_v0) (V c main_v1) (V c main_v5) (V c main_arg3) (V c main_arg4) (V c main_arg5) (V c main_v4) t.val
    (Hand.iblk2 V c 0 t) (Hand.iblk2 V c 1 t) (Hand.iblk2 V c 2 t) (Hand.iblk2 V c 3 t)
    (Hand.iblk2 V c 4 t) (Hand.iblk2 V c 5 t) (Hand.iblk2 V c 6 t)
    (fun y k => iblk2_0_apply V c t y k) (fun y k => iblk2_1_apply V c t y k)
    (iblk2_2_eq V c t) (iblk2_3_eq V c t) (iblk2_4_eq V c t) (iblk2_5_eq V c t) (iblk2_6_eq V c t)
    j (((cfg2.win 7).blk t).view.emb j) ?_ ?_
  · show win2_7.index t (0 : Fin 2) * 512 + 1 * (j 0).val = 512 * t.val + (j 0).val
    rw [e.w7_0]; omega
  · show win2_7.index t (1 : Fin 2) * 1024 + 1 * (j 1).val = (j 1).val
    rw [e.w7_1]; omega

/-- Every index of the output array lies in the block of the point its row falls in. -/
theorem covered (i : S16384x1024.Idx) :
    ∃ t : Fin cfg2.N, (cfg2.win 7).flush t = true ∧ i ∈ ((cfg2.win 7).blk t).view.set := by
  have hi0 : (i 0).val < 16384 := (i 0).isLt
  have hi1 : (i 1).val < 1024 := (i 1).isLt
  have hN : cfg2.N = 32 := N_2
  obtain ⟨t, ht⟩ : ∃ t : Fin cfg2.N, t.val = (i 0).val / 512 := ⟨⟨(i 0).val / 512, by rw [hN]; omega⟩, rfl⟩
  have e := idx_facts t
  refine ⟨t, flush2_7 t, ?_⟩
  show i ∈ ((View.whole main_v6).slice (win2_7.rect t)).set
  rw [View.set_slice_whole, Rect.mem_set_unit]
  intro a
  match a with
  | ⟨0, _⟩ =>
    show win2_7.index t (0 : Fin 2) * 512 ≤ (i 0).val ∧ (i 0).val < win2_7.index t (0 : Fin 2) * 512 + 512
    rw [e.w7_0, ht]; omega
  | ⟨1, _⟩ =>
    show win2_7.index t (1 : Fin 2) * 1024 ≤ (i 1).val ∧ (i 1).val < win2_7.index t (1 : Fin 2) * 1024 + 1024
    rw [e.w7_1]; omega

/-- After the main call its output array holds `mainOut` of the seven arrays the call was entered with. -/
theorem final2 (c : Dev nD) :
    (Hand.dat2 (F := Ideal) V c).arrAt 7 cfg2.N = mainOut (V c main_v0) (V c main_v1) (V c main_v5) (V c main_arg3) (V c main_arg4) (V c main_arg5) (V c main_v4) :=
  (Hand.dat2 (F := Ideal) V c).arrAt_eq_of_cover 7 (mainOut (V c main_v0) (V c main_v1) (V c main_v5) (V c main_arg3) (V c main_arg4) (V c main_arg5) (V c main_v4))
    (fun t _ => flushed_eq V c t) (fun i => covered i)

end Cert.KernelIdeal.HandValue

end
-- ==== Proof.KIResult.lean ====
/-
  The program's result at the ideal instance is the specification's function of the six arguments.

  Entry (p, q, o) of the result is entry (2048 p + q, o) of the main region's rows. That row's quantised activations
  are the entries (p, q, ·) of x quantised at the scale 127 / max|clip x| (the first region and the host division);
  the matrix it is multiplied with is the transposed quantised weight (the weight region), so the contraction pairs
  x's entry (p, q, c) with w's entry (o, c); bias, residual, gamma and beta are the arguments as launched. What is
  left, the normalisation of the row, is spelt on both sides with the same operations in the same order.
-/
import proofs.«177588_j61813169324800_1_alg».proof.Proof.KIValue0Max
import proofs.«177588_j61813169324800_1_alg».proof.Proof.KIValue1
import proofs.«177588_j61813169324800_1_alg».proof.Proof.KIValue2
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

open Cert.Spec

/-- Entry (a, b, o) of the rows cast back to [8, 2048, 1024] is entry (2048 a + b, o) of the rows. -/
theorem back_apply (y : S16384x1024.Idx → EReal) (a : Fin 8) (b : Fin 2048) (o : Fin 1024) (r : Fin 16384)
    (hr : r.val = 2048 * a.val + b.val) :
    shapeCast S8x2048x1024 y shapeCasts_S16384x1024_S8x2048x1024 (ix3 a b o) = y (ix2 r o) :=
  shapeCast_apply y _ _ _ (by
    rw [Shape.rowMajor_val_three, Shape.rowMajor_val_two]
    show r.val * 1024 + o.val = (a.val * 2048 + b.val) * 1024 + o.val
    rw [hr]; ring)

/-- The quantisation of one entry at a scale, in the two spellings. -/
theorem quantAt_eq (s t : EReal) : quantAt s t = quant s t := rfl

/-- The row the main region normalises is the specification's linear layer at (p, q). -/
theorem linRow_eq (x res : X3 → EReal) (w : W2 → EReal) (b : V1 → EReal) (p : Fin 8) (q : Fin 2048) :
    linRow (scale (absMax x)) (fun c => x (ix3 p q c)) (fun i => qarr w (ix2 (i 1) (i 0))) b (fun o' => res (ix3 p q o'))
      = fun o => lin x res w b p q o := by
  funext o
  unfold linRow lin
  rfl

/-- The normalised row, in the two spellings. -/
theorem outRow_eq (x res : X3 → EReal) (w : W2 → EReal) (b g be : V1 → EReal) (p : Fin 8) (q : Fin 2048) (o : Fin 1024) :
    outRow (scale (absMax x)) (fun c => x (ix3 p q c)) (fun i => qarr w (ix2 (i 1) (i 0))) b g be (fun o' => res (ix3 p q o')) o
      = outAt x res w b g be p q o := by
  unfold outRow
  rw [linRow_eq]
  rfl

/-- THE KERNEL'S RESULT is the specification of the arguments. -/
theorem kernel_result (c : Dev nD) :
    B6 m ρ c (Proc.devRef .tc main_v7)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨p, q, o, rfl⟩ : ∃ (p : Fin 8) (q : Fin 2048) (o : Fin 1024), i = ix3 p q o := ⟨i 0, i 1, i 2, eq_ix3 i⟩
  have hp := p.isLt; have hq := q.isLt
  rw [result_rows]
  show shapeCast S8x2048x1024 (B5 m ρ c (Proc.devRef .tc main_v6)) shapeCasts_S16384x1024_S8x2048x1024 (ix3 p q o) = _
  rw [back_apply _ p q o ⟨2048 * p.val + q.val, by omega⟩ rfl, B5_rows, final2 (E2 m ρ) c, mainOut_apply, scale_is,
    E2_wq, final1 (E1 m ρ) c, E1_weight,
    E2_arg m ρ c main_arg3 (by decide) (by decide) (by decide) (by decide),
    E2_arg m ρ c main_arg4 (by decide) (by decide) (by decide) (by decide),
    E2_arg m ρ c main_arg5 (by decide) (by decide) (by decide) (by decide)]
  have hx : (fun cc : Fin 1024 => E2 m ρ c main_v0 (ix2 (⟨2048 * p.val + q.val, by omega⟩ : Fin 16384) cc))
      = fun cc => m ((c : Thread nD τ).loc main_arg0) (ix3 p q cc) := by
    funext cc
    rw [E2_rows_x, rows_x]
    exact rows_apply _ p q cc _ rfl
  have hr : (fun o' : Fin 1024 => E2 m ρ c main_v1 (ix2 (⟨2048 * p.val + q.val, by omega⟩ : Fin 16384) o'))
      = fun o' => m ((c : Thread nD τ).loc main_arg1) (ix3 p q o') := by
    funext o'
    rw [E2_rows_res, rows_res]
    exact rows_apply _ p q o' _ rfl
  rw [hx, hr, out_ix3]
  exact outRow_eq _ _ _ _ _ _ p q o

end Cert.KernelIdeal.HandValue

end
-- ==== Proof.RefRead.lean ====
/-
  The reference's result, read index by index, is the specification's function of the six argument arrays.

  Stage by stage, in the reference's own order. For each of the two quantized arrays (the weight, then the input):
  the clamp; its absolute value; the maximum of those over the whole array, a reduction by `max` from `-∞`, which
  is the supremum over every index; the scale 127 over that supremum; and the quantized entry, which the reference
  writes in its straight-through form `c + (q - c)` at the clamped value `c` — equal to `q` because `c` is a real
  number. Then the contraction over the input feature with bias and residual, the row mean, the deviation, the
  variance, and the normalization, where the reference divides by `sqrt (var + eps)` and the specification multiplies
  by `rsqrt (var + eps)`: equal because `var + eps` is positive whatever the inputs.
-/
import proofs.«177588_j61813169324800_1_alg».proof.Defs
import proofs.«177588_j61813169324800_1_alg».proof.Proof.Gen.ReferenceIdeal.Read
import proofs.«177588_j61813169324800_1_alg».proof.Proof.Gen.Pre_finite_inputs
import proofs.«177588_j61813169324800_1_alg».proof.Proof.Spec
import proofs.«177588_j61813169324800_1_alg».proof.Proof.SpecLaws

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Read

/-- A fold of the maximum from `⊥` over a finite set is the supremum over the set. -/
theorem fold_maximumf_eq_sup {ι : Type} (s : Finset ι) (f : ι → EReal) :
    s.fold (FloatOps.maximumf (F := Ideal) (φ := .f32)) ⊥ f = s.sup f := by
  classical
  induction s using Finset.induction_on with
  | empty => rw [Finset.fold_empty, Finset.sup_empty]
  | insert a s ha ih => rw [Finset.fold_insert ha, Finset.sup_insert, ih, Ideal.maximumf_def]

/-! ### The weight, quantized -/

theorem clip_w (x2 : FVec Ideal S1024x1024 .f32) (i : S1024x1024.Idx) :
    val_main_v0 (F := Ideal) x2 i = Cert.Spec.clipv (x2 i) := by
  rw [val_main_v0_apply, val_main_call0_v4_apply, val_main_call0_v3_apply, val_main_cst_0_apply,
    val_main_call0_v2_apply, val_main_call0_v1_apply, val_main_call0_v0_apply, val_main_cst_apply]
  simp only [Cert.Spec.clipv, Ideal.minimumf_def, Ideal.maximumf_def, Ideal.ofBits_def]

theorem abs_w (x2 : FVec Ideal S1024x1024 .f32) (i : S1024x1024.Idx) :
    val_main_v1 (F := Ideal) x2 i = Cert.Spec.absv (Cert.Spec.clipv (x2 i)) := by
  rw [val_main_v1_apply, clip_w]
  simp only [Cert.Spec.absv, Ideal.hostAbsf_def, Ideal.absf_def]

/-- The reduction by maximum from `-∞` over both axes is the supremum over every index: every index reduces to the
    one result index. -/
theorem absmax_w (x2 : FVec Ideal S1024x1024 .f32) (j : S_.Idx) :
    val_main_v2 (F := Ideal) x2 j = Cert.Spec.absMax x2 := by
  unfold val_main_v2 Cert.Spec.absMax
  rw [Host.reduce_eq_fold, Finset.filter_true_of_mem (fun i _ => funext fun a => a.elim0),
    show val_main_v1 (F := Ideal) x2 = fun i => Cert.Spec.absv (Cert.Spec.clipv (x2 i)) from funext (abs_w x2),
    val_main_cst_1_apply, Ideal.ofBits_def, Cert.Spec.lit_neg_inf, fold_maximumf_eq_sup]

theorem scale_w (x2 : FVec Ideal S1024x1024 .f32) (j : S_.Idx) :
    val_main_v3 (F := Ideal) x2 j = Cert.Spec.scale (Cert.Spec.absMax x2) := by
  rw [val_main_v3_apply, val_main_cst_2_apply, absmax_w]
  simp only [Cert.Spec.scale, Ideal.hostDivf_def, Ideal.ofBits_def]

/-- The straight-through form of the quantized weight is the quantized weight. -/
theorem q_w (x2 : FVec Ideal S1024x1024 .f32) (i : S1024x1024.Idx) :
    val_main_v10 (F := Ideal) x2 i = Cert.Spec.qarr x2 i := by
  rw [val_main_v10_apply, val_main_v9_apply, val_main_v8_apply, val_main_v7_apply, val_main_v6_apply,
    val_main_v5_apply, val_main_v4_apply, scale_w, clip_w]
  simp only [Ideal.addf_def, Ideal.subf_def, Ideal.mulf_def, Ideal.hostDivf_def, Ideal.hostUnary_roundeven_def,
    Cert.Spec.ste_clipv, Cert.Spec.qarr, Cert.Spec.quant, Cert.Spec.rnd]

/-! ### The input, quantized -/

theorem clip_x (x0 : FVec Ideal S8x2048x1024 .f32) (i : S8x2048x1024.Idx) :
    val_main_v11 (F := Ideal) x0 i = Cert.Spec.clipv (x0 i) := by
  rw [val_main_v11_apply, val_main_call2_v4_apply, val_main_call2_v3_apply, val_main_cst_4_apply,
    val_main_call2_v2_apply, val_main_call2_v1_apply, val_main_call2_v0_apply, val_main_cst_3_apply]
  simp only [Cert.Spec.clipv, Ideal.minimumf_def, Ideal.maximumf_def, Ideal.ofBits_def]

theorem abs_x (x0 : FVec Ideal S8x2048x1024 .f32) (i : S8x2048x1024.Idx) :
    val_main_v12 (F := Ideal) x0 i = Cert.Spec.absv (Cert.Spec.clipv (x0 i)) := by
  rw [val_main_v12_apply, clip_x]
  simp only [Cert.Spec.absv, Ideal.hostAbsf_def, Ideal.absf_def]

/-- The reduction by maximum from `-∞` over all three axes is the supremum over every index. -/
theorem absmax_x (x0 : FVec Ideal S8x2048x1024 .f32) (j : S_.Idx) :
    val_main_v13 (F := Ideal) x0 j = Cert.Spec.absMax x0 := by
  unfold val_main_v13 Cert.Spec.absMax
  rw [Host.reduce_eq_fold, Finset.filter_true_of_mem (fun i _ => funext fun a => a.elim0),
    show val_main_v12 (F := Ideal) x0 = fun i => Cert.Spec.absv (Cert.Spec.clipv (x0 i)) from funext (abs_x x0),
    val_main_cst_5_apply, Ideal.ofBits_def, Cert.Spec.lit_neg_inf, fold_maximumf_eq_sup]

theorem scale_x (x0 : FVec Ideal S8x2048x1024 .f32) (j : S_.Idx) :
    val_main_v14 (F := Ideal) x0 j = Cert.Spec.scale (Cert.Spec.absMax x0) := by
  rw [val_main_v14_apply, val_main_cst_6_apply, absmax_x]
  simp only [Cert.Spec.scale, Ideal.hostDivf_def, Ideal.ofBits_def]

/-- The straight-through form of the quantized input is the quantized input. -/
theorem q_x (x0 : FVec Ideal S8x2048x1024 .f32) (i : S8x2048x1024.Idx) :
    val_main_v21 (F := Ideal) x0 i = Cert.Spec.qarr x0 i := by
  rw [val_main_v21_apply, val_main_v20_apply, val_main_v19_apply, val_main_v18_apply, val_main_v17_apply,
    val_main_v16_apply, val_main_v15_apply, scale_x, clip_x]
  simp only [Ideal.addf_def, Ideal.subf_def, Ideal.mulf_def, Ideal.hostDivf_def, Ideal.hostUnary_roundeven_def,
    Cert.Spec.ste_clipv, Cert.Spec.qarr, Cert.Spec.quant, Cert.Spec.rnd]

/-! ### The dense layer with bias and residual -/

/-- Row `(p, q)`, output feature `o`: the contraction runs over the input feature `c`, the input read at `(p, q, c)`
    and the weight at `(o, c)`; the bias is read at `o` and the residual at `(p, q, o)`. -/
theorem lin_ref (x0 x1 : FVec Ideal S8x2048x1024 .f32) (x2 : FVec Ideal S1024x1024 .f32) (x3 : FVec Ideal S1024 .f32)
    (p : Fin 8) (q : Fin 2048) (o : Fin 1024) :
    val_main_v26 (F := Ideal) x0 x1 x2 x3 (ix3 p q o) = Cert.Spec.lin x0 x1 x2 x3 p q o := by
  have hl : ∀ k : Fin 1024, lidx_main_v22 (ix3 p q o) k = ix3 p q k := fun k => funext fun a => Fin.ext (by match a with | ⟨0, _⟩ => rfl | ⟨1, _⟩ => rfl | ⟨2, _⟩ => rfl)
  have hr : ∀ k : Fin 1024, ridx_main_v22 (ix3 p q o) k = ix2 o k := fun k => funext fun a => Fin.ext (by match a with | ⟨0, _⟩ => rfl | ⟨1, _⟩ => rfl)
  have hb : idx_main_v23 (idx_main_v24 (ix3 p q o)) = ix1 o := funext fun a => Fin.ext (by match a with | ⟨0, _⟩ => rfl)
  have hs : (∑ k : Fin 1024, val_main_v21 (F := Ideal) x0 (lidx_main_v22 (ix3 p q o) k)
        * val_main_v10 (F := Ideal) x2 (ridx_main_v22 (ix3 p q o) k))
      = ∑ c : Fin 1024, Cert.Spec.qarr x0 (ix3 p q c) * Cert.Spec.qarr x2 (ix2 o c) :=
    Finset.sum_congr rfl fun k _ => by rw [hl, hr, q_x, q_w]
  rw [val_main_v26_apply, val_main_v25_apply, val_main_v24_apply, val_main_v23_apply, hb, val_main_v22_apply, hs]
  simp only [Ideal.addf_def, Cert.Spec.lin]

/-! ### The row mean, the deviation, the variance -/

theorem mean_ref (x0 x1 : FVec Ideal S8x2048x1024 .f32) (x2 : FVec Ideal S1024x1024 .f32) (x3 : FVec Ideal S1024 .f32)
    (p : Fin 8) (q : Fin 2048) (z : Fin 1) :
    val_main_v30 (F := Ideal) x0 x1 x2 x3 (ix3 p q z) = Cert.Spec.mean x0 x1 x2 x3 p q := by
  have h1 : idx_main_v28 (ix3 p q z) = ix2 p q := funext fun a => Fin.ext (by match a with | ⟨0, _⟩ => rfl | ⟨1, _⟩ => rfl)
  have hs : (∑ k : Fin 1024, val_main_v26 (F := Ideal) x0 x1 x2 x3 (idx_main_v27 (ix2 p q) k))
      = ∑ o : Fin 1024, Cert.Spec.lin x0 x1 x2 x3 p q o :=
    Finset.sum_congr rfl fun k _ => by
      rw [show idx_main_v27 (ix2 p q) k = ix3 p q k from funext fun a => Fin.ext (by match a with | ⟨0, _⟩ => rfl | ⟨1, _⟩ => rfl | ⟨2, _⟩ => rfl), lin_ref]
  rw [val_main_v30_apply, val_main_v29_apply, val_main_cst_8_apply, val_main_v28_apply, h1, val_main_v27_apply,
    val_main_cst_7_apply, hs]
  simp only [Ideal.hostDivf_def, Ideal.ofBits_def, Ideal.ofBits_zero_f32, zero_add, Cert.Spec.mean]

/-- The deviation, as the reference computes it for the variance. -/
theorem dev_ref (x0 x1 : FVec Ideal S8x2048x1024 .f32) (x2 : FVec Ideal S1024x1024 .f32) (x3 : FVec Ideal S1024 .f32)
    (p : Fin 8) (q : Fin 2048) (o : Fin 1024) :
    val_main_v32 (F := Ideal) x0 x1 x2 x3 (ix3 p q o) = Cert.Spec.dev x0 x1 x2 x3 p q o := by
  have h : idx_main_v31 (ix3 p q o) = ix3 p q (0 : Fin 1) := funext fun a => Fin.ext (by match a with | ⟨0, _⟩ => rfl | ⟨1, _⟩ => rfl | ⟨2, _⟩ => rfl)
  rw [val_main_v32_apply, val_main_v31_apply, h, mean_ref, lin_ref]
  simp only [Ideal.subf_def, Cert.Spec.dev]

/-- The deviation, as the reference computes it again for the normalization. -/
theorem dev_ref' (x0 x1 : FVec Ideal S8x2048x1024 .f32) (x2 : FVec Ideal S1024x1024 .f32) (x3 : FVec Ideal S1024 .f32)
    (p : Fin 8) (q : Fin 2048) (o : Fin 1024) :
    val_main_v39 (F := Ideal) x0 x1 x2 x3 (ix3 p q o) = Cert.Spec.dev x0 x1 x2 x3 p q o := by
  have h : idx_main_v38 (ix3 p q o) = ix3 p q (0 : Fin 1) := funext fun a => Fin.ext (by match a with | ⟨0, _⟩ => rfl | ⟨1, _⟩ => rfl | ⟨2, _⟩ => rfl)
  rw [val_main_v39_apply, val_main_v38_apply, h, mean_ref, lin_ref]
  simp only [Ideal.subf_def, Cert.Spec.dev]

theorem var_ref (x0 x1 : FVec Ideal S8x2048x1024 .f32) (x2 : FVec Ideal S1024x1024 .f32) (x3 : FVec Ideal S1024 .f32)
    (p : Fin 8) (q : Fin 2048) (z : Fin 1) :
    val_main_v37 (F := Ideal) x0 x1 x2 x3 (ix3 p q z) = Cert.Spec.var x0 x1 x2 x3 p q := by
  have h1 : idx_main_v35 (ix3 p q z) = ix2 p q := funext fun a => Fin.ext (by match a with | ⟨0, _⟩ => rfl | ⟨1, _⟩ => rfl)
  have hs : (∑ k : Fin 1024, val_main_v33 (F := Ideal) x0 x1 x2 x3 (idx_main_v34 (ix2 p q) k))
      = ∑ o : Fin 1024, Cert.Spec.dev x0 x1 x2 x3 p q o * Cert.Spec.dev x0 x1 x2 x3 p q o :=
    Finset.sum_congr rfl fun k _ => by
      rw [show idx_main_v34 (ix2 p q) k = ix3 p q k from funext fun a => Fin.ext (by match a with | ⟨0, _⟩ => rfl | ⟨1, _⟩ => rfl | ⟨2, _⟩ => rfl), val_main_v33_apply, dev_ref, Ideal.mulf_def]
  rw [val_main_v37_apply, val_main_v36_apply, val_main_cst_10_apply, val_main_v35_apply, h1, val_main_v34_apply,
    val_main_cst_9_apply, hs]
  simp only [Ideal.hostDivf_def, Ideal.ofBits_def, Ideal.ofBits_zero_f32, zero_add, Cert.Spec.var]

/-! ### The normalization, and the whole result -/

/-- The reference divides the deviation by `sqrt (var + eps)`; the specification multiplies it by `rsqrt (var + eps)`. -/
theorem out_ref (x0 x1 : FVec Ideal S8x2048x1024 .f32) (x2 : FVec Ideal S1024x1024 .f32) (x3 x4 x5 : FVec Ideal S1024 .f32)
    (p : Fin 8) (q : Fin 2048) (o : Fin 1024) :
    val_main_v50 (F := Ideal) x0 x1 x2 x3 x4 x5 (ix3 p q o) = Cert.Spec.outAt x0 x1 x2 x3 x4 x5 p q o := by
  have hg : idx_main_v45 (idx_main_v46 (ix3 p q o)) = ix1 o := funext fun a => Fin.ext (by match a with | ⟨0, _⟩ => rfl)
  have hbe : idx_main_v48 (idx_main_v49 (ix3 p q o)) = ix1 o := funext fun a => Fin.ext (by match a with | ⟨0, _⟩ => rfl)
  have hj : idx_main_v43 (ix3 p q o) = ix3 p q (0 : Fin 1) := funext fun a => Fin.ext (by match a with | ⟨0, _⟩ => rfl | ⟨1, _⟩ => rfl | ⟨2, _⟩ => rfl)
  rw [val_main_v50_apply, val_main_v49_apply, val_main_v48_apply, hbe, val_main_v47_apply, val_main_v46_apply,
    val_main_v45_apply, hg, val_main_v44_apply, val_main_v43_apply, hj, val_main_v42_apply, val_main_v41_apply,
    val_main_v40_apply, val_main_cst_11_apply, var_ref, dev_ref']
  simp only [Ideal.addf_def, Ideal.mulf_def, Ideal.hostDivf_def, Ideal.hostUnary_sqrt_def, Ideal.ofBits_def,
    Cert.Spec.div_sqrt_var, Cert.Spec.outAt]

/-- The reference's result array is the specification's, as functions of the six argument arrays. -/
theorem ref_eq (a0 a1 : FVec Ideal S8x2048x1024 .f32) (a2 : FVec Ideal S1024x1024 .f32) (a3 a4 a5 : FVec Ideal S1024 .f32) :
    val_main_v50 (F := Ideal) a0 a1 a2 a3 a4 a5 = Cert.Spec.out a0 a1 a2 a3 a4 a5 := by
  funext i
  obtain ⟨p, q, o, rfl⟩ : ∃ (p : Fin 8) (q : Fin 2048) (o : Fin 1024), i = ix3 p q o := ⟨i 0, i 1, i 2, eq_ix3 i⟩
  rw [out_ref, Cert.Spec.out_ix3]

/-- The run's named result, on every device, is the specification's function of the six argument arrays as the
    memory the run starts from holds them. -/
theorem res_eq (m : (ℓ : Loc nD τ sig) → Buf (Elt Ideal) ℓ) (c : Dev nD) :
    Cert.ReferenceIdeal.Value.res_main_v50 (F := Ideal) m c
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v50_eq (F := Ideal) m c).trans (ref_eq _ _ _ _ _ _)

/-- Every weakly fair execution of the reference terminates, faults nowhere and leaves its six arguments unchanged:
    its run, with the statement about the result dropped. -/
theorem frame_ref : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  A quantised linear layer with a residual and a layer normalisation, against its plain reference.

  With clip t = min 2.5 (max (-2.5) t), M(a) the maximum of |clip a| over all entries of an array a, and
  q(a) = round(clip a · 127/M(a)) / (127/M(a)) entry by entry, both programs compute, for the activations x, the
  residual r, the weight w (rows are outputs), the bias b and the normalisation's gamma and beta,
      y = q(x) · q(w)ᵀ + b + r,   out = (y − mean y) · rsqrt(mean (y − mean y)² + ε) · gamma + beta   along the last axis.
  The kernel takes M(x) as a running maximum over sixteen row blocks in a first region, forms 127/M(x) on the host,
  quantises and transposes the weight in a second region, and does the rest, 512 rows at a time, in a third. The
  reference spells the quantiser with a straight-through detour, clip + (q − clip), which is q because clip is a real
  number, and divides by the square root where the kernel multiplies by its reciprocal, which agree because the
  variance plus ε is positive — neither needs the inputs to be finite. The three frames: each kernel program as six
  items (host stretches and regions) launched over the library's several-region theorem, at the word level and at the
  ideal instance alike; the reference's frame is its run with the result dropped. The idealisation rewrote nothing.
-/
import proofs.«177588_j61813169324800_1_alg».proof.Defs
import proofs.«177588_j61813169324800_1_alg».proof.Proof.Gen.Kernel
import proofs.«177588_j61813169324800_1_alg».proof.Proof.Gen.KernelIdeal
import proofs.«177588_j61813169324800_1_alg».proof.Proof.Gen.ReferenceIdeal
import proofs.«177588_j61813169324800_1_alg».proof.Proof.Gen.Pre_finite_inputs
import proofs.«177588_j61813169324800_1_alg».proof.Proof.KRun
import proofs.«177588_j61813169324800_1_alg».proof.Proof.KIRun
import proofs.«177588_j61813169324800_1_alg».proof.Proof.KIResult
import proofs.«177588_j61813169324800_1_alg».proof.Proof.RefRead

noncomputable section

namespace Cert.Proof

open Idealize.ShloMosaic Idealize.SL.Sem

/-- The word-level kernel runs to the end and leaves its six arguments as launched. -/
theorem frame_kernel : Cert.frame_Kernel := fun m ρ _ => Cert.Kernel.Hand.frame m ρ

/-- So does the kernel read at the ideal instance: the same six items, the same launch. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

open Cert.KernelIdeal.Hand Cert.KernelIdeal.HandValue in
/-- From memories that agree on the arguments both programs end with the specification's function of the arguments:
    the kernel by the values its three regions and its host operations leave, the reference by its run read stage by
    stage. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c =>
      ⟨(h c _ (mem_uc Cert.KernelIdeal.main_v7 (by decide))).trans (kernel_result m ρ c),
       (h c _ (mem_uc Cert.KernelIdeal.main_arg0 (by decide))).trans (B6_main_arg0 m ρ c),
       (h c _ (mem_uc Cert.KernelIdeal.main_arg1 (by decide))).trans (B6_main_arg1 m ρ c),
       (h c _ (mem_uc Cert.KernelIdeal.main_arg2 (by decide))).trans (B6_main_arg2 m ρ c),
       (h c _ (mem_uc Cert.KernelIdeal.main_arg3 (by decide))).trans (B6_main_arg3 m ρ c),
       (h c _ (mem_uc Cert.KernelIdeal.main_arg4 (by decide))).trans (B6_main_arg4 m ρ c),
       (h c _ (mem_uc Cert.KernelIdeal.main_arg5 (by decide))).trans (B6_main_arg5 m ρ c)⟩) (run_all m ρ)
  · refine (θ_run Cert.ReferenceIdeal.defs _ _).mono (fun _ h c =>
      ⟨(h c).1.trans ((Cert.ReferenceIdeal.RefValue.res_eq m' c).trans ?_), (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
